-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 176
  | .vmem => 39
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S_, .f32⟩
  | 86 => ⟨S_, .f32⟩
  | 87 => ⟨S_, .f32⟩
  | 88 => ⟨S128, .f32⟩
  | 89 => ⟨S1x128, .f32⟩
  | 90 => ⟨S1x128, .f32⟩
  | 91 => ⟨S1x128, .f32⟩
  | 92 => ⟨S_, .f32⟩
  | 93 => ⟨S_, .i1⟩
  | 94 => ⟨S_, .f32⟩
  | 95 => ⟨S_, .f32⟩
  | 96 => ⟨S1x128, .f32⟩
  | 97 => ⟨S1x128, .f32⟩
  | 98 => ⟨S1x128, .f32⟩
  | 99 => ⟨S1x128, .f32⟩
  | 100 => ⟨S100000x128, .f32⟩
  | 101 => ⟨S100000x128, .f32⟩
  | 102 => ⟨S100000x128, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x128, .f32⟩
  | 112 => ⟨S1700000x1, .f32⟩
  | 113 => ⟨S1700000x128, .f32⟩
  | 114 => ⟨S1700000x128, .f32⟩
  | 115 => ⟨S_, .f32⟩
  | 116 => ⟨S100000x128, .f32⟩
  | 117 => ⟨S1700000x1, .i32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S1x128, .f32⟩
  | 125 => ⟨S_, .f32⟩
  | 126 => ⟨S1x128, .f32⟩
  | 127 => ⟨S1x128, .f32⟩
  | _ => ⟨S100000x128, .f32⟩

abbrev hbmTy0_1 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S100000x128, .f32⟩
  | 8 => ⟨S100000x128, .f32⟩
  | 9 => ⟨S100000x128, .f32⟩
  | 10 => ⟨S_, .f32⟩
  | 11 => ⟨S_, .f32⟩
  | 12 => ⟨S_, .f32⟩
  | 13 => ⟨S_, .f32⟩
  | 14 => ⟨S128, .f32⟩
  | 15 => ⟨S1x128, .f32⟩
  | 16 => ⟨S1x128, .f32⟩
  | 17 => ⟨S1x128, .f32⟩
  | 18 => ⟨S_, .f32⟩
  | 19 => ⟨S_, .i1⟩
  | 20 => ⟨S_, .f32⟩
  | 21 => ⟨S_, .f32⟩
  | 22 => ⟨S1x128, .f32⟩
  | 23 => ⟨S1x128, .f32⟩
  | 24 => ⟨S1x128, .f32⟩
  | 25 => ⟨S1x128, .f32⟩
  | 26 => ⟨S100000x128, .f32⟩
  | 27 => ⟨S100000x128, .f32⟩
  | 28 => ⟨S100000x64, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x64, .f32⟩
  | 38 => ⟨S1700000x1, .f32⟩
  | 39 => ⟨S1700000x64, .f32⟩
  | 40 => ⟨S1700000x64, .f32⟩
  | 41 => ⟨S_, .f32⟩
  | 42 => ⟨S100000x64, .f32⟩
  | 43 => ⟨S1700000x1, .i32⟩
  | 44 => ⟨S100000x64, .f32⟩
  | 45 => ⟨S1x64, .f32⟩
  | 46 => ⟨S100000x64, .f32⟩
  | 47 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x64, .f32⟩
  | .local _ .vmem, ⟨37, _⟩ => ⟨S5000x64, .f32⟩
  | .local _ .vmem, ⟨38, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_cst_1 : Ref sig .tc := ⟨.hbm, 85, rfl⟩
abbrev main_call0_v8 : Ref sig .tc := ⟨.hbm, 86, rfl⟩
abbrev main_call0_cst_2 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_call0_v12 : Ref sig .tc := ⟨.hbm, 91, rfl⟩
abbrev main_call0_cst_3 : Ref sig .tc := ⟨.hbm, 92, rfl⟩
abbrev main_call0_v13 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53_0 : Ref sig .tc := ⟨.hbm, 100, rfl⟩
abbrev main_v53_1 : Ref sig .tc := ⟨.hbm, 101, rfl⟩
abbrev main_v54 : Ref sig .tc := ⟨.hbm, 102, rfl⟩
abbrev main_c_11 : Ref sig .tc := ⟨.hbm, 103, rfl⟩
abbrev main_v55 : Ref sig .tc := ⟨.hbm, 104, rfl⟩
abbrev main_v56 : Ref sig .tc := ⟨.hbm, 105, rfl⟩
abbrev main_c_12 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_13 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_14 : Ref sig .tc := ⟨.hbm, 122, rfl⟩
abbrev main_v71 : Ref sig .tc := ⟨.hbm, 123, rfl⟩
abbrev main_v72 : Ref sig .tc := ⟨.hbm, 124, rfl⟩
abbrev main_cst_15 : Ref sig .tc := ⟨.hbm, 125, rfl⟩
abbrev main_v73 : Ref sig .tc := ⟨.hbm, 126, rfl⟩
abbrev main_v74 : Ref sig .tc := ⟨.hbm, 127, rfl⟩
abbrev main_c_16 : Ref sig .tc := ⟨.hbm, 128, rfl⟩
abbrev main_call1_cst : Ref sig .tc := ⟨.hbm, 129, rfl⟩
abbrev main_call1_v0 : Ref sig .tc := ⟨.hbm, 130, rfl⟩
abbrev main_call1_v1 : Ref sig .tc := ⟨.hbm, 131, rfl⟩
abbrev main_call1_cst_0 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_call1_v5 : Ref sig .tc := ⟨.hbm, 136, rfl⟩
abbrev main_call1_v6 : Ref sig .tc := ⟨.hbm, 137, rfl⟩
abbrev main_call1_v7 : Ref sig .tc := ⟨.hbm, 138, rfl⟩
abbrev main_call1_cst_1 : Ref sig .tc := ⟨.hbm, 139, rfl⟩
abbrev main_call1_v8 : Ref sig .tc := ⟨.hbm, 140, rfl⟩
abbrev main_call1_cst_2 : Ref sig .tc := ⟨.hbm, 141, rfl⟩
abbrev main_call1_v9 : Ref sig .tc := ⟨.hbm, 142, rfl⟩
abbrev main_call1_v10 : Ref sig .tc := ⟨.hbm, 143, rfl⟩
abbrev main_call1_v11 : Ref sig .tc := ⟨.hbm, 144, rfl⟩
abbrev main_call1_v12 : Ref sig .tc := ⟨.hbm, 145, rfl⟩
abbrev main_call1_cst_3 : Ref sig .tc := ⟨.hbm, 146, rfl⟩
abbrev main_call1_v13 : Ref sig .tc := ⟨.hbm, 147, rfl⟩
abbrev main_call1_cst_4 : Ref sig .tc := ⟨.hbm, 148, rfl⟩
abbrev main_call1_call0_v0 : Ref sig .tc := ⟨.hbm, 149, rfl⟩
abbrev main_call1_call0_v1 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78_0 : Ref sig .tc := ⟨.hbm, 154, rfl⟩
abbrev main_v78_1 : Ref sig .tc := ⟨.hbm, 155, rfl⟩
abbrev main_v79 : Ref sig .tc := ⟨.hbm, 156, rfl⟩
abbrev main_c_17 : Ref sig .tc := ⟨.hbm, 157, rfl⟩
abbrev main_v80 : Ref sig .tc := ⟨.hbm, 158, rfl⟩
abbrev main_v81 : Ref sig .tc := ⟨.hbm, 159, rfl⟩
abbrev main_c_18 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_cst_19 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc3_stg7_0 : Ref sig .tc := ⟨.vmem, 32, rfl⟩
abbrev cc3_stg7_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc3_sem6_0 : DmaSem sig := 30
abbrev cc3_sem6_1 : DmaSem sig := 31
abbrev cc3_sem7_0 : DmaSem sig := 32
abbrev cc3_sem7_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S5000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v53_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v53_1) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v53_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53_0) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v78_0) S5000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v78_1) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v78_1) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 268
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S1x1600000, .i32⟩
  | 13 => ⟨S1600000, .i32⟩
  | 14 => ⟨S1x1600000, .i32⟩
  | 15 => ⟨S1600000, .i32⟩
  | 16 => ⟨S100000x128, .f32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S100000x128, .f32⟩
  | 81 => ⟨S100000x128, .f32⟩
  | 82 => ⟨S100000x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S_, .f32⟩
  | 100 => ⟨S128, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S100000, .i32⟩
  | 118 => ⟨S1700000, .i32⟩
  | 119 => ⟨S1700000, .i32⟩
  | 120 => ⟨S_, .f32⟩
  | 121 => ⟨S1700000, .f32⟩
  | 122 => ⟨S_, .f32⟩
  | 123 => ⟨S100000, .f32⟩
  | 124 => ⟨S1700000x1, .i32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S100000, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000, .f32⟩
  | 20 => ⟨S1700000, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000x128, .f32⟩
  | 30 => ⟨S1700000x1, .f32⟩
  | 31 => ⟨S1700000x128, .f32⟩
  | 32 => ⟨S1700000x128, .f32⟩
  | 33 => ⟨S_, .f32⟩
  | 34 => ⟨S100000x128, .f32⟩
  | 35 => ⟨S1700000x1, .i32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S_, .f32⟩
  | 43 => ⟨S128, .f32⟩
  | 44 => ⟨S128, .f32⟩
  | 45 => ⟨S_, .i32⟩
  | 46 => ⟨S_, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S100000x128, .f32⟩
  | 53 => ⟨S100000x128, .f32⟩
  | 54 => ⟨S100000x128, .f32⟩
  | 55 => ⟨S_, .f32⟩
  | 56 => ⟨S_, .f32⟩
  | 57 => ⟨S_, .f32⟩
  | 58 => ⟨S_, .f32⟩
  | 59 => ⟨S128, .f32⟩
  | 60 => ⟨S128, .f32⟩
  | 61 => ⟨S128, .f32⟩
  | 62 => ⟨S_, .f32⟩
  | 63 => ⟨S_, .i1⟩
  | 64 => ⟨S_, .f32⟩
  | 65 => ⟨S_, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x64, .f32⟩
  | 89 => ⟨S100000, .i32⟩
  | 90 => ⟨S1700000, .i32⟩
  | 91 => ⟨S1700000, .i32⟩
  | 92 => ⟨S_, .f32⟩
  | 93 => ⟨S1700000, .f32⟩
  | 94 => ⟨S_, .f32⟩
  | 95 => ⟨S100000, .f32⟩
  | 96 => ⟨S1700000x1, .i32⟩
  | 97 => ⟨S100000, .f32⟩
  | 98 => ⟨S_, .f32⟩
  | 99 => ⟨S100000, .f32⟩
  | 100 => ⟨S100000, .f32⟩
  | 101 => ⟨S100000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000, .f32⟩
  | 120 => ⟨S1700000, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x128, .f32⟩

abbrev hbmTy0_2 (i : Nat) : BufTy := match i % 128 with
  | 0 => ⟨S1700000x1, .i32⟩
  | 1 => ⟨S1700000x64, .f32⟩
  | 2 => ⟨S1700000x1, .f32⟩
  | 3 => ⟨S1700000x64, .f32⟩
  | 4 => ⟨S1700000x64, .f32⟩
  | 5 => ⟨S_, .f32⟩
  | 6 => ⟨S100000x64, .f32⟩
  | 7 => ⟨S1700000x1, .i32⟩
  | 8 => ⟨S100000x64, .f32⟩
  | 9 => ⟨S1x64, .f32⟩
  | 10 => ⟨S100000x64, .f32⟩
  | 11 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_call0_cst : Ref sig .tc := ⟨.hbm, 74, rfl⟩
abbrev main_call0_v0 : Ref sig .tc := ⟨.hbm, 75, rfl⟩
abbrev main_call0_v1 : Ref sig .tc := ⟨.hbm, 76, rfl⟩
abbrev main_call0_cst_0 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_cst_2 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_cst_3 : Ref sig .tc := ⟨.hbm, 90, rfl⟩
abbrev main_call0_v12 : Ref sig .tc := ⟨.hbm, 91, rfl⟩
abbrev main_call0_cst_4 : Ref sig .tc := ⟨.hbm, 92, rfl⟩
abbrev main_call0_call0_v0 : Ref sig .tc := ⟨.hbm, 93, rfl⟩
abbrev main_call0_call0_v1 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_11 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_call1_cst : Ref sig .tc := ⟨.hbm, 113, rfl⟩
abbrev main_call1_v0 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_12 : Ref sig .tc := ⟨.hbm, 120, rfl⟩
abbrev main_v71 : Ref sig .tc := ⟨.hbm, 121, rfl⟩
abbrev main_cst_13 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_14 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_15 : Ref sig .tc := ⟨.hbm, 130, rfl⟩
abbrev main_v78 : Ref sig .tc := ⟨.hbm, 131, rfl⟩
abbrev main_v79 : Ref sig .tc := ⟨.hbm, 132, rfl⟩
abbrev main_c_16 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_17 : Ref sig .tc := ⟨.hbm, 139, rfl⟩
abbrev main_v85 : Ref sig .tc := ⟨.hbm, 140, rfl⟩
abbrev main_v86 : Ref sig .tc := ⟨.hbm, 141, rfl⟩
abbrev main_c_18 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_19 : Ref sig .tc := ⟨.hbm, 149, rfl⟩
abbrev main_v93 : Ref sig .tc := ⟨.hbm, 150, rfl⟩
abbrev main_v94 : Ref sig .tc := ⟨.hbm, 151, rfl⟩
abbrev main_c_20 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_21 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_22 : Ref sig .tc := ⟨.hbm, 168, rfl⟩
abbrev main_v109 : Ref sig .tc := ⟨.hbm, 169, rfl⟩
abbrev main_cst_23 : Ref sig .tc := ⟨.hbm, 170, rfl⟩
abbrev main_v110 : Ref sig .tc := ⟨.hbm, 171, rfl⟩
abbrev main_v111 : Ref sig .tc := ⟨.hbm, 172, rfl⟩
abbrev main_c_24 : Ref sig .tc := ⟨.hbm, 173, rfl⟩
abbrev main_call2_cst : Ref sig .tc := ⟨.hbm, 174, rfl⟩
abbrev main_call2_v0 : Ref sig .tc := ⟨.hbm, 175, rfl⟩
abbrev main_call2_v1 : Ref sig .tc := ⟨.hbm, 176, rfl⟩
abbrev main_call2_cst_0 : Ref sig .tc := ⟨.hbm, 177, rfl⟩
abbrev main_call2_v2 : Ref sig .tc := ⟨.hbm, 178, rfl⟩
abbrev main_call2_v3 : Ref sig .tc := ⟨.hbm, 179, rfl⟩
abbrev main_call2_v4 : Ref sig .tc := ⟨.hbm, 180, rfl⟩
abbrev main_call2_v5 : Ref sig .tc := ⟨.hbm, 181, rfl⟩
abbrev main_call2_v6 : Ref sig .tc := ⟨.hbm, 182, rfl⟩
abbrev main_call2_v7 : Ref sig .tc := ⟨.hbm, 183, rfl⟩
abbrev main_call2_cst_1 : Ref sig .tc := ⟨.hbm, 184, rfl⟩
abbrev main_call2_v8 : Ref sig .tc := ⟨.hbm, 185, rfl⟩
abbrev main_call2_cst_2 : Ref sig .tc := ⟨.hbm, 186, rfl⟩
abbrev main_call2_v9 : Ref sig .tc := ⟨.hbm, 187, rfl⟩
abbrev main_call2_v10 : Ref sig .tc := ⟨.hbm, 188, rfl⟩
abbrev main_call2_v11 : Ref sig .tc := ⟨.hbm, 189, rfl⟩
abbrev main_call2_cst_3 : Ref sig .tc := ⟨.hbm, 190, rfl⟩
abbrev main_call2_v12 : Ref sig .tc := ⟨.hbm, 191, rfl⟩
abbrev main_call2_cst_4 : Ref sig .tc := ⟨.hbm, 192, rfl⟩
abbrev main_call2_call0_v0 : Ref sig .tc := ⟨.hbm, 193, rfl⟩
abbrev main_call2_call0_v1 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_cst_25 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_call3_cst : Ref sig .tc := ⟨.hbm, 213, rfl⟩
abbrev main_call3_v0 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_cst_26 : Ref sig .tc := ⟨.hbm, 220, rfl⟩
abbrev main_v134 : Ref sig .tc := ⟨.hbm, 221, rfl⟩
abbrev main_cst_27 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_cst_28 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_c_29 : Ref sig .tc := ⟨.hbm, 230, rfl⟩
abbrev main_v141 : Ref sig .tc := ⟨.hbm, 231, rfl⟩
abbrev main_v142 : Ref sig .tc := ⟨.hbm, 232, rfl⟩
abbrev main_c_30 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_c_31 : Ref sig .tc := ⟨.hbm, 239, rfl⟩
abbrev main_v148 : Ref sig .tc := ⟨.hbm, 240, rfl⟩
abbrev main_v149 : Ref sig .tc := ⟨.hbm, 241, rfl⟩
abbrev main_c_32 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_c_33 : Ref sig .tc := ⟨.hbm, 249, rfl⟩
abbrev main_v156 : Ref sig .tc := ⟨.hbm, 250, rfl⟩
abbrev main_v157 : Ref sig .tc := ⟨.hbm, 251, rfl⟩
abbrev main_c_34 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_cst_35 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernRun.lean ====
/-
  The kernel program's run with its RESULT named: every weakly fair execution of its @main ends with the
  result array at the contents the last host stretch leaves (the fold of the thirteen segments from the launch
  memory), the arguments as launched. The frame proof's argument, with the result's buffer read off the final
  thread state beside the arguments'.
-/
import proofs.«156291_j67765993996292_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The result array ends at the last boundary's contents; the twelve arguments end as launched. -/
theorem run_value : θ_run defs (onTc (τ := τ) (main (F := F))) ⟨m, fun _ => 0, ρ⟩ (fun r => ∀ c : Dev nD,
      r.2.mem ((c.tc : Thread nD τ).loc main_v95) = W13 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v95 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.Gen

end
-- ==== Proof.Spec.lean ====
/-
  The network both programs compute, as ONE pure function of the twelve argument arrays.

  A graph-convolution layer sends node features `h` to `Â h + b`, where `Â = D^{-1/2} (A + I) D^{-1/2}`: every
  edge `(s, d)` of the edge list, and one loop per node, adds `h[s] / sqrt (deg s · deg d)` to row `d`
  (`deg` counts the edges, loops included, that END at a node, and is at least one). Three such layers act on
  `x W₁`, `relu(h₁) W₂`, `relu(h₂) W₃`; after each of the first two the columns are normalized over the
  100000 nodes (mean and biased variance per column, `(c - mean) · rsqrt (var + ε) · γ + β`) and the layer's input
  is added back.

  Every stage below is spelt with the host operations of the reference program, in its order, over its shape,
  gather, scatter and broadcast records, so that the reference's composed term is `refOut` by unfolding
  definitions, and the kernel program's host stretches are the same stages around its five kernel regions.
  The two forms of the normalization — the statistics kept as rows `[1, 128]` (`bnSkip`, what a kernel region
  reads) and as vectors `[128]` (`bn128`, what the reference computes) — are both here.
-/
import proofs.«156291_j67765993996292_1_alg».proof.ReferenceIdeal
import Idealize.ShloMosaic.PureOps.Ideal

noncomputable section

namespace Cert.Spec

open Idealize.ShloMosaic Cert.ReferenceIdeal

variable {F : FTy → Type} [FloatOps F] [Facts₀]
open Facts₀

/-! ## The edge list: sources, destinations, one loop per node -/

/-- Row 0 of the edge list: the sources. -/
def srcRow (ei : Vec F S2x1600000 .i32) : Vec F S1600000 .i32 :=
  shapeCast S1600000 (extractStridedSlice S1x1600000 ![0, 0] ei slices_S2x1600000_S1x1600000_0_0) shapeCasts_S1x1600000_S1600000

/-- Row 1 of the edge list: the destinations. -/
def dstRow (ei : Vec F S2x1600000 .i32) : Vec F S1600000 .i32 :=
  shapeCast S1600000 (extractStridedSlice S1x1600000 ![1, 0] ei slices_S2x1600000_S1x1600000_1_0) shapeCasts_S1x1600000_S1600000

/-- A row of endpoints followed by every node once (the loops). -/
def withLoops (v : Vec F S1600000 .i32) : Vec F S1700000 .i32 :=
  concatenate S1700000 0 [⟨S1600000, v⟩, ⟨S100000, iotaInDim S100000 32 0⟩] concatenates_S1600000_S100000_S1700000_d0

/-- A list of node numbers as a column of one-entry index vectors. -/
def col (v : Vec F S1700000 .i32) : Vec F S1700000x1 .i32 :=
  broadcastInDim S1700000x1 ![0] bcast_S1700000_S1700000x1_0 v

/-- A negative node number counted from the end (jnp's indexing convention). -/
def wrap (v : Vec F S1700000 .i32) : Vec F S1700000 .i32 :=
  select (cmpi .slt v (broadcastInDim S1700000 ![] bcast_S_S1700000 (constantI S_ 32 0#32)))
    (addi v (broadcastInDim S1700000 ![] bcast_S_S1700000 (constantI S_ 32 100000#32))) v

/-- `deg^{-1/2}`: the number of edges ending at each node, at least one, under the reciprocal square root. -/
def degInv (d : Vec F S1700000 .i32) : Vec F S100000 .f32 :=
  Host.rsqrt (maximumf
    (Host.scatterAdd scatter_S100000_S1700000x1_S1700000_n_0_0_1 (broadcastInDim S100000 ![] bcast_S_S100000 (constant S_ .f32 0x00000000#32))
      (col d) (broadcastInDim S1700000 ![] bcast_S_S1700000 (constant S_ .f32 0x3F800000#32)))
    (broadcastInDim S100000 ![] bcast_S_S100000 (constant S_ .f32 0x3F800000#32)))

/-- The weight of each edge: `deg^{-1/2}` at its source times `deg^{-1/2}` at its destination. -/
def edgeNorm (s d : Vec F S1700000 .i32) : Vec F S1700000 .f32 :=
  mulf (Host.gather gather_S100000_S1700000x1_S1700000_n_0_n_n_0_1_1 (degInv d) (col (wrap s)))
    (Host.gather gather_S100000_S1700000x1_S1700000_n_0_n_n_0_1_1 (degInv d) (col (wrap d)))

/-! ## One aggregation: every edge adds its weighted source row to its destination row -/

def aggregate128 (h : Vec F S100000x128 .f32) (s d : Vec F S1700000 .i32) : Vec F S100000x128 .f32 :=
  Host.scatterAdd scatter_S100000x128_S1700000x1_S1700000x128_1_0_0_1
    (broadcastInDim S100000x128 ![] bcast_S_S100000x128 (constant S_ .f32 0x00000000#32)) (col d)
    (mulf (Host.gather gather_S100000x128_S1700000x1_S1700000x128_1_0_n_n_0_1_1128 h (col (wrap s)))
      (broadcastInDim S1700000x128 ![0, 1] bcast_S1700000x1_S1700000x128_0_1
        (broadcastInDim S1700000x1 ![0] bcast_S1700000_S1700000x1_0 (edgeNorm s d))))

def aggregate64 (h : Vec F S100000x64 .f32) (s d : Vec F S1700000 .i32) : Vec F S100000x64 .f32 :=
  Host.scatterAdd scatter_S100000x64_S1700000x1_S1700000x64_1_0_0_1
    (broadcastInDim S100000x64 ![] bcast_S_S100000x64 (constant S_ .f32 0x00000000#32)) (col d)
    (mulf (Host.gather gather_S100000x64_S1700000x1_S1700000x64_1_0_n_n_0_1_164 h (col (wrap s)))
      (broadcastInDim S1700000x64 ![0, 1] bcast_S1700000x1_S1700000x64_0_1
        (broadcastInDim S1700000x1 ![0] bcast_S1700000_S1700000x1_0 (edgeNorm s d))))

/-- A vector of 128 column values as a row `[1, 128]`. -/
def row128 (v : Vec F S128 .f32) : Vec F S1x128 .f32 := broadcastInDim S1x128 ![1] bcast_S128_S1x128_1 v

/-- A row `[1, 128]` repeated down the 100000 nodes. -/
def down128 (v : Vec F S1x128 .f32) : Vec F S100000x128 .f32 := broadcastInDim S100000x128 ![0, 1] bcast_S1x128_S100000x128_0_1 v

/-- The layer's output: the aggregation plus the bias in every row. -/
def conv128 (h : Vec F S100000x128 .f32) (ei : Vec F S2x1600000 .i32) (b : Vec F S128 .f32) : Vec F S100000x128 .f32 :=
  addf (aggregate128 h (withLoops (srcRow ei)) (withLoops (dstRow ei))) (down128 (row128 b))

def conv64 (h : Vec F S100000x64 .f32) (ei : Vec F S2x1600000 .i32) (b : Vec F S64 .f32) : Vec F S100000x64 .f32 :=
  addf (aggregate64 h (withLoops (srcRow ei)) (withLoops (dstRow ei)))
    (broadcastInDim S100000x64 ![0, 1] bcast_S1x64_S100000x64_0_1 (broadcastInDim S1x64 ![1] bcast_S64_S1x64_1 b))

/-! ## The dense products -/

def dot128 (x : Vec F S100000x128 .f32) (w : Vec F S128x128 .f32) : Vec F S100000x128 .f32 :=
  Host.dotGeneral dot_S100000x128_S128x128_S100000x128_1_0_0_1_n_n none x w

def dot64 (x : Vec F S100000x128 .f32) (w : Vec F S128x64 .f32) : Vec F S100000x64 .f32 :=
  Host.dotGeneral dot_S100000x128_S128x64_S100000x64_1_0_0_1_n_n none x w

/-! ## Column statistics over the nodes -/

/-- The sum of each column. -/
def colSum (x : Vec F S100000x128 .f32) : Vec F S128 .f32 :=
  Host.reduceAdd x (constant S_ .f32 0x00000000#32) reducesTo_S100000x128_S128_d0 h_S_

/-- The mean of each column, as a vector. -/
def mean128 (x : Vec F S100000x128 .f32) : Vec F S128 .f32 :=
  Host.divf (colSum x) (broadcastInDim S128 ![] bcast_S_S128 (constant S_ .f32 0x47C35000#32))

/-- The mean of each column, as a row (the sum made a row first, then divided). -/
def meanRow (x : Vec F S100000x128 .f32) : Vec F S1x128 .f32 :=
  Host.divf (row128 (colSum x)) (broadcastInDim S1x128 ![] bcast_S_S1x128 (constant S_ .f32 0x47C35000#32))

/-- Each entry's squared distance from its column's mean. -/
def sqDev (x : Vec F S100000x128 .f32) : Vec F S100000x128 .f32 :=
  mulf (subf x (down128 (meanRow x))) (subf x (down128 (meanRow x)))

/-- The divisor of the variance: the number of nodes less the correction `ddof`. -/
def normalizer (ddof : Vec F S_ .i32) : Vec F S_ .f32 := subf (constant S_ .f32 0x47C35000#32) (sitofp .f32 ddof)

/-- The variance of each column, as a vector (where the divisor is not positive: the literal the source gives). -/
def var128 (x : Vec F S100000x128 .f32) (ddof : Vec F S_ .i32) : Vec F S128 .f32 :=
  select (broadcastInDim S128 ![] bcast_S_S128 (cmpf .ogt (normalizer ddof) (constant S_ .f32 0x00000000#32)))
    (Host.divf (colSum (sqDev x)) (broadcastInDim S128 ![] bcast_S_S128 (normalizer ddof)))
    (broadcastInDim S128 ![] bcast_S_S128 (id (constant S_ .f32 0x7FC00000#32)))

/-- The variance of each column, as a row. -/
def varRow (x : Vec F S100000x128 .f32) (ddof : Vec F S_ .i32) : Vec F S1x128 .f32 :=
  select (broadcastInDim S1x128 ![] bcast_S_S1x128 (cmpf .ogt (normalizer ddof) (constant S_ .f32 0x00000000#32)))
    (Host.divf (row128 (colSum (sqDev x))) (broadcastInDim S1x128 ![] bcast_S_S1x128 (normalizer ddof)))
    (broadcastInDim S1x128 ![] bcast_S_S1x128 (id (constant S_ .f32 0x7FC00000#32)))

/-- The correction both programs pass: none. -/
def ddof0 : Vec F S_ .i32 := constantI S_ 32 0#32

/-! ## The normalization, in its two forms -/

/-- Statistics and parameters as vectors: `(c - mean) · rsqrt (var + ε) · γ + β`. -/
def bn128 (cv : Vec F S100000x128 .f32) (g be : Vec F S128 .f32) : Vec F S100000x128 .f32 :=
  addf (mulf (mulf (subf cv (down128 (row128 (mean128 cv))))
      (down128 (row128 (Host.rsqrt (addf (var128 cv ddof0) (broadcastInDim S128 ![] bcast_S_S128 (constant S_ .f32 0x3727C5AC#32)))))))
      (down128 (row128 g))) (down128 (row128 be))

/-- Statistics and parameters as rows, the layer's input added back: what a normalization region computes. -/
def bnSkip (cv : Vec F S100000x128 .f32) (mean var g be : Vec F S1x128 .f32) (x : Vec F S100000x128 .f32) : Vec F S100000x128 .f32 :=
  addf (addf (mulf (mulf (subf cv (down128 mean))
      (down128 (Host.rsqrt (addf var (broadcastInDim S1x128 ![] bcast_S_S1x128 (constant S_ .f32 0x3727C5AC#32))))))
      (down128 g)) (down128 be)) x

def relu (h : Vec F S100000x128 .f32) : Vec F S100000x128 .f32 :=
  maximumf h (broadcastInDim S100000x128 ![] bcast_S_S100000x128 (constant S_ .f32 0x00000000#32))

/-! ## The network -/

def hidden1 (x : Vec F S100000x128 .f32) (ei : Vec F S2x1600000 .i32) (W1 : Vec F S128x128 .f32) (b1 g1 be1 : Vec F S128 .f32) :
    Vec F S100000x128 .f32 :=
  addf (bn128 (conv128 (dot128 x W1) ei b1) g1 be1) x

def hidden2 (x : Vec F S100000x128 .f32) (ei : Vec F S2x1600000 .i32) (W1 : Vec F S128x128 .f32) (b1 g1 be1 : Vec F S128 .f32)
    (W2 : Vec F S128x128 .f32) (b2 g2 be2 : Vec F S128 .f32) : Vec F S100000x128 .f32 :=
  addf (bn128 (conv128 (dot128 (relu (hidden1 x ei W1 b1 g1 be1)) W2) ei b2) g2 be2) (hidden1 x ei W1 b1 g1 be1)

def refOut (x : Vec F S100000x128 .f32) (ei : Vec F S2x1600000 .i32) (W1 : Vec F S128x128 .f32) (b1 g1 be1 : Vec F S128 .f32)
    (W2 : Vec F S128x128 .f32) (b2 g2 be2 : Vec F S128 .f32) (W3 : Vec F S128x64 .f32) (b3 : Vec F S64 .f32) : Vec F S100000x64 .f32 :=
  conv64 (dot64 (relu (hidden2 x ei W1 b1 g1 be1 W2 b2 g2 be2)) W3) ei b3

end Cert.Spec

end
-- ==== Proof.BnForms.lean ====
/-
  The two forms of the normalization agree.

  The column statistics of a 100000 × 128 array are computed from column sums.  One form keeps them as vectors of
  128 entries: it divides, selects and takes the reciprocal square root entry by entry, and only then writes the
  result as a row `[1, 128]` and repeats it down the nodes.  The other writes the column sums as a row first and
  does the same arithmetic on rows.  Writing a vector as a row is a re-indexing (entry `(0, j)` of the row is entry
  `j` of the vector) and every operation between is entry by entry, so re-indexing commutes with each of them;
  a single value repeated along the vector and then written as a row is that value repeated along the row.  Hence
  the mean and the variance as rows are the rows of the mean and the variance as vectors, and the two normalized
  arrays are the same array.  No arithmetic is evaluated: both sides apply the same operations to the same
  entries of the column sums.
-/
import proofs.«156291_j67765993996292_1_alg».proof.Proof.Spec

noncomputable section

namespace Cert.Spec

open Idealize.ShloMosaic Cert.ReferenceIdeal

variable {F : FTy → Type} [FloatOps F] [Facts₀]
open Facts₀

/-! ## Writing a vector as a row commutes with the entrywise operations -/

/-- One value repeated along a vector of 128 entries, written as a row, is that value repeated along the row. -/
theorem row_repeat {α : Type} (c : S_.Idx → α) :
    broadcastInDim S1x128 ![1] bcast_S128_S1x128_1 (broadcastInDim S128 ![] bcast_S_S128 c)
      = broadcastInDim S1x128 ![] bcast_S_S1x128 c :=
  funext fun i => congrArg c (funext fun a => a.elim0)

/-- The row of a quotient is the quotient of the rows. -/
theorem row_divf (a b : Vec F S128 .f32) : row128 (Host.divf a b) = Host.divf (row128 a) (row128 b) := rfl

/-- The row of a sum is the sum of the rows. -/
theorem row_addf (a b : Vec F S128 .f32) : row128 (addf a b) = addf (row128 a) (row128 b) := rfl

/-- The row of the reciprocal square roots is the reciprocal square root of the row. -/
theorem row_rsqrt (a : Vec F S128 .f32) : row128 (Host.rsqrt a) = Host.rsqrt (row128 a) := rfl

/-- The row of a selection is the selection between the rows, by the row of the conditions. -/
theorem row_select (c : Vec F S128 .i1) (a b : Vec F S128 .f32) :
    row128 (select c a b) = select (broadcastInDim S1x128 ![1] bcast_S128_S1x128_1 c) (row128 a) (row128 b) := rfl

/-- A value repeated along the vector, as a row. -/
theorem row_repeatf (c : Vec F S_ .f32) :
    row128 (broadcastInDim S128 ![] bcast_S_S128 c) = broadcastInDim S1x128 ![] bcast_S_S1x128 c := row_repeat c

/-! ## The statistics -/

/-- The mean kept as a row is the row of the mean kept as a vector. -/
theorem meanRow_eq (x : Vec F S100000x128 .f32) : meanRow x = row128 (mean128 x) := by
  unfold meanRow mean128
  generalize colSum x = sm
  rw [row_divf, row_repeatf]

/-- The variance kept as a row is the row of the variance kept as a vector. -/
theorem varRow_eq (x : Vec F S100000x128 .f32) (ddof : Vec F S_ .i32) : varRow x ddof = row128 (var128 x ddof) := by
  unfold varRow var128
  generalize colSum (sqDev x) = sq
  rw [row_select, row_divf, row_repeatf, row_repeatf, row_repeat]

/-! ## The normalization -/

/-- Normalizing with the statistics and the parameters kept as rows, and adding the layer's input back, is
    normalizing with them kept as vectors and adding the input back. -/
theorem bnSkip_rows (cv : Vec F S100000x128 .f32) (g be : Vec F S128 .f32) (x : Vec F S100000x128 .f32) :
    bnSkip cv (meanRow cv) (varRow cv ddof0) (row128 g) (row128 be) x = addf (bn128 cv g be) x := by
  unfold bnSkip bn128
  rw [row_rsqrt, row_addf, row_repeatf, ← varRow_eq, ← meanRow_eq]

end Cert.Spec

end
-- ==== Proof.SpecKernel.lean ====
/-
  The network as the kernel program computes it: the same three graph-convolution layers, with each
  normalization done on ROWS of statistics (the column sums made a row [1, 128] before they are divided), which is
  what a normalization region reads. It is the specification's network: the row form and the vector form of the
  normalization agree entry by entry.
-/
import proofs.«156291_j67765993996292_1_alg».proof.Proof.Spec
import proofs.«156291_j67765993996292_1_alg».proof.Proof.BnForms

noncomputable section

namespace Cert.Spec

open Idealize.ShloMosaic Cert.ReferenceIdeal

variable {F : FTy → Type} [FloatOps F] [Facts₀]
open Facts₀

/-- The first hidden layer, its normalization over rows of statistics. -/
def kernHidden1 (x : Vec F S100000x128 .f32) (ei : Vec F S2x1600000 .i32) (W1 : Vec F S128x128 .f32) (b1 g1 be1 : Vec F S128 .f32) : Vec F S100000x128 .f32 :=
  bnSkip (conv128 (dot128 x W1) ei b1) (meanRow (conv128 (dot128 x W1) ei b1)) (varRow (conv128 (dot128 x W1) ei b1) ddof0)
    (row128 g1) (row128 be1) x

/-- The second hidden layer's convolution, of the rectified first. -/
def kernConv2 (x : Vec F S100000x128 .f32) (ei : Vec F S2x1600000 .i32) (W1 : Vec F S128x128 .f32) (b1 g1 be1 : Vec F S128 .f32) (W2 : Vec F S128x128 .f32) (b2 : Vec F S128 .f32) : Vec F S100000x128 .f32 :=
  conv128 (dot128 (relu (kernHidden1 x ei W1 b1 g1 be1)) W2) ei b2

/-- The second hidden layer. -/
def kernHidden2 (x : Vec F S100000x128 .f32) (ei : Vec F S2x1600000 .i32) (W1 : Vec F S128x128 .f32) (b1 g1 be1 : Vec F S128 .f32) (W2 : Vec F S128x128 .f32) (b2 g2 be2 : Vec F S128 .f32) : Vec F S100000x128 .f32 :=
  bnSkip (kernConv2 x ei W1 b1 g1 be1 W2 b2) (meanRow (kernConv2 x ei W1 b1 g1 be1 W2 b2)) (varRow (kernConv2 x ei W1 b1 g1 be1 W2 b2) ddof0)
    (row128 g2) (row128 be2) (kernHidden1 x ei W1 b1 g1 be1)

/-- The output layer. -/
def kernOut (x : Vec F S100000x128 .f32) (ei : Vec F S2x1600000 .i32) (W1 : Vec F S128x128 .f32) (b1 g1 be1 : Vec F S128 .f32) (W2 : Vec F S128x128 .f32) (b2 g2 be2 : Vec F S128 .f32) (W3 : Vec F S128x64 .f32) (b3 : Vec F S64 .f32) : Vec F S100000x64 .f32 :=
  conv64 (dot64 (relu (kernHidden2 x ei W1 b1 g1 be1 W2 b2 g2 be2)) W3) ei b3

theorem kernHidden1_eq (x : Vec F S100000x128 .f32) (ei : Vec F S2x1600000 .i32) (W1 : Vec F S128x128 .f32) (b1 g1 be1 : Vec F S128 .f32) : kernHidden1 x ei W1 b1 g1 be1 = hidden1 x ei W1 b1 g1 be1 := by
  unfold kernHidden1 hidden1
  exact bnSkip_rows _ _ _ _

theorem kernHidden2_eq (x : Vec F S100000x128 .f32) (ei : Vec F S2x1600000 .i32) (W1 : Vec F S128x128 .f32) (b1 g1 be1 : Vec F S128 .f32) (W2 : Vec F S128x128 .f32) (b2 g2 be2 : Vec F S128 .f32) : kernHidden2 x ei W1 b1 g1 be1 W2 b2 g2 be2 = hidden2 x ei W1 b1 g1 be1 W2 b2 g2 be2 := by
  unfold kernHidden2 kernConv2 hidden2
  rw [kernHidden1_eq]
  exact bnSkip_rows _ _ _ _

/-- The kernel program's network is the reference's. -/
theorem kernOut_eq (x : Vec F S100000x128 .f32) (ei : Vec F S2x1600000 .i32) (W1 : Vec F S128x128 .f32) (b1 g1 be1 : Vec F S128 .f32) (W2 : Vec F S128x128 .f32) (b2 g2 be2 : Vec F S128 .f32) (W3 : Vec F S128x64 .f32) (b3 : Vec F S64 .f32) :
    kernOut x ei W1 b1 g1 be1 W2 b2 g2 be2 W3 b3 = refOut x ei W1 b1 g1 be1 W2 b2 g2 be2 W3 b3 := by
  unfold kernOut refOut
  rw [kernHidden2_eq]

end Cert.Spec

end
-- ==== Proof.KernValue0.lean ====
/-
  The kernel program's first host stretch, read: before the first region the program lists the edges' sources
  and destinations (one loop per node appended) and computes each edge's weight deg^{-1/2}(source) ·
  deg^{-1/2}(destination). These three arrays are the specification's, of the launch edge list.
-/
import proofs.«156291_j67765993996292_1_alg».proof.Proof.Gen.KernelIdeal.Frame
import proofs.«156291_j67765993996292_1_alg».proof.Proof.Spec
import Idealize.ShloMosaic.Lib.StableHlo.Run

set_option maxRecDepth 16384

noncomputable section

namespace Cert.KernelIdeal.Value

open Idealize.ShloMosaic Idealize.ShloMosaic.TcCoe
open Idealize.SL.Sem
open Cert.KernelIdeal Cert.KernelIdeal.Gen

variable [Cert.KernelIdeal.Facts] [Cert.ReferenceIdeal.Facts₀]
variable (m : (ℓ : Loc nD τ sig) → Buf (Elt Ideal) ℓ) (ρ : Dev nD → PrngReg)

/-- The sources with loops, on entry to region 0. -/
theorem src_at1 (c : Dev nD) :
    W1 m ρ c (Proc.devRef .tc main_v5) = Cert.Spec.withLoops (Cert.Spec.srcRow (m ((c : Thread nD τ).loc main_arg1))) := by
  dsimp only [W1, hostOps0]
  after_results_simp
  rfl

/-- The destinations with loops, on entry to region 0. -/
theorem dst_at1 (c : Dev nD) :
    W1 m ρ c (Proc.devRef .tc main_v6) = Cert.Spec.withLoops (Cert.Spec.dstRow (m ((c : Thread nD τ).loc main_arg1))) := by
  dsimp only [W1, hostOps0]
  after_results_simp
  rfl

/-- The edge weights, on entry to region 0. -/
theorem norm_at1 (c : Dev nD) :
    W1 m ρ c (Proc.devRef .tc main_v28) = Cert.Spec.edgeNorm (Cert.Spec.withLoops (Cert.Spec.srcRow (m ((c : Thread nD τ).loc main_arg1))))
      (Cert.Spec.withLoops (Cert.Spec.dstRow (m ((c : Thread nD τ).loc main_arg1)))) := by
  dsimp only [W1, hostOps0]
  after_results_simp
  rfl

end Cert.KernelIdeal.Value

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.LibDotRows.lean ====
/-
  The host's matrix product read by row and column, on the extended reals.

  For any extents: the product of an `M × K` by a `K × N` matrix (one contracted axis, no batch axis) read at an
  index whose row is `i` and whose column is `j` is the sum over `l` of `A (i, l) · B (l, j)`: the same sum a
  matrix unit forms into a zero accumulator.
-/
import Idealize.ShloMosaic.PureOps.Ideal.Laws
import Idealize.ShloMosaic.Lib.ValueIdx

noncomputable section

open Idealize.ShloMosaic Idealize.ShloMosaic.ValueIdx

namespace Cert.DotRows

/-- The product read at `(i, j)`.  The four hypotheses say which coordinate of each operand index is the row,
    the column and the contracted position; at a literal record each holds by computation. -/
theorem dotGeneral_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    Host.dotGeneral d none A B (ix2 i j) = ∑ l : Fin K, A (ix2 i l) * B (ix2 l j) := by
  show FloatOps.dotGeneral d none .single A B (ix2 i j) = _
  rw [Ideal.dotGeneral_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

end Cert.DotRows

end
-- ==== Proof.Matmul0.lean ====
/-
  Region 0 of the kernel program (a dense product) as ONE array.

  The region's grid has 20 points.  Point `t` reads rows `5000 t … 5000 t + 4999` of the 100000 × 128 input and
  the whole 128 × 128 weight matrix, and writes rows `5000 t … 5000 t + 4999` of the 100000 × 128 output: entry
  `(p, q)` of its block is `∑ l, x (5000 t + p, l) · w (l, q)` — the matrix unit's sum into a zero accumulator,
  the change of float format before it being the identity on the extended reals.  The host's product of the two
  whole arrays has the same sum at `(5000 t + p, q)`, so every block written back is the block of that product;
  the 20 blocks tile the 100000 rows (row `r` lies in block `r / 5000`), so the output array ends holding the
  product.
-/
import proofs.«156291_j67765993996292_1_alg».proof.Proof.Gen.KernelIdeal.Frame
import proofs.«156291_j67765993996292_1_alg».proof.ReferenceIdeal
import proofs.«156291_j67765993996292_1_alg».proof.Proof.Spec
import proofs.«156291_j67765993996292_1_alg».proof.Proof.LibMatRows
import proofs.«156291_j67765993996292_1_alg».proof.Proof.LibDotRows
import Idealize.ShloMosaic.PureOps.Ideal.Laws
import Idealize.ShloMosaic.Lib.ValueIdx
import Idealize.ShloMosaic.Lib.Pipeline.Value

noncomputable section

namespace Cert.KernelIdeal.RegionValue

open Idealize.ShloMosaic Idealize.ShloMosaic.TcCoe Idealize.SL.Sem Idealize.ShloMosaic.ValueIdx
open Idealize.ShloMosaic.Pipeline (Dat)

variable [Cert.ReferenceIdeal.Facts₀]

/-! ## One entry of a block, one entry of the whole product -/

/-- The body's result at `(p, q)`: the sum over `l` of `x (p, l) · w (l, q)`. -/
theorem body0_apply (x : Vec Ideal S5000x128 .f32) (w : Vec Ideal S128x128 .f32) (p : Fin 5000) (q : Fin 128) :
    Gen.k0_pay1 x w (ix2 p q) = ∑ l : Fin 128, x (ix2 p l) * w (ix2 l q) := by
  unfold Gen.k0_pay1
  exact Cert.MatRows.matmul_zero_apply dot_S5000x128_S128x128_S5000x128_1_0_0_1_n_n rfl rfl
    (fun _ _ => rfl) (fun j k => DotDims.lhsIdx_val_of_single _ rfl j k)
    (fun j k => DotDims.rhsIdx_val_of_single _ rfl j k) (fun _ _ => rfl) _ _ p q

/-- The host's product of the whole arrays at `(r, q)`: the same sum along row `r` and column `q`. -/
theorem dot128_apply (A : Vec Ideal Cert.ReferenceIdeal.S100000x128 .f32) (B : Vec Ideal Cert.ReferenceIdeal.S128x128 .f32)
    (r : Fin 100000) (q : Fin 128) :
    Cert.Spec.dot128 (F := Ideal) A B (ix2 r q) = ∑ l : Fin 128, A (ix2 r l) * B (ix2 l q) := by
  unfold Cert.Spec.dot128
  exact Cert.DotRows.dotGeneral_apply (φ₁ := .f32) (φ₂ := .f32) Cert.ReferenceIdeal.dot_S100000x128_S128x128_S100000x128_1_0_0_1_n_n rfl rfl
    (fun _ _ => rfl) (fun j k => DotDims.lhsIdx_val_of_single _ rfl j k)
    (fun j k => DotDims.rhsIdx_val_of_single _ rfl j k) (fun _ _ => rfl) A B r q

/-- A block entry against the whole product: when row `p` of the block `x` is row `r` of `A`, and column `q` of
    `w` is column `q` of `B`, the body's result at `(p, q)` is the product of `A` and `B` at `(r, q)`. -/
theorem entry0 (x : Vec Ideal S5000x128 .f32) (w : Vec Ideal S128x128 .f32)
    (A : Vec Ideal Cert.ReferenceIdeal.S100000x128 .f32) (B : Vec Ideal Cert.ReferenceIdeal.S128x128 .f32)
    (p : Fin 5000) (q : Fin 128) (r : Fin 100000)
    (hx : ∀ l : Fin 128, x (ix2 p l) = A (ix2 r l)) (hw : ∀ l : Fin 128, w (ix2 l q) = B (ix2 l q)) :
    Gen.k0_pay1 x w (ix2 p q) = Cert.Spec.dot128 (F := Ideal) A B (ix2 r q) := by
  rw [body0_apply, dot128_apply]
  exact Finset.sum_congr rfl fun l _ => by rw [hx l, hw l]

/-! ## The blocks -/

theorem zeroOffsets0 : (![0, 0] : Fin 2 → Nat) = fun _ => 0 := funext fun a => by fin_cases a <;> rfl

/-- The three index maps over the grid: at point `t` the input and the output are at block row `t`, block column
    0; the weight matrix is always its one block. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

set_option maxHeartbeats 400000 in
/-- What point `t` writes back is block `t` of the product of the two arrays as the region finds them. -/
theorem flushed0_eq (c : Dev nD) (t : Fin cfg0.N) :
    (Gen.dat0 (F := Ideal) V c).flushed 2 t
      = ((cfg0.win 2).blk t).view.read (Elt Ideal)
          (Cert.Spec.dot128 (F := Ideal) (V c (Pipeline.arrRef spec0 0)) (V c (Pipeline.arrRef spec0 1))) := by
  show (cfg0.win 2).cut (grid0.coords t) ((Gen.dat0 V c).after 2 t) = _
  rw [Gen.after0_2]
  unfold Gen.out0_2
  rw [View.canon_unit_zero zeroOffsets0]
  simp only [View.ld_unit_zero (S := S5000x128) zeroOffsets0, View.ld_unit_zero (S := S128x128) zeroOffsets0]
  obtain ⟨e0, e1, e2, e3, e4, e5⟩ := blockIndex0 t
  have ht : t.val < 20 := lt_of_lt_of_eq t.isLt Gen.N_0
  funext j
  obtain ⟨p, q, rfl⟩ : ∃ (p : Fin 5000) (q : Fin 128), j = ix2 p q := ⟨j 0, j 1, eq_ix2 j⟩
  have hr : t.val * 5000 + p.val < 100000 := by have := p.isLt; omega
  -- where the output block's entry sits in the array
  have hout : ((cfg0.win 2).blk t).view.emb (ix2 p q) = (ix2 (⟨t.val * 5000 + p.val, hr⟩ : Fin 100000) q : Cert.ReferenceIdeal.S100000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show Gen.k0_pay1 (Gen.iblk0 V c 0 t) (Gen.iblk0 V c 1 t) (ix2 p q)
    = Cert.Spec.dot128 (F := Ideal) (V c (Pipeline.arrRef spec0 0)) (V c (Pipeline.arrRef spec0 1)) (((cfg0.win 2).blk t).view.emb (ix2 p q))
  refine Eq.trans ?_ (congrArg (Cert.Spec.dot128 (F := Ideal) (V c (Pipeline.arrRef spec0 0)) (V c (Pipeline.arrRef spec0 1))) hout.symm)
  refine entry0 _ _ _ _ p q ⟨t.val * 5000 + p.val, hr⟩ (fun l => ?_) (fun l => ?_)
  · -- the input block's row p is row 5000 t + p of the input array
    show V c (Pipeline.arrRef spec0 0) (((cfg0.win 0).blk t).view.emb (ix2 p l))
      = V c (Pipeline.arrRef spec0 0) (ix2 (⟨t.val * 5000 + p.val, hr⟩ : Fin 100000) l : Cert.ReferenceIdeal.S100000x128.Idx)
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * l.val = l.val; omega
  · -- the weight block is the weight matrix
    show V c (Pipeline.arrRef spec0 1) (((cfg0.win 1).blk t).view.emb (ix2 l q))
      = V c (Pipeline.arrRef spec0 1) (ix2 l q : Cert.ReferenceIdeal.S128x128.Idx)
    refine congrArg _ ?_
    funext a; apply Fin.ext
    match a with
    | ⟨0, _⟩ => show win0_1.index t (0 : Fin 2) * 128 + 1 * l.val = l.val; omega
    | ⟨1, _⟩ => show win0_1.index t (1 : Fin 2) * 128 + 1 * q.val = q.val; omega

/-! ## The blocks tile the array -/

/-- An index of the output array is in point `t`'s block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row `r` of the output lies in the block of point `r / 5000`, which is written back. -/
theorem tiled0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := lt_of_lt_of_eq (by omega) Gen.N_0.symm
  obtain ⟨e0, e1, e2, e3, e4, e5⟩ := blockIndex0 ⟨(i 0).val / 5000, hN⟩
  refine ⟨⟨(i 0).val / 5000, hN⟩, Gen.flush0_2 _, ?_⟩
  rw [mem_block0]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    rw [e5]; omega

/-! ## The array after the region -/

/-- The output array after the region's 20 points is the host's product of the two input arrays as the region
    found them. -/
theorem product0 (c : Dev nD) :
    (Gen.dat0 (F := Ideal) V c).arrAt 2 cfg0.N
      = Cert.Spec.dot128 (F := Ideal) (V c (Pipeline.arrRef spec0 0)) (V c (Pipeline.arrRef spec0 1)) :=
  (Gen.dat0 (F := Ideal) V c).arrAt_eq_of_cover 2 _ (fun t _ => flushed0_eq V c t) tiled0

end

/-- The same, stated over any witnesses of the two programs' side conditions (side conditions are propositions:
    any two witnesses are the same). -/
theorem matmul0 [Cert.KernelIdeal.Facts]
    (V : (c : Dev nD) → (b : Ref sig .tc) → Buf (Elt Ideal) ((c : Thread nD τ).loc b)) (c : Dev nD) :
    (Gen.dat0 (F := Ideal) V c).arrAt 2 cfg0.N
      = Cert.Spec.dot128 (V c (Pipeline.arrRef spec0 0)) (V c (Pipeline.arrRef spec0 1)) :=
  product0 V c

end Cert.KernelIdeal.RegionValue

end
-- ==== Proof.KernValue1.lean ====
/-
  The kernel program read from its first region to the entry of its second. Region 0 leaves the product x W₁
  (the first matmul region's value); the host stretch after it aggregates that product over the edges and adds the
  bias (the first layer's output c₁), takes each column's mean as a row, then its variance as a row, and makes the
  rows of γ₁ and β₁. Each of these arrays is the specification's stage of the launch arguments.
-/
import proofs.«156291_j67765993996292_1_alg».proof.Proof.Gen.KernelIdeal.Frame
import proofs.«156291_j67765993996292_1_alg».proof.Proof.Spec
import proofs.«156291_j67765993996292_1_alg».proof.Proof.KernValue0
import proofs.«156291_j67765993996292_1_alg».proof.Proof.Matmul0
import Idealize.ShloMosaic.Lib.StableHlo.Run

set_option maxRecDepth 16384

noncomputable section

namespace Cert.KernelIdeal.Value

open Idealize.ShloMosaic Idealize.ShloMosaic.TcCoe
open Idealize.SL.Sem
open Cert.KernelIdeal Cert.KernelIdeal.Gen

variable [Cert.KernelIdeal.Facts] [Cert.ReferenceIdeal.Facts₀]
variable (m : (ℓ : Loc nD τ sig) → Buf (Elt Ideal) ℓ) (ρ : Dev nD → PrngReg)

/-- A buffer none of a stretch's operations writes keeps its contents through the stretch. -/
macro "keep_through " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))))

/-! ## The launch arguments and the stages, named -/

/-- The sources and destinations with loops, and the first layer's output, as functions of the launch memory. -/
abbrev srcs (c : Dev nD) := Cert.Spec.withLoops (Cert.Spec.srcRow (m ((c : Thread nD τ).loc main_arg1)))
abbrev dsts (c : Dev nD) := Cert.Spec.withLoops (Cert.Spec.dstRow (m ((c : Thread nD τ).loc main_arg1)))
abbrev conv1 (c : Dev nD) := Cert.Spec.conv128 (Cert.Spec.dot128 (m ((c : Thread nD τ).loc main_arg0)) (m ((c : Thread nD τ).loc main_arg2))) (m ((c : Thread nD τ).loc main_arg1)) (m ((c : Thread nD τ).loc main_arg3))

/-! ## What is kept from the launch and from the first stretch -/

theorem keep_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by keep_through hostOps0
theorem at1_arg0 (c : Dev nD) : W1 m ρ c (Proc.devRef .tc main_arg0) = m ((c : Thread nD τ).loc main_arg0) := (keep_arg0_0_1 m ρ c).trans rfl

theorem keep_arg2_0_1 (c : Dev nD) : W1 m ρ c (Proc.devRef .tc main_arg2) = W0 m ρ c (Proc.devRef .tc main_arg2) :=
  calc W1 m ρ c (Proc.devRef .tc main_arg2)
    _ = W0 m ρ c (Proc.devRef .tc main_arg2) := by keep_through hostOps0
theorem at1_arg2 (c : Dev nD) : W1 m ρ c (Proc.devRef .tc main_arg2) = m ((c : Thread nD τ).loc main_arg2) := (keep_arg2_0_1 m ρ c).trans rfl

theorem keep_arg3_0_2 (c : Dev nD) : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := by keep_through hostOps0
theorem at2_arg3 (c : Dev nD) : W2 m ρ c (Proc.devRef .tc main_arg3) = m ((c : Thread nD τ).loc main_arg3) := (keep_arg3_0_2 m ρ c).trans rfl

theorem keep_arg4_0_2 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := by keep_through hostOps0
theorem at2_arg4 (c : Dev nD) : W2 m ρ c (Proc.devRef .tc main_arg4) = m ((c : Thread nD τ).loc main_arg4) := (keep_arg4_0_2 m ρ c).trans rfl

theorem keep_arg5_0_2 (c : Dev nD) : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := by keep_through hostOps0
theorem at2_arg5 (c : Dev nD) : W2 m ρ c (Proc.devRef .tc main_arg5) = m ((c : Thread nD τ).loc main_arg5) := (keep_arg5_0_2 m ρ c).trans rfl

theorem keep_arg0_0_2 (c : Dev nD) : W2 m ρ c (Proc.devRef .tc main_arg0) = W0 m ρ c (Proc.devRef .tc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by keep_through hostOps0
theorem at2_arg0 (c : Dev nD) : W2 m ρ c (Proc.devRef .tc main_arg0) = m ((c : Thread nD τ).loc main_arg0) := (keep_arg0_0_2 m ρ c).trans rfl

theorem keep_v5_1_2 (c : Dev nD) : W2 m ρ c (Proc.devRef .tc main_v5) = W1 m ρ c (Proc.devRef .tc main_v5) :=
  calc W2 m ρ c (Proc.devRef .tc main_v5)
    _ = W1 m ρ c (Proc.devRef .tc main_v5) := W2_of_ne m ρ c main_v5 (by decide)

theorem keep_v6_1_2 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem keep_v28_1_2 (c : Dev nD) : W2 m ρ c (Proc.devRef .tc main_v28) = W1 m ρ c (Proc.devRef .tc main_v28) :=
  calc W2 m ρ c (Proc.devRef .tc main_v28)
    _ = W1 m ρ c (Proc.devRef .tc main_v28) := W2_of_ne m ρ c main_v28 (by decide)

theorem at2_v5 (c : Dev nD) : W2 m ρ c (Proc.devRef .tc main_v5) = srcs m c := (keep_v5_1_2 m ρ c).trans (src_at1 m ρ c)
theorem at2_v6 (c : Dev nD) : W2 m ρ c (Proc.devRef .tc main_v6) = dsts m c := (keep_v6_1_2 m ρ c).trans (dst_at1 m ρ c)
theorem at2_v28 (c : Dev nD) : W2 m ρ c (Proc.devRef .tc main_v28) = Cert.Spec.edgeNorm (srcs m c) (dsts m c) :=
  (keep_v28_1_2 m ρ c).trans (norm_at1 m ρ c)

/-! ## Region 0: the product -/

theorem at2_v29 (c : Dev nD) : W2 m ρ c (Proc.devRef .tc main_v29) = Cert.Spec.dot128 (m ((c : Thread nD τ).loc main_arg0)) (m ((c : Thread nD τ).loc main_arg2)) :=
  (W2_arr m ρ c 2).trans ((Cert.KernelIdeal.RegionValue.matmul0 (V1 m ρ) c).trans (by
    rw [show V1 m ρ c (Pipeline.arrRef spec0 0) = m ((c : Thread nD τ).loc main_arg0) from at1_arg0 m ρ c,
      show V1 m ρ c (Pipeline.arrRef spec0 1) = m ((c : Thread nD τ).loc main_arg2) from at1_arg2 m ρ c]))

/-! ## The stretch between region 0 and region 1 -/

/-- Contents moved to a buffer's own type and back are unchanged. -/
theorem ofBuf_toBuf {T : BufTy} (x : StableHlo.TRef sig T) (v : T.Contents (Elt Ideal)) : x.ofBuf (x.toBuf v) = v := by
  obtain ⟨r, h, h2, h3⟩ := x
  subst h
  rfl

/-- The first layer's output. -/
theorem at5_v45 (c : Dev nD) : W5 m ρ c (Proc.devRef .tc main_v45) = conv1 m c := by
  dsimp only [W5, W4, W3, hostOps1, hostOps1_1, hostOps1_2]
  after_results_simp
  rw [at2_v29 m ρ c, at2_v5 m ρ c, at2_v6 m ρ c, at2_v28 m ρ c, at2_arg3 m ρ c]
  rfl

/-- Its columns' means, as a row. -/
theorem at5_v49 (c : Dev nD) : W5 m ρ c (Proc.devRef .tc main_v49) = Cert.Spec.meanRow (conv1 m c) := by
  dsimp only [W5, W4, W3, hostOps1, hostOps1_1, hostOps1_2]
  after_results_simp
  rw [at2_v29 m ρ c, at2_v5 m ρ c, at2_v6 m ρ c, at2_v28 m ρ c, at2_arg3 m ρ c]
  rfl

/-- Its columns' variances, as a row. -/
theorem at5_v50 (c : Dev nD) : W5 m ρ c (Proc.devRef .tc main_v50) = Cert.Spec.varRow (conv1 m c) Cert.Spec.ddof0 := by
  dsimp only [W5, W4, W3, hostOps1, hostOps1_1, hostOps1_2]
  after_results_simp
  rw [at2_v29 m ρ c, at2_v5 m ρ c, at2_v6 m ρ c, at2_v28 m ρ c, at2_arg3 m ρ c]
  simp only [ofBuf_toBuf]
  rfl

/-- γ₁ and β₁ as rows. -/
theorem at5_v51 (c : Dev nD) : W5 m ρ c (Proc.devRef .tc main_v51) = Cert.Spec.row128 (m ((c : Thread nD τ).loc main_arg4)) := by
  dsimp only [W5, W4, W3, hostOps1, hostOps1_1, hostOps1_2]
  after_results_simp
  rw [at2_arg4 m ρ c]
  rfl
theorem at5_v52 (c : Dev nD) : W5 m ρ c (Proc.devRef .tc main_v52) = Cert.Spec.row128 (m ((c : Thread nD τ).loc main_arg5)) := by
  dsimp only [W5, W4, W3, hostOps1, hostOps1_1, hostOps1_2]
  after_results_simp
  rw [at2_arg5 m ρ c]
  rfl

theorem keep_arg0_0_5 (c : Dev nD) : W5 m ρ c (Proc.devRef .tc main_arg0) = W0 m ρ c (Proc.devRef .tc main_arg0) :=
  calc W5 m ρ c (Proc.devRef .tc main_arg0)
    _ = W4 m ρ c (Proc.devRef .tc main_arg0) := by keep_through hostOps1_2
    _ = W3 m ρ c (Proc.devRef .tc main_arg0) := by keep_through hostOps1_1
    _ = W2 m ρ c (Proc.devRef .tc main_arg0) := by keep_through hostOps1
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by keep_through hostOps0
theorem at5_arg0 (c : Dev nD) : W5 m ρ c (Proc.devRef .tc main_arg0) = m ((c : Thread nD τ).loc main_arg0) := (keep_arg0_0_5 m ρ c).trans rfl

end Cert.KernelIdeal.Value

end
-- ==== Proof.BnPoint.lean ====
/-
  One element of a batch-normalisation region, on the extended reals.

  A normalisation region of the network reads a block of rows of the aggregated features, the four statistic and
  parameter rows (mean, variance, scale, shift), and the same block of rows of the layer's input, and leaves
  `(c - mean) * (var + eps)^(-1/2) * gamma + beta + x` and its positive part. Here that arithmetic is read at
  one index `(p, q)`: the body's two results on a block (the row operands broadcast down the block's rows), and
  the specification's whole-array functions `Cert.Spec.bnSkip`, `Cert.Spec.relu` (the row operands broadcast
  down the 100000 nodes), both as ONE scalar function `bnPoint` of the six entries read. The reciprocal square
  root of the body and the one of the specification are the same function of an extended real, and the
  literal `eps` is the same word on both sides: it is never evaluated.
-/
import proofs.«156291_j67765993996292_1_alg».proof.Proof.Gen.KernelIdeal.Skeleton
import proofs.«156291_j67765993996292_1_alg».proof.Proof.Spec
import Idealize.ShloMosaic.Lib.ValueLayout

noncomputable section

namespace Cert.KernelIdeal.RegionValue

open Idealize.ShloMosaic Idealize.ShloMosaic.ValueIdx Cert.KernelIdeal

/-- Batch normalisation of one entry followed by the residual addition:
    `(c - mean) * (var + eps)^(-1/2) * gamma + beta + x`. -/
def bnPoint (c mean var gamma beta x : Ideal .f32) : Ideal .f32 :=
  (c - mean) * Ideal.rsqrt (var + Ideal.ofBits .f32 0x3727C5AC#32) * gamma + beta + x

/-- The positive part of an entry (the maximum with the zero word's value). -/
def reluPoint (h : Ideal .f32) : Ideal .f32 := max h (Ideal.ofBits .f32 0x00000000#32)

/-- The zero offsets of a whole-block load or store, as a constant function. -/
theorem zero_offsets : (![0, 0] : Fin 2 → Nat) = fun _ => 0 := funext fun a => by fin_cases a <;> rfl

/-! ## The body's results on a block -/

theorem k1_pay1_apply (x0 : Vec Ideal S5000x128 .f32) (x1 x2 x3 x4 : Vec Ideal S1x128 .f32)
    (x5 : Vec Ideal S5000x128 .f32) (p : Fin 5000) (q : Fin 128) :
    Gen.k1_pay1 (F := Ideal) x0 x1 x2 x3 x4 x5 (ix2 p q)
      = bnPoint (x0 (ix2 p q)) (x1 (ix2 0 q)) (x2 (ix2 0 q)) (x3 (ix2 0 q)) (x4 (ix2 0 q)) (x5 (ix2 p q)) := by
  unfold Gen.k1_pay1
  simp only [shapeCast_self]
  rw [addf_apply, addf_apply, mulf_apply, mulf_apply, subf_apply,
    broadcastTo_1b_ab_apply, broadcastTo_1b_ab_apply, broadcastTo_1b_ab_apply, broadcastTo_1b_ab_apply]
  rfl

theorem k1_pay2_apply (x0 : Vec Ideal S5000x128 .f32) (x1 x2 x3 x4 : Vec Ideal S1x128 .f32)
    (x5 : Vec Ideal S5000x128 .f32) (p : Fin 5000) (q : Fin 128) :
    Gen.k1_pay2 (F := Ideal) x0 x1 x2 x3 x4 x5 (ix2 p q)
      = reluPoint (bnPoint (x0 (ix2 p q)) (x1 (ix2 0 q)) (x2 (ix2 0 q)) (x3 (ix2 0 q)) (x4 (ix2 0 q)) (x5 (ix2 p q))) := by
  unfold Gen.k1_pay2
  rw [maximumf_apply, k1_pay1_apply]
  rfl

theorem k3_pay1_apply (x0 : Vec Ideal S5000x128 .f32) (x1 x2 x3 x4 : Vec Ideal S1x128 .f32)
    (x5 : Vec Ideal S5000x128 .f32) (p : Fin 5000) (q : Fin 128) :
    Gen.k3_pay1 (F := Ideal) x0 x1 x2 x3 x4 x5 (ix2 p q)
      = bnPoint (x0 (ix2 p q)) (x1 (ix2 0 q)) (x2 (ix2 0 q)) (x3 (ix2 0 q)) (x4 (ix2 0 q)) (x5 (ix2 p q)) := by
  unfold Gen.k3_pay1
  simp only [shapeCast_self]
  rw [addf_apply, addf_apply, mulf_apply, mulf_apply, subf_apply,
    broadcastTo_1b_ab_apply, broadcastTo_1b_ab_apply, broadcastTo_1b_ab_apply, broadcastTo_1b_ab_apply]
  rfl

theorem k3_pay2_apply (x0 : Vec Ideal S5000x128 .f32) (x1 x2 x3 x4 : Vec Ideal S1x128 .f32)
    (x5 : Vec Ideal S5000x128 .f32) (p : Fin 5000) (q : Fin 128) :
    Gen.k3_pay2 (F := Ideal) x0 x1 x2 x3 x4 x5 (ix2 p q)
      = reluPoint (bnPoint (x0 (ix2 p q)) (x1 (ix2 0 q)) (x2 (ix2 0 q)) (x3 (ix2 0 q)) (x4 (ix2 0 q)) (x5 (ix2 p q))) := by
  unfold Gen.k3_pay2
  rw [maximumf_apply, k3_pay1_apply]
  rfl

/-! ## The specification's whole-array functions -/

section Spec

variable [Cert.ReferenceIdeal.Facts₀]

/-- A row repeated down the nodes reads, at `(r, q)`, the row at `q`. -/
theorem down128_apply (v : Vec Ideal S1x128 .f32) (r : Fin 100000) (q : Fin 128) :
    Cert.Spec.down128 (F := Ideal) v (ix2 r q) = v (ix2 0 q) := by
  unfold Cert.Spec.down128
  refine broadcastInDim_apply _ _ v (ix2 r q) (ix2 (0 : Fin 1) q) fun a => ?_
  match a with
  | ⟨0, _⟩ => rfl
  | ⟨1, _⟩ => rfl

theorem bnSkip_apply (cv : Vec Ideal S100000x128 .f32) (mean var g be : Vec Ideal S1x128 .f32)
    (x : Vec Ideal S100000x128 .f32) (r : Fin 100000) (q : Fin 128) :
    Cert.Spec.bnSkip (F := Ideal) cv mean var g be x (ix2 r q)
      = bnPoint (cv (ix2 r q)) (mean (ix2 0 q)) (var (ix2 0 q)) (g (ix2 0 q)) (be (ix2 0 q)) (x (ix2 r q)) := by
  unfold Cert.Spec.bnSkip
  rw [addf_apply, addf_apply, mulf_apply, mulf_apply, subf_apply,
    down128_apply, down128_apply, down128_apply, down128_apply]
  rfl

theorem relu_apply (h : Vec Ideal S100000x128 .f32) (r : Fin 100000) (q : Fin 128) :
    Cert.Spec.relu (F := Ideal) h (ix2 r q) = reluPoint (h (ix2 r q)) := by
  unfold Cert.Spec.relu
  rw [maximumf_apply]
  rfl

end Spec

end Cert.KernelIdeal.RegionValue

end
-- ==== Proof.Bn1Blocks.lean ====
/-
  The blocks of the first normalisation region, as coordinates.

  The region runs over 20 grid points. At point `t` the windows of the aggregated features, of the layer's
  input and of the two results hold rows `5000 t … 5000 t + 4999` of their 100000-row arrays (all 128 columns),
  and the four statistic and parameter windows hold their whole one-row arrays at every point. This is read off
  the printed index maps once, by evaluation over the grid; from it, where an entry of a block sits in its array,
  and that the twenty result blocks tile the result arrays.
-/
import proofs.«156291_j67765993996292_1_alg».proof.Proof.Gen.KernelIdeal.Frame
import Idealize.ShloMosaic.Lib.Pipeline.Value
import Idealize.ShloMosaic.Lib.ValueLayout

noncomputable section

namespace Cert.KernelIdeal.RegionValue

open Idealize.ShloMosaic Idealize.ShloMosaic.TcCoe Idealize.SL.Sem Idealize.ShloMosaic.ValueIdx Cert.KernelIdeal
open Idealize.ShloMosaic.Pipeline (Dat)

set_option maxHeartbeats 400000 in
/-- The printed index maps over the grid: the row-block windows are at block `t` of the rows and block 0 of the
    columns, the one-row windows at block 0 of both. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The row of the array that row `p` of the block at point `t` is: `5000 t + p`. -/
def rowAt1 (t : Fin cfg1.N) (p : Fin 5000) : Fin 100000 :=
  ⟨t.val * 5000 + p.val, by have h := t.isLt; have e : cfg1.N = 20 := Gen.N_1; have := p.isLt; omega⟩

/-! ## Where a block's entry sits in its array -/

set_option maxHeartbeats 400000 in
theorem blk1_0_emb (t : Fin cfg1.N) (p : Fin 5000) (q : Fin 128) :
    ((cfg1.win 0).blk t).view.emb (ix2 p q) = ix2 (rowAt1 t p) q := by
  obtain ⟨e0, e1, -, -, -, -, -, -, -, -, -, -, -, -, -, -⟩ := index_facts1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

set_option maxHeartbeats 400000 in
theorem blk1_1_emb (t : Fin cfg1.N) (q : Fin 128) :
    ((cfg1.win 1).blk t).view.emb (ix2 (0 : Fin 1) q) = ix2 (0 : Fin 1) q := by
  obtain ⟨-, -, e0, e1, -, -, -, -, -, -, -, -, -, -, -, -⟩ := index_facts1 t
  funext a; apply Fin.ext
  match a with
  | ⟨0, _⟩ => show win1_1.index t (0 : Fin 2) * 1 + 1 * 0 = 0; omega
  | ⟨1, _⟩ => show win1_1.index t (1 : Fin 2) * 128 + 1 * q.val = q.val; omega

set_option maxHeartbeats 400000 in
theorem blk1_2_emb (t : Fin cfg1.N) (q : Fin 128) :
    ((cfg1.win 2).blk t).view.emb (ix2 (0 : Fin 1) q) = ix2 (0 : Fin 1) q := by
  obtain ⟨-, -, -, -, e0, e1, -, -, -, -, -, -, -, -, -, -⟩ := index_facts1 t
  funext a; apply Fin.ext
  match a with
  | ⟨0, _⟩ => show win1_2.index t (0 : Fin 2) * 1 + 1 * 0 = 0; omega
  | ⟨1, _⟩ => show win1_2.index t (1 : Fin 2) * 128 + 1 * q.val = q.val; omega

set_option maxHeartbeats 400000 in
theorem blk1_3_emb (t : Fin cfg1.N) (q : Fin 128) :
    ((cfg1.win 3).blk t).view.emb (ix2 (0 : Fin 1) q) = ix2 (0 : Fin 1) q := by
  obtain ⟨-, -, -, -, -, -, e0, e1, -, -, -, -, -, -, -, -⟩ := index_facts1 t
  funext a; apply Fin.ext
  match a with
  | ⟨0, _⟩ => show win1_3.index t (0 : Fin 2) * 1 + 1 * 0 = 0; omega
  | ⟨1, _⟩ => show win1_3.index t (1 : Fin 2) * 128 + 1 * q.val = q.val; omega

set_option maxHeartbeats 400000 in
theorem blk1_4_emb (t : Fin cfg1.N) (q : Fin 128) :
    ((cfg1.win 4).blk t).view.emb (ix2 (0 : Fin 1) q) = ix2 (0 : Fin 1) q := by
  obtain ⟨-, -, -, -, -, -, -, -, e0, e1, -, -, -, -, -, -⟩ := index_facts1 t
  funext a; apply Fin.ext
  match a with
  | ⟨0, _⟩ => show win1_4.index t (0 : Fin 2) * 1 + 1 * 0 = 0; omega
  | ⟨1, _⟩ => show win1_4.index t (1 : Fin 2) * 128 + 1 * q.val = q.val; omega

set_option maxHeartbeats 400000 in
theorem blk1_5_emb (t : Fin cfg1.N) (p : Fin 5000) (q : Fin 128) :
    ((cfg1.win 5).blk t).view.emb (ix2 p q) = ix2 (rowAt1 t p) q := by
  obtain ⟨-, -, -, -, -, -, -, -, -, -, e0, e1, -, -, -, -⟩ := index_facts1 t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

set_option maxHeartbeats 400000 in
theorem blk1_6_emb (t : Fin cfg1.N) (p : Fin 5000) (q : Fin 128) :
    ((cfg1.win 6).blk t).view.emb (ix2 p q) = ix2 (rowAt1 t p) q := by
  obtain ⟨-, -, -, -, -, -, -, -, -, -, -, -, e0, e1, -, -⟩ := index_facts1 t
  funext a; apply Fin.ext
  match a with
  | ⟨0, _⟩ => show win1_6.index t (0 : Fin 2) * 5000 + 1 * p.val = t.val * 5000 + p.val; omega
  | ⟨1, _⟩ => show win1_6.index t (1 : Fin 2) * 128 + 1 * q.val = q.val; omega

set_option maxHeartbeats 400000 in
theorem blk1_7_emb (t : Fin cfg1.N) (p : Fin 5000) (q : Fin 128) :
    ((cfg1.win 7).blk t).view.emb (ix2 p q) = ix2 (rowAt1 t p) q := by
  obtain ⟨-, -, -, -, -, -, -, -, -, -, -, -, -, -, e0, e1⟩ := index_facts1 t
  funext a; apply Fin.ext
  match a with
  | ⟨0, _⟩ => show win1_7.index t (0 : Fin 2) * 5000 + 1 * p.val = t.val * 5000 + p.val; omega
  | ⟨1, _⟩ => show win1_7.index t (1 : Fin 2) * 128 + 1 * q.val = q.val; omega

/-! ## The result blocks tile the result arrays -/

/-- An index of the array is in the block of point `t` iff each coordinate is in the block's range on its axis. -/
theorem mem_blk1_6 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v53_0).slice (win1_6.rect t)).set ↔ _
  rw [View.set_slice_whole, Rect.mem_set_unit]
  exact Iff.rfl

set_option maxHeartbeats 400000 in
/-- The twenty blocks of 5000 rows tile the 100000 rows: row `r` is in the block of point `r / 5000`. -/
theorem covered1_6 (i : S100000x128.Idx) :
    ∃ t : Fin cfg1.N, (cfg1.win 6).flush t = true ∧ i ∈ ((cfg1.win 6).blk t).view.set := by
  have hi0 : (i 0).val < 100000 := idx2_lt0 i
  have hi1 : (i 1).val < 128 := idx2_lt1 i
  have hN : cfg1.N = 20 := Gen.N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1, -, -⟩ := index_facts1 t
  refine ⟨t, Gen.flush1_6 t, ?_⟩
  rw [mem_blk1_6]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- An index of the array is in the block of point `t` iff each coordinate is in the block's range on its axis. -/
theorem mem_blk1_7 (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v53_1).slice (win1_7.rect t)).set ↔ _
  rw [View.set_slice_whole, Rect.mem_set_unit]
  exact Iff.rfl

set_option maxHeartbeats 400000 in
/-- The twenty blocks of 5000 rows tile the 100000 rows: row `r` is in the block of point `r / 5000`. -/
theorem covered1_7 (i : S100000x128.Idx) :
    ∃ t : Fin cfg1.N, (cfg1.win 7).flush t = true ∧ i ∈ ((cfg1.win 7).blk t).view.set := by
  have hi0 : (i 0).val < 100000 := idx2_lt0 i
  have hi1 : (i 1).val < 128 := idx2_lt1 i
  have hN : cfg1.N = 20 := Gen.N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, e0, e1⟩ := index_facts1 t
  refine ⟨t, Gen.flush1_7 t, ?_⟩
  rw [mem_blk1_7]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 128 ≤ (i 1).val ∧ (i 1).val < win1_7.index t (1 : Fin 2) * 128 + 128
    omega

end Cert.KernelIdeal.RegionValue

end
-- ==== Proof.Bn1.lean ====
/-
  The first normalisation region as whole-array values, on the extended reals.

  Entered with any buffer contents `V`, the region ends with its first result array holding
  `(c - mean) * (var + eps)^(-1/2) * gamma + beta + x` of the six arrays it reads as it finds them, entry by entry
  (`Cert.Spec.bnSkip`), and its second result array the positive part of that (`Cert.Spec.relu`). What a grid point
  writes back is the body's result on the blocks it reads; each entry of that result is the specification's entry at
  the place of the array where the block's entry sits (the row blocks move together, the one-row operands stay); and the
  twenty result blocks tile the arrays.
-/
import proofs.«156291_j67765993996292_1_alg».proof.Proof.Gen.KernelIdeal.Frame
import proofs.«156291_j67765993996292_1_alg».proof.Proof.Spec
import proofs.«156291_j67765993996292_1_alg».proof.Proof.BnPoint
import proofs.«156291_j67765993996292_1_alg».proof.Proof.Bn1Blocks
import Idealize.ShloMosaic.Lib.Pipeline.Value
import Idealize.ShloMosaic.Lib.ValueLayout

noncomputable section

namespace Cert.KernelIdeal.RegionValue

open Idealize.ShloMosaic Idealize.ShloMosaic.TcCoe Idealize.SL.Sem Idealize.ShloMosaic.ValueIdx Cert.KernelIdeal
open Idealize.ShloMosaic.Pipeline (Dat)

variable [Cert.ReferenceIdeal.Facts₀]
variable (V : (c : Dev nD) → (b : Ref sig .tc) → Buf (Elt Ideal) ((c : Thread nD τ).loc b))

/-! ## What a grid point writes back -/

set_option maxHeartbeats 400000 in
/-- Point `t` writes back block `t` of the normalised array. -/
theorem flushed1_6_eq (c : Dev nD) (t : Fin cfg1.N) :
    (Gen.dat1 (F := Ideal) V c).flushed 6 t = ((cfg1.win 6).blk t).view.read (Elt Ideal)
      (Cert.Spec.bnSkip (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((Gen.dat1 V c).after 6 t) = _
  rw [Gen.after1_6]
  unfold Gen.out1_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  show Gen.k1_pay1 (F := Ideal) (Gen.iblk1 V c 0 t) (Gen.iblk1 V c 1 t) (Gen.iblk1 V c 2 t) (Gen.iblk1 V c 3 t) (Gen.iblk1 V c 4 t) (Gen.iblk1 V c 5 t) (ix2 p q)
    = (Cert.Spec.bnSkip (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (((cfg1.win 6).blk t).view.emb (ix2 p q))
  refine (k1_pay1_apply (Gen.iblk1 V c 0 t) (Gen.iblk1 V c 1 t) (Gen.iblk1 V c 2 t) (Gen.iblk1 V c 3 t) (Gen.iblk1 V c 4 t) (Gen.iblk1 V c 5 t) p q).trans ?_
  refine Eq.trans ?_ (congrArg (Cert.Spec.bnSkip (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (blk1_6_emb t p q)).symm
  refine Eq.trans ?_ (bnSkip_apply (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (rowAt1 t p) q).symm
  have e0 : Gen.iblk1 V c 0 t (ix2 p q) = V c (Pipeline.arrRef spec1 0) (ix2 (rowAt1 t p) q) :=
    congrArg (V c (Pipeline.arrRef spec1 0)) (blk1_0_emb t p q)
  have e1 : Gen.iblk1 V c 1 t (ix2 (0 : Fin 1) q) = V c (Pipeline.arrRef spec1 1) (ix2 (0 : Fin 1) q) :=
    congrArg (V c (Pipeline.arrRef spec1 1)) (blk1_1_emb t q)
  have e2 : Gen.iblk1 V c 2 t (ix2 (0 : Fin 1) q) = V c (Pipeline.arrRef spec1 2) (ix2 (0 : Fin 1) q) :=
    congrArg (V c (Pipeline.arrRef spec1 2)) (blk1_2_emb t q)
  have e3 : Gen.iblk1 V c 3 t (ix2 (0 : Fin 1) q) = V c (Pipeline.arrRef spec1 3) (ix2 (0 : Fin 1) q) :=
    congrArg (V c (Pipeline.arrRef spec1 3)) (blk1_3_emb t q)
  have e4 : Gen.iblk1 V c 4 t (ix2 (0 : Fin 1) q) = V c (Pipeline.arrRef spec1 4) (ix2 (0 : Fin 1) q) :=
    congrArg (V c (Pipeline.arrRef spec1 4)) (blk1_4_emb t q)
  have e5 : Gen.iblk1 V c 5 t (ix2 p q) = V c (Pipeline.arrRef spec1 5) (ix2 (rowAt1 t p) q) :=
    congrArg (V c (Pipeline.arrRef spec1 5)) (blk1_5_emb t p q)
  exact congr (congr (congr (congr (congr (congrArg bnPoint e0) e1) e2) e3) e4) e5

set_option maxHeartbeats 400000 in
/-- Point `t` writes back block `t` of its positive part. -/
theorem flushed1_7_eq (c : Dev nD) (t : Fin cfg1.N) :
    (Gen.dat1 (F := Ideal) V c).flushed 7 t = ((cfg1.win 7).blk t).view.read (Elt Ideal)
      (Cert.Spec.relu (F := Ideal) (Cert.Spec.bnSkip (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)))) := by
  show (cfg1.win 7).cut (grid1.coords t) ((Gen.dat1 V c).after 7 t) = _
  rw [Gen.after1_7]
  unfold Gen.out1_7
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  show Gen.k1_pay2 (F := Ideal) (Gen.iblk1 V c 0 t) (Gen.iblk1 V c 1 t) (Gen.iblk1 V c 2 t) (Gen.iblk1 V c 3 t) (Gen.iblk1 V c 4 t) (Gen.iblk1 V c 5 t) (ix2 p q)
    = (Cert.Spec.relu (F := Ideal) (Cert.Spec.bnSkip (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)))) (((cfg1.win 7).blk t).view.emb (ix2 p q))
  refine (k1_pay2_apply (Gen.iblk1 V c 0 t) (Gen.iblk1 V c 1 t) (Gen.iblk1 V c 2 t) (Gen.iblk1 V c 3 t) (Gen.iblk1 V c 4 t) (Gen.iblk1 V c 5 t) p q).trans ?_
  refine Eq.trans ?_ (congrArg (Cert.Spec.relu (F := Ideal) (Cert.Spec.bnSkip (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)))) (blk1_7_emb t p q)).symm
  refine Eq.trans ?_ (relu_apply (Cert.Spec.bnSkip (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (rowAt1 t p) q).symm
  refine congrArg reluPoint ?_
  refine Eq.trans ?_ (bnSkip_apply (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (rowAt1 t p) q).symm
  have e0 : Gen.iblk1 V c 0 t (ix2 p q) = V c (Pipeline.arrRef spec1 0) (ix2 (rowAt1 t p) q) :=
    congrArg (V c (Pipeline.arrRef spec1 0)) (blk1_0_emb t p q)
  have e1 : Gen.iblk1 V c 1 t (ix2 (0 : Fin 1) q) = V c (Pipeline.arrRef spec1 1) (ix2 (0 : Fin 1) q) :=
    congrArg (V c (Pipeline.arrRef spec1 1)) (blk1_1_emb t q)
  have e2 : Gen.iblk1 V c 2 t (ix2 (0 : Fin 1) q) = V c (Pipeline.arrRef spec1 2) (ix2 (0 : Fin 1) q) :=
    congrArg (V c (Pipeline.arrRef spec1 2)) (blk1_2_emb t q)
  have e3 : Gen.iblk1 V c 3 t (ix2 (0 : Fin 1) q) = V c (Pipeline.arrRef spec1 3) (ix2 (0 : Fin 1) q) :=
    congrArg (V c (Pipeline.arrRef spec1 3)) (blk1_3_emb t q)
  have e4 : Gen.iblk1 V c 4 t (ix2 (0 : Fin 1) q) = V c (Pipeline.arrRef spec1 4) (ix2 (0 : Fin 1) q) :=
    congrArg (V c (Pipeline.arrRef spec1 4)) (blk1_4_emb t q)
  have e5 : Gen.iblk1 V c 5 t (ix2 p q) = V c (Pipeline.arrRef spec1 5) (ix2 (rowAt1 t p) q) :=
    congrArg (V c (Pipeline.arrRef spec1 5)) (blk1_5_emb t p q)
  exact congr (congr (congr (congr (congr (congrArg bnPoint e0) e1) e2) e3) e4) e5

/-! ## The result arrays after the run -/

section
variable [Cert.KernelIdeal.Facts]

/-- The first result array of the region after its run: the normalisation with the layer's input added back, of the
    six arrays as the region finds them. -/
theorem bn1_h (c : Dev nD) :
    (Gen.dat1 (F := Ideal) V c).arrAt 6 cfg1.N = Cert.Spec.bnSkip (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (Gen.dat1 (F := Ideal) V c).arrAt_eq_of_cover 6 _ (fun t _ => flushed1_6_eq V c t) covered1_6

/-- The second result array: its positive part. -/
theorem bn1_a (c : Dev nD) :
    (Gen.dat1 (F := Ideal) V c).arrAt 7 cfg1.N
      = Cert.Spec.relu (F := Ideal) (Cert.Spec.bnSkip (F := Ideal) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) :=
  (Gen.dat1 (F := Ideal) V c).arrAt_eq_of_cover 7 _ (fun t _ => flushed1_7_eq V c t) covered1_7

end

end Cert.KernelIdeal.RegionValue

end
-- ==== Proof.Matmul2.lean ====
/-
  Region 2 of the kernel program (a dense product) as ONE array.

  The region's grid has 20 points.  Point `t` reads rows `5000 t … 5000 t + 4999` of the 100000 × 128 input and
  the whole 128 × 128 weight matrix, and writes rows `5000 t … 5000 t + 4999` of the 100000 × 128 output: entry
  `(p, q)` of its block is `∑ l, x (5000 t + p, l) · w (l, q)` — the matrix unit's sum into a zero accumulator;
  re-reading the input block at its own shape and changing the float format before the product are both the
  identity on the extended reals.  The host's product of the two whole arrays has the same sum at
  `(5000 t + p, q)`, so every block written back is the block of that product; the 20 blocks tile the 100000
  rows (row `r` lies in block `r / 5000`), so the output array ends holding the product.
-/
import proofs.«156291_j67765993996292_1_alg».proof.Proof.Gen.KernelIdeal.Frame
import proofs.«156291_j67765993996292_1_alg».proof.ReferenceIdeal
import proofs.«156291_j67765993996292_1_alg».proof.Proof.Spec
import proofs.«156291_j67765993996292_1_alg».proof.Proof.LibMatRows
import proofs.«156291_j67765993996292_1_alg».proof.Proof.LibDotRows
import Idealize.ShloMosaic.PureOps.Ideal.Laws
import Idealize.ShloMosaic.Lib.ValueIdx
import Idealize.ShloMosaic.Lib.Pipeline.Value

noncomputable section

namespace Cert.KernelIdeal.RegionValue

open Idealize.ShloMosaic Idealize.ShloMosaic.TcCoe Idealize.SL.Sem Idealize.ShloMosaic.ValueIdx
open Idealize.ShloMosaic.Pipeline (Dat)

variable [Cert.ReferenceIdeal.Facts₀]

/-! ## One entry of a block, one entry of the whole product -/

/-- The body's result at `(p, q)`: the sum over `l` of `x (p, l) · w (l, q)`. -/
theorem body2_apply (x : Vec Ideal S5000x128 .f32) (w : Vec Ideal S128x128 .f32) (p : Fin 5000) (q : Fin 128) :
    Gen.k2_pay1 x w (ix2 p q) = ∑ l : Fin 128, x (ix2 p l) * w (ix2 l q) := by
  unfold Gen.k2_pay1
  refine (Cert.MatRows.matmul_zero_apply dot_S5000x128_S128x128_S5000x128_1_0_0_1_n_n rfl rfl
    (fun _ _ => rfl) (fun j k => DotDims.lhsIdx_val_of_single _ rfl j k)
    (fun j k => DotDims.rhsIdx_val_of_single _ rfl j k) (fun _ _ => rfl) _ _ p q).trans ?_
  -- the block is first re-read at its own shape, which changes nothing
  refine Finset.sum_congr rfl fun l _ => ?_
  show shapeCast S5000x128 x _ (ix2 p l) * w (ix2 l q) = x (ix2 p l) * w (ix2 l q)
  rw [shapeCast_self]

/-- The host's product of the whole arrays at `(r, q)`: the same sum along row `r` and column `q`. -/
theorem dot128_apply (A : Vec Ideal Cert.ReferenceIdeal.S100000x128 .f32) (B : Vec Ideal Cert.ReferenceIdeal.S128x128 .f32)
    (r : Fin 100000) (q : Fin 128) :
    Cert.Spec.dot128 (F := Ideal) A B (ix2 r q) = ∑ l : Fin 128, A (ix2 r l) * B (ix2 l q) := by
  unfold Cert.Spec.dot128
  exact Cert.DotRows.dotGeneral_apply (φ₁ := .f32) (φ₂ := .f32) Cert.ReferenceIdeal.dot_S100000x128_S128x128_S100000x128_1_0_0_1_n_n rfl rfl
    (fun _ _ => rfl) (fun j k => DotDims.lhsIdx_val_of_single _ rfl j k)
    (fun j k => DotDims.rhsIdx_val_of_single _ rfl j k) (fun _ _ => rfl) A B r q

/-- A block entry against the whole product: when row `p` of the block `x` is row `r` of `A`, and column `q` of
    `w` is column `q` of `B`, the body's result at `(p, q)` is the product of `A` and `B` at `(r, q)`. -/
theorem entry2 (x : Vec Ideal S5000x128 .f32) (w : Vec Ideal S128x128 .f32)
    (A : Vec Ideal Cert.ReferenceIdeal.S100000x128 .f32) (B : Vec Ideal Cert.ReferenceIdeal.S128x128 .f32)
    (p : Fin 5000) (q : Fin 128) (r : Fin 100000)
    (hx : ∀ l : Fin 128, x (ix2 p l) = A (ix2 r l)) (hw : ∀ l : Fin 128, w (ix2 l q) = B (ix2 l q)) :
    Gen.k2_pay1 x w (ix2 p q) = Cert.Spec.dot128 (F := Ideal) A B (ix2 r q) := by
  rw [body2_apply, dot128_apply]
  exact Finset.sum_congr rfl fun l _ => by rw [hx l, hw l]

/-! ## The blocks -/

theorem zeroOffsets2 : (![0, 0] : Fin 2 → Nat) = fun _ => 0 := funext fun a => by fin_cases a <;> rfl

/-- The three index maps over the grid: at point `t` the input and the output are at block row `t`, block column
    0; the weight matrix is always its one block. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

set_option maxHeartbeats 400000 in
/-- What point `t` writes back is block `t` of the product of the two arrays as the region finds them. -/
theorem flushed2_eq (c : Dev nD) (t : Fin cfg2.N) :
    (Gen.dat2 (F := Ideal) V c).flushed 2 t
      = ((cfg2.win 2).blk t).view.read (Elt Ideal)
          (Cert.Spec.dot128 (F := Ideal) (V c (Pipeline.arrRef spec2 0)) (V c (Pipeline.arrRef spec2 1))) := by
  show (cfg2.win 2).cut (grid2.coords t) ((Gen.dat2 V c).after 2 t) = _
  rw [Gen.after2_2]
  unfold Gen.out2_2
  rw [View.canon_unit_zero zeroOffsets2]
  simp only [View.ld_unit_zero (S := S5000x128) zeroOffsets2, View.ld_unit_zero (S := S128x128) zeroOffsets2]
  obtain ⟨e0, e1, e2, e3, e4, e5⟩ := blockIndex2 t
  have ht : t.val < 20 := lt_of_lt_of_eq t.isLt Gen.N_2
  funext j
  obtain ⟨p, q, rfl⟩ : ∃ (p : Fin 5000) (q : Fin 128), j = ix2 p q := ⟨j 0, j 1, eq_ix2 j⟩
  have hr : t.val * 5000 + p.val < 100000 := by have := p.isLt; omega
  -- where the output block's entry sits in the array
  have hout : ((cfg2.win 2).blk t).view.emb (ix2 p q) = (ix2 (⟨t.val * 5000 + p.val, hr⟩ : Fin 100000) q : Cert.ReferenceIdeal.S100000x128.Idx) := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  show Gen.k2_pay1 (Gen.iblk2 V c 0 t) (Gen.iblk2 V c 1 t) (ix2 p q)
    = Cert.Spec.dot128 (F := Ideal) (V c (Pipeline.arrRef spec2 0)) (V c (Pipeline.arrRef spec2 1)) (((cfg2.win 2).blk t).view.emb (ix2 p q))
  refine Eq.trans ?_ (congrArg (Cert.Spec.dot128 (F := Ideal) (V c (Pipeline.arrRef spec2 0)) (V c (Pipeline.arrRef spec2 1))) hout.symm)
  refine entry2 _ _ _ _ p q ⟨t.val * 5000 + p.val, hr⟩ (fun l => ?_) (fun l => ?_)
  · -- the input block's row p is row 5000 t + p of the input array
    show V c (Pipeline.arrRef spec2 0) (((cfg2.win 0).blk t).view.emb (ix2 p l))
      = V c (Pipeline.arrRef spec2 0) (ix2 (⟨t.val * 5000 + p.val, hr⟩ : Fin 100000) l : Cert.ReferenceIdeal.S100000x128.Idx)
    refine congrArg _ ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * l.val = l.val; omega
  · -- the weight block is the weight matrix
    show V c (Pipeline.arrRef spec2 1) (((cfg2.win 1).blk t).view.emb (ix2 l q))
      = V c (Pipeline.arrRef spec2 1) (ix2 l q : Cert.ReferenceIdeal.S128x128.Idx)
    refine congrArg _ ?_
    funext a; apply Fin.ext
    match a with
    | ⟨0, _⟩ => show win2_1.index t (0 : Fin 2) * 128 + 1 * l.val = l.val; omega
    | ⟨1, _⟩ => show win2_1.index t (1 : Fin 2) * 128 + 1 * q.val = q.val; omega

/-! ## The blocks tile the array -/

/-- An index of the output array is in point `t`'s block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v54).slice (win2_2.rect t)).set ↔ _
  rw [View.set_slice_whole, Rect.mem_set_unit]
  exact Iff.rfl

/-- Row `r` of the output lies in the block of point `r / 5000`, which is written back. -/
theorem tiled2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 5000 < cfg2.N := lt_of_lt_of_eq (by omega) Gen.N_2.symm
  obtain ⟨e0, e1, e2, e3, e4, e5⟩ := blockIndex2 ⟨(i 0).val / 5000, hN⟩
  refine ⟨⟨(i 0).val / 5000, hN⟩, Gen.flush2_2 _, ?_⟩
  rw [mem_block2]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 128 ≤ (i 1).val ∧ (i 1).val < win2_2.index ⟨(i 0).val / 5000, hN⟩ (1 : Fin 2) * 128 + 128
    rw [e5]; omega

/-! ## The array after the region -/

/-- The output array after the region's 20 points is the host's product of the two input arrays as the region
    found them. -/
theorem product2 (c : Dev nD) :
    (Gen.dat2 (F := Ideal) V c).arrAt 2 cfg2.N
      = Cert.Spec.dot128 (F := Ideal) (V c (Pipeline.arrRef spec2 0)) (V c (Pipeline.arrRef spec2 1)) :=
  (Gen.dat2 (F := Ideal) V c).arrAt_eq_of_cover 2 _ (fun t _ => flushed2_eq V c t) tiled2

end

/-- The same, stated over any witnesses of the two programs' side conditions (side conditions are propositions:
    any two witnesses are the same). -/
theorem matmul2 [Cert.KernelIdeal.Facts]
    (V : (c : Dev nD) → (b : Ref sig .tc) → Buf (Elt Ideal) ((c : Thread nD τ).loc b)) (c : Dev nD) :
    (Gen.dat2 (F := Ideal) V c).arrAt 2 cfg2.N
      = Cert.Spec.dot128 (V c (Pipeline.arrRef spec2 0)) (V c (Pipeline.arrRef spec2 1)) :=
  product2 V c

end Cert.KernelIdeal.RegionValue

end
-- ==== Proof.KernValue2.lean ====
/-
  The kernel program read from its second region to the entry of its fourth. Region 1 normalizes the first
  layer's output over rows of statistics and adds the input back (the first hidden layer h₁, and its rectification);
  region 2 multiplies the rectified h₁ by W₂; the host stretch after it aggregates that product over the edges
  (the second layer's output c₂) and takes its column means and variances as rows, with the rows of γ₂ and β₂.
-/
import proofs.«156291_j67765993996292_1_alg».proof.Proof.Gen.KernelIdeal.Frame
import proofs.«156291_j67765993996292_1_alg».proof.Proof.Spec
import proofs.«156291_j67765993996292_1_alg».proof.Proof.SpecKernel
import proofs.«156291_j67765993996292_1_alg».proof.Proof.KernValue0
import proofs.«156291_j67765993996292_1_alg».proof.Proof.KernValue1
import proofs.«156291_j67765993996292_1_alg».proof.Proof.Bn1
import proofs.«156291_j67765993996292_1_alg».proof.Proof.Matmul2
import Idealize.ShloMosaic.Lib.StableHlo.Run

set_option maxRecDepth 16384

noncomputable section

namespace Cert.KernelIdeal.Value

open Idealize.ShloMosaic Idealize.ShloMosaic.TcCoe
open Idealize.SL.Sem
open Cert.KernelIdeal Cert.KernelIdeal.Gen

variable [Cert.KernelIdeal.Facts] [Cert.ReferenceIdeal.Facts₀]
variable (m : (ℓ : Loc nD τ sig) → Buf (Elt Ideal) ℓ) (ρ : Dev nD → PrngReg)

/-! ## Region 1: the first hidden layer and its rectification -/

/-- The normalization of equal arguments. -/
theorem bnSkip_congr {cv cv' x x' : Vec Ideal Cert.ReferenceIdeal.S100000x128 .f32} {mn mn' vr vr' g g' be be' : Vec Ideal Cert.ReferenceIdeal.S1x128 .f32}
    (h0 : cv = cv') (h1 : mn = mn') (h2 : vr = vr') (h3 : g = g') (h4 : be = be') (h5 : x = x') :
    Cert.Spec.bnSkip cv mn vr g be x = Cert.Spec.bnSkip cv' mn' vr' g' be' x' := by
  subst h0 h1 h2 h3 h4 h5; rfl

set_option maxHeartbeats 1000000 in
theorem at6_h1 (c : Dev nD) : W6 m ρ c (Proc.devRef .tc main_v53_0) = (Cert.Spec.kernHidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W6_arr m ρ c 6).trans ((Cert.KernelIdeal.RegionValue.bn1_h (V5 m ρ) c).trans ((bnSkip_congr (at5_v45 m ρ c) (at5_v49 m ρ c) (at5_v50 m ρ c) (at5_v51 m ρ c) (at5_v52 m ρ c) (at5_arg0 m ρ c)).trans rfl))

set_option maxHeartbeats 1000000 in
theorem at6_a1 (c : Dev nD) : W6 m ρ c (Proc.devRef .tc main_v53_1) = Cert.Spec.relu (Cert.Spec.kernHidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (W6_arr m ρ c 7).trans ((Cert.KernelIdeal.RegionValue.bn1_a (V5 m ρ) c).trans (congrArg Cert.Spec.relu
    ((bnSkip_congr (at5_v45 m ρ c) (at5_v49 m ρ c) (at5_v50 m ρ c) (at5_v51 m ρ c) (at5_v52 m ρ c) (at5_arg0 m ρ c)).trans rfl)))

theorem keep_arg6_0_6 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by keep_through hostOps1_2
    _ = W3 m ρ c (Proc.devRef .tc main_arg6) := by keep_through hostOps1_1
    _ = W2 m ρ c (Proc.devRef .tc main_arg6) := by keep_through hostOps1
    _ = W1 m ρ c (Proc.devRef .tc main_arg6) := W2_of_ne m ρ c main_arg6 (by decide)
    _ = W0 m ρ c (Proc.devRef .tc main_arg6) := by keep_through hostOps0
theorem at6_arg6 (c : Dev nD) : W6 m ρ c (Proc.devRef .tc main_arg6) = m ((c : Thread nD τ).loc main_arg6) := (keep_arg6_0_6 m ρ c).trans rfl

/-! ## Region 2: the product with W₂ -/

theorem at7_v54 (c : Dev nD) : W7 m ρ c (Proc.devRef .tc main_v54) = Cert.Spec.dot128 (Cert.Spec.relu (Cert.Spec.kernHidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (m ((c : Thread nD τ).loc main_arg6)) :=
  (W7_arr m ρ c 2).trans ((Cert.KernelIdeal.RegionValue.matmul2 (V6 m ρ) c).trans (by
    rw [show V6 m ρ c (Pipeline.arrRef spec2 0) = _ from at6_a1 m ρ c, show V6 m ρ c (Pipeline.arrRef spec2 1) = _ from at6_arg6 m ρ c]))

/-! ## What is kept up to region 2's exit -/

theorem keep_v5_1_7 (c : Dev nD) : W7 m ρ c (Proc.devRef .tc main_v5) = W1 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := by keep_through hostOps1_2
    _ = W3 m ρ c (Proc.devRef .tc main_v5) := by keep_through hostOps1_1
    _ = W2 m ρ c (Proc.devRef .tc main_v5) := by keep_through hostOps1
    _ = W1 m ρ c (Proc.devRef .tc main_v5) := W2_of_ne m ρ c main_v5 (by decide)
theorem at7_v5 (c : Dev nD) : W7 m ρ c (Proc.devRef .tc main_v5) = srcs m c := (keep_v5_1_7 m ρ c).trans (src_at1 m ρ c)

theorem keep_v6_1_7 (c : Dev nD) : W7 m ρ c (Proc.devRef .tc main_v6) = W1 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keep_through hostOps1_2
    _ = W3 m ρ c (Proc.devRef .tc main_v6) := by keep_through hostOps1_1
    _ = W2 m ρ c (Proc.devRef .tc main_v6) := by keep_through hostOps1
    _ = W1 m ρ c (Proc.devRef .tc main_v6) := W2_of_ne m ρ c main_v6 (by decide)
theorem at7_v6 (c : Dev nD) : W7 m ρ c (Proc.devRef .tc main_v6) = dsts m c := (keep_v6_1_7 m ρ c).trans (dst_at1 m ρ c)

theorem keep_v28_1_7 (c : Dev nD) : W7 m ρ c (Proc.devRef .tc main_v28) = W1 m ρ c (Proc.devRef .tc main_v28) :=
  calc W7 m ρ c (Proc.devRef .tc main_v28)
    _ = W6 m ρ c (Proc.devRef .tc main_v28) := W7_of_ne m ρ c main_v28 (by decide)
    _ = W5 m ρ c (Proc.devRef .tc main_v28) := W6_of_ne m ρ c main_v28 (by decide)
    _ = W4 m ρ c (Proc.devRef .tc main_v28) := by keep_through hostOps1_2
    _ = W3 m ρ c (Proc.devRef .tc main_v28) := by keep_through hostOps1_1
    _ = W2 m ρ c (Proc.devRef .tc main_v28) := by keep_through hostOps1
    _ = W1 m ρ c (Proc.devRef .tc main_v28) := W2_of_ne m ρ c main_v28 (by decide)
theorem at7_v28 (c : Dev nD) : W7 m ρ c (Proc.devRef .tc main_v28) = Cert.Spec.edgeNorm (srcs m c) (dsts m c) := (keep_v28_1_7 m ρ c).trans (norm_at1 m ρ c)

theorem keep_v53_0_6_7 (c : Dev nD) : W7 m ρ c (Proc.devRef .tc main_v53_0) = W6 m ρ c (Proc.devRef .tc main_v53_0) :=
  calc W7 m ρ c (Proc.devRef .tc main_v53_0)
    _ = W6 m ρ c (Proc.devRef .tc main_v53_0) := W7_of_ne m ρ c main_v53_0 (by decide)
theorem at7_h1 (c : Dev nD) : W7 m ρ c (Proc.devRef .tc main_v53_0) = (Cert.Spec.kernHidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := (keep_v53_0_6_7 m ρ c).trans (at6_h1 m ρ c)

theorem keep_arg7_0_7 (c : Dev nD) : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by keep_through hostOps1_2
    _ = W3 m ρ c (Proc.devRef .tc main_arg7) := by keep_through hostOps1_1
    _ = W2 m ρ c (Proc.devRef .tc main_arg7) := by keep_through hostOps1
    _ = W1 m ρ c (Proc.devRef .tc main_arg7) := W2_of_ne m ρ c main_arg7 (by decide)
    _ = W0 m ρ c (Proc.devRef .tc main_arg7) := by keep_through hostOps0
theorem at7_arg7 (c : Dev nD) : W7 m ρ c (Proc.devRef .tc main_arg7) = m ((c : Thread nD τ).loc main_arg7) := (keep_arg7_0_7 m ρ c).trans rfl

theorem keep_arg8_0_7 (c : Dev nD) : W7 m ρ c (Proc.devRef .tc main_arg8) = W0 m ρ c (Proc.devRef .tc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by keep_through hostOps1_2
    _ = W3 m ρ c (Proc.devRef .tc main_arg8) := by keep_through hostOps1_1
    _ = W2 m ρ c (Proc.devRef .tc main_arg8) := by keep_through hostOps1
    _ = W1 m ρ c (Proc.devRef .tc main_arg8) := W2_of_ne m ρ c main_arg8 (by decide)
    _ = W0 m ρ c (Proc.devRef .tc main_arg8) := by keep_through hostOps0
theorem at7_arg8 (c : Dev nD) : W7 m ρ c (Proc.devRef .tc main_arg8) = m ((c : Thread nD τ).loc main_arg8) := (keep_arg8_0_7 m ρ c).trans rfl

theorem keep_arg9_0_7 (c : Dev nD) : W7 m ρ c (Proc.devRef .tc main_arg9) = W0 m ρ c (Proc.devRef .tc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by keep_through hostOps1_2
    _ = W3 m ρ c (Proc.devRef .tc main_arg9) := by keep_through hostOps1_1
    _ = W2 m ρ c (Proc.devRef .tc main_arg9) := by keep_through hostOps1
    _ = W1 m ρ c (Proc.devRef .tc main_arg9) := W2_of_ne m ρ c main_arg9 (by decide)
    _ = W0 m ρ c (Proc.devRef .tc main_arg9) := by keep_through hostOps0
theorem at7_arg9 (c : Dev nD) : W7 m ρ c (Proc.devRef .tc main_arg9) = m ((c : Thread nD τ).loc main_arg9) := (keep_arg9_0_7 m ρ c).trans rfl

/-! ## The stretch between region 2 and region 3 -/

/-- The second layer's output. -/
theorem at10_v70 (c : Dev nD) : W10 m ρ c (Proc.devRef .tc main_v70) = (Cert.Spec.kernConv2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  dsimp only [W10, W9, W8, hostOps3, hostOps3_1, hostOps3_2]
  after_results_simp
  rw [at7_v54 m ρ c, at7_v5 m ρ c, at7_v6 m ρ c, at7_v28 m ρ c, at7_arg7 m ρ c]
  try simp only [ofBuf_toBuf]
  rfl

/-- Its columns' means, as a row. -/
theorem at10_v74 (c : Dev nD) : W10 m ρ c (Proc.devRef .tc main_v74) = Cert.Spec.meanRow (Cert.Spec.kernConv2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  dsimp only [W10, W9, W8, hostOps3, hostOps3_1, hostOps3_2]
  after_results_simp
  rw [at7_v54 m ρ c, at7_v5 m ρ c, at7_v6 m ρ c, at7_v28 m ρ c, at7_arg7 m ρ c]
  try simp only [ofBuf_toBuf]
  rfl

/-- Its columns' variances, as a row. -/
theorem at10_v75 (c : Dev nD) : W10 m ρ c (Proc.devRef .tc main_v75) = Cert.Spec.varRow (Cert.Spec.kernConv2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) Cert.Spec.ddof0 := by
  dsimp only [W10, W9, W8, hostOps3, hostOps3_1, hostOps3_2]
  after_results_simp
  rw [at7_v54 m ρ c, at7_v5 m ρ c, at7_v6 m ρ c, at7_v28 m ρ c, at7_arg7 m ρ c]
  try simp only [ofBuf_toBuf]
  rfl

/-- γ₂ and β₂ as rows. -/
theorem at10_v76 (c : Dev nD) : W10 m ρ c (Proc.devRef .tc main_v76) = Cert.Spec.row128 (m ((c : Thread nD τ).loc main_arg8)) := by
  dsimp only [W10, W9, W8, hostOps3, hostOps3_1, hostOps3_2]
  after_results_simp
  rw [at7_arg8 m ρ c]
  try simp only [ofBuf_toBuf]
  rfl
theorem at10_v77 (c : Dev nD) : W10 m ρ c (Proc.devRef .tc main_v77) = Cert.Spec.row128 (m ((c : Thread nD τ).loc main_arg9)) := by
  dsimp only [W10, W9, W8, hostOps3, hostOps3_1, hostOps3_2]
  after_results_simp
  rw [at7_arg9 m ρ c]
  try simp only [ofBuf_toBuf]
  rfl

theorem keep_v53_0_7_10 (c : Dev nD) : W10 m ρ c (Proc.devRef .tc main_v53_0) = W7 m ρ c (Proc.devRef .tc main_v53_0) :=
  calc W10 m ρ c (Proc.devRef .tc main_v53_0)
    _ = W9 m ρ c (Proc.devRef .tc main_v53_0) := by keep_through hostOps3_2
    _ = W8 m ρ c (Proc.devRef .tc main_v53_0) := by keep_through hostOps3_1
    _ = W7 m ρ c (Proc.devRef .tc main_v53_0) := by keep_through hostOps3
theorem at10_h1 (c : Dev nD) : W10 m ρ c (Proc.devRef .tc main_v53_0) = (Cert.Spec.kernHidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := (keep_v53_0_7_10 m ρ c).trans (at7_h1 m ρ c)

end Cert.KernelIdeal.Value

end
-- ==== Proof.Bn3Blocks.lean ====
/-
  The blocks of the second normalisation region, as coordinates.

  The region runs over 20 grid points. At point `t` the windows of the aggregated features, of the layer's
  input and of the two results hold rows `5000 t … 5000 t + 4999` of their 100000-row arrays (all 128 columns),
  and the four statistic and parameter windows hold their whole one-row arrays at every point. This is read off
  the printed index maps once, by evaluation over the grid; from it, where an entry of a block sits in its array,
  and that the twenty result blocks tile the result arrays.
-/
import proofs.«156291_j67765993996292_1_alg».proof.Proof.Gen.KernelIdeal.Frame
import Idealize.ShloMosaic.Lib.Pipeline.Value
import Idealize.ShloMosaic.Lib.ValueLayout

noncomputable section

namespace Cert.KernelIdeal.RegionValue

open Idealize.ShloMosaic Idealize.ShloMosaic.TcCoe Idealize.SL.Sem Idealize.ShloMosaic.ValueIdx Cert.KernelIdeal
open Idealize.ShloMosaic.Pipeline (Dat)

set_option maxHeartbeats 400000 in
/-- The printed index maps over the grid: the row-block windows are at block `t` of the rows and block 0 of the
    columns, the one-row windows at block 0 of both. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-- The row of the array that row `p` of the block at point `t` is: `5000 t + p`. -/
def rowAt3 (t : Fin cfg3.N) (p : Fin 5000) : Fin 100000 :=
  ⟨t.val * 5000 + p.val, by have h := t.isLt; have e : cfg3.N = 20 := Gen.N_3; have := p.isLt; omega⟩

/-! ## Where a block's entry sits in its array -/

set_option maxHeartbeats 400000 in
theorem blk3_0_emb (t : Fin cfg3.N) (p : Fin 5000) (q : Fin 128) :
    ((cfg3.win 0).blk t).view.emb (ix2 p q) = ix2 (rowAt3 t p) q := by
  obtain ⟨e0, e1, -, -, -, -, -, -, -, -, -, -, -, -, -, -⟩ := index_facts3 t
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega

set_option maxHeartbeats 400000 in
theorem blk3_1_emb (t : Fin cfg3.N) (q : Fin 128) :
    ((cfg3.win 1).blk t).view.emb (ix2 (0 : Fin 1) q) = ix2 (0 : Fin 1) q := by
  obtain ⟨-, -, e0, e1, -, -, -, -, -, -, -, -, -, -, -, -⟩ := index_facts3 t
  funext a; apply Fin.ext
  match a with
  | ⟨0, _⟩ => show win3_1.index t (0 : Fin 2) * 1 + 1 * 0 = 0; omega
  | ⟨1, _⟩ => show win3_1.index t (1 : Fin 2) * 128 + 1 * q.val = q.val; omega

set_option maxHeartbeats 400000 in
theorem blk3_2_emb (t : Fin cfg3.N) (q : Fin 128) :
    ((cfg3.win 2).blk t).view.emb (ix2 (0 : Fin 1) q) = ix2 (0 : Fin 1) q := by
  obtain ⟨-, -, -, -, e0, e1, -, -, -, -, -, -, -, -, -, -⟩ := index_facts3 t
  funext a; apply Fin.ext
  match a with
  | ⟨0, _⟩ => show win3_2.index t (0 : Fin 2) * 1 + 1 * 0 = 0; omega
  | ⟨1, _⟩ => show win3_2.index t (1 : Fin 2) * 128 + 1 * q.val = q.val; omega

set_option maxHeartbeats 400000 in
theorem blk3_3_emb (t : Fin cfg3.N) (q : Fin 128) :
    ((cfg3.win 3).blk t).view.emb (ix2 (0 : Fin 1) q) = ix2 (0 : Fin 1) q := by
  obtain ⟨-, -, -, -, -, -, e0, e1, -, -, -, -, -, -, -, -⟩ := index_facts3 t
  funext a; apply Fin.ext
  match a with
  | ⟨0, _⟩ => show win3_3.index t (0 : Fin 2) * 1 + 1 * 0 = 0; omega
  | ⟨1, _⟩ => show win3_3.index t (1 : Fin 2) * 128 + 1 * q.val = q.val; omega

set_option maxHeartbeats 400000 in
theorem blk3_4_emb (t : Fin cfg3.N) (q : Fin 128) :
    ((cfg3.win 4).blk t).view.emb (ix2 (0 : Fin 1) q) = ix2 (0 : Fin 1) q := by
  obtain ⟨-, -, -, -, -, -, -, -, e0, e1, -, -, -, -, -, -⟩ := index_facts3 t
  funext a; apply Fin.ext
  match a with
  | ⟨0, _⟩ => show win3_4.index t (0 : Fin 2) * 1 + 1 * 0 = 0; omega
  | ⟨1, _⟩ => show win3_4.index t (1 : Fin 2) * 128 + 1 * q.val = q.val; omega

set_option maxHeartbeats 400000 in
theorem blk3_5_emb (t : Fin cfg3.N) (p : Fin 5000) (q : Fin 128) :
    ((cfg3.win 5).blk t).view.emb (ix2 p q) = ix2 (rowAt3 t p) q := by
  obtain ⟨-, -, -, -, -, -, -, -, -, -, e0, e1, -, -, -, -⟩ := index_facts3 t
  funext a; apply Fin.ext
  match a with
  | ⟨0, _⟩ => show win3_5.index t (0 : Fin 2) * 5000 + 1 * p.val = t.val * 5000 + p.val; omega
  | ⟨1, _⟩ => show win3_5.index t (1 : Fin 2) * 128 + 1 * q.val = q.val; omega

set_option maxHeartbeats 400000 in
theorem blk3_6_emb (t : Fin cfg3.N) (p : Fin 5000) (q : Fin 128) :
    ((cfg3.win 6).blk t).view.emb (ix2 p q) = ix2 (rowAt3 t p) q := by
  obtain ⟨-, -, -, -, -, -, -, -, -, -, -, -, e0, e1, -, -⟩ := index_facts3 t
  funext a; apply Fin.ext
  match a with
  | ⟨0, _⟩ => show win3_6.index t (0 : Fin 2) * 5000 + 1 * p.val = t.val * 5000 + p.val; omega
  | ⟨1, _⟩ => show win3_6.index t (1 : Fin 2) * 128 + 1 * q.val = q.val; omega

set_option maxHeartbeats 400000 in
theorem blk3_7_emb (t : Fin cfg3.N) (p : Fin 5000) (q : Fin 128) :
    ((cfg3.win 7).blk t).view.emb (ix2 p q) = ix2 (rowAt3 t p) q := by
  obtain ⟨-, -, -, -, -, -, -, -, -, -, -, -, -, -, e0, e1⟩ := index_facts3 t
  funext a; apply Fin.ext
  match a with
  | ⟨0, _⟩ => show win3_7.index t (0 : Fin 2) * 5000 + 1 * p.val = t.val * 5000 + p.val; omega
  | ⟨1, _⟩ => show win3_7.index t (1 : Fin 2) * 128 + 1 * q.val = q.val; omega

/-! ## The result blocks tile the result arrays -/

/-- An index of the array is in the block of point `t` iff each coordinate is in the block's range on its axis. -/
theorem mem_blk3_6 (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v78_0).slice (win3_6.rect t)).set ↔ _
  rw [View.set_slice_whole, Rect.mem_set_unit]
  exact Iff.rfl

set_option maxHeartbeats 400000 in
/-- The twenty blocks of 5000 rows tile the 100000 rows: row `r` is in the block of point `r / 5000`. -/
theorem covered3_6 (i : S100000x128.Idx) :
    ∃ t : Fin cfg3.N, (cfg3.win 6).flush t = true ∧ i ∈ ((cfg3.win 6).blk t).view.set := by
  have hi0 : (i 0).val < 100000 := idx2_lt0 i
  have hi1 : (i 1).val < 128 := idx2_lt1 i
  have hN : cfg3.N = 20 := Gen.N_3
  obtain ⟨t, ht⟩ : ∃ t : Fin cfg3.N, t.val = (i 0).val / 5000 := ⟨⟨(i 0).val / 5000, by rw [hN]; omega⟩, rfl⟩
  obtain ⟨-, -, -, -, -, -, -, -, -, -, -, -, e0, e1, -, -⟩ := index_facts3 t
  refine ⟨t, Gen.flush3_6 t, ?_⟩
  rw [mem_blk3_6]
  intro a
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 128 ≤ (i 1).val ∧ (i 1).val < win3_6.index t (1 : Fin 2) * 128 + 128
    omega

/-- An index of the array is in the block of point `t` iff each coordinate is in the block's range on its axis. -/
theorem mem_blk3_7 (t : Fin cfg3.N) (i : S100000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v78_1).slice (win3_7.rect t)).set ↔ _
  rw [View.set_slice_whole, Rect.mem_set_unit]
  exact Iff.rfl

set_option maxHeartbeats 400000 in
/-- The twenty blocks of 5000 rows tile the 100000 rows: row `r` is in the block of point `r / 5000`. -/
theorem covered3_7 (i : S100000x128.Idx) :
    ∃ t : Fin cfg3.N, (cfg3.win 7).flush t = true ∧ i ∈ ((cfg3.win 7).blk t).view.set := by
  have hi0 : (i 0).val < 100000 := idx2_lt0 i
  have hi1 : (i 1).val < 128 := idx2_lt1 i
  have hN : cfg3.N = 20 := Gen.N_3
  obtain ⟨t, ht⟩ : ∃ t : Fin cfg3.N, t.val = (i 0).val / 5000 := ⟨⟨(i 0).val / 5000, by rw [hN]; omega⟩, rfl⟩
  obtain ⟨-, -, -, -, -, -, -, -, -, -, -, -, -, -, e0, e1⟩ := index_facts3 t
  refine ⟨t, Gen.flush3_7 t, ?_⟩
  rw [mem_blk3_7]
  intro a
  match a with
  | ⟨0, _⟩ =>
    show win3_7.index t (0 : Fin 2) * 5000 ≤ (i 0).val ∧ (i 0).val < win3_7.index t (0 : Fin 2) * 5000 + 5000
    omega
  | ⟨1, _⟩ =>
    show win3_7.index t (1 : Fin 2) * 128 ≤ (i 1).val ∧ (i 1).val < win3_7.index t (1 : Fin 2) * 128 + 128
    omega

end Cert.KernelIdeal.RegionValue

end
-- ==== Proof.Bn3.lean ====
/-
  The second normalisation region as whole-array values, on the extended reals.

  Entered with any buffer contents `V`, the region ends with its first result array holding
  `(c - mean) * (var + eps)^(-1/2) * gamma + beta + x` of the six arrays it reads as it finds them, entry by entry
  (`Cert.Spec.bnSkip`), and its second result array the positive part of that (`Cert.Spec.relu`). What a grid point
  writes back is the body's result on the blocks it reads; each entry of that result is the specification's entry at
  the place of the array where the block's entry sits (the row blocks move together, the one-row operands stay); and the
  twenty result blocks tile the arrays.
-/
import proofs.«156291_j67765993996292_1_alg».proof.Proof.Gen.KernelIdeal.Frame
import proofs.«156291_j67765993996292_1_alg».proof.Proof.Spec
import proofs.«156291_j67765993996292_1_alg».proof.Proof.BnPoint
import proofs.«156291_j67765993996292_1_alg».proof.Proof.Bn3Blocks
import Idealize.ShloMosaic.Lib.Pipeline.Value
import Idealize.ShloMosaic.Lib.ValueLayout

noncomputable section

namespace Cert.KernelIdeal.RegionValue

open Idealize.ShloMosaic Idealize.ShloMosaic.TcCoe Idealize.SL.Sem Idealize.ShloMosaic.ValueIdx Cert.KernelIdeal
open Idealize.ShloMosaic.Pipeline (Dat)

variable [Cert.ReferenceIdeal.Facts₀]
variable (V : (c : Dev nD) → (b : Ref sig .tc) → Buf (Elt Ideal) ((c : Thread nD τ).loc b))

/-! ## What a grid point writes back -/

set_option maxHeartbeats 400000 in
/-- Point `t` writes back block `t` of the normalised array. -/
theorem flushed3_6_eq (c : Dev nD) (t : Fin cfg3.N) :
    (Gen.dat3 (F := Ideal) V c).flushed 6 t = ((cfg3.win 6).blk t).view.read (Elt Ideal)
      (Cert.Spec.bnSkip (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((Gen.dat3 V c).after 6 t) = _
  rw [Gen.after3_6]
  unfold Gen.out3_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  show Gen.k3_pay1 (F := Ideal) (Gen.iblk3 V c 0 t) (Gen.iblk3 V c 1 t) (Gen.iblk3 V c 2 t) (Gen.iblk3 V c 3 t) (Gen.iblk3 V c 4 t) (Gen.iblk3 V c 5 t) (ix2 p q)
    = (Cert.Spec.bnSkip (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (((cfg3.win 6).blk t).view.emb (ix2 p q))
  refine (k3_pay1_apply (Gen.iblk3 V c 0 t) (Gen.iblk3 V c 1 t) (Gen.iblk3 V c 2 t) (Gen.iblk3 V c 3 t) (Gen.iblk3 V c 4 t) (Gen.iblk3 V c 5 t) p q).trans ?_
  refine Eq.trans ?_ (congrArg (Cert.Spec.bnSkip (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (blk3_6_emb t p q)).symm
  refine Eq.trans ?_ (bnSkip_apply (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (rowAt3 t p) q).symm
  have e0 : Gen.iblk3 V c 0 t (ix2 p q) = V c (Pipeline.arrRef spec3 0) (ix2 (rowAt3 t p) q) :=
    congrArg (V c (Pipeline.arrRef spec3 0)) (blk3_0_emb t p q)
  have e1 : Gen.iblk3 V c 1 t (ix2 (0 : Fin 1) q) = V c (Pipeline.arrRef spec3 1) (ix2 (0 : Fin 1) q) :=
    congrArg (V c (Pipeline.arrRef spec3 1)) (blk3_1_emb t q)
  have e2 : Gen.iblk3 V c 2 t (ix2 (0 : Fin 1) q) = V c (Pipeline.arrRef spec3 2) (ix2 (0 : Fin 1) q) :=
    congrArg (V c (Pipeline.arrRef spec3 2)) (blk3_2_emb t q)
  have e3 : Gen.iblk3 V c 3 t (ix2 (0 : Fin 1) q) = V c (Pipeline.arrRef spec3 3) (ix2 (0 : Fin 1) q) :=
    congrArg (V c (Pipeline.arrRef spec3 3)) (blk3_3_emb t q)
  have e4 : Gen.iblk3 V c 4 t (ix2 (0 : Fin 1) q) = V c (Pipeline.arrRef spec3 4) (ix2 (0 : Fin 1) q) :=
    congrArg (V c (Pipeline.arrRef spec3 4)) (blk3_4_emb t q)
  have e5 : Gen.iblk3 V c 5 t (ix2 p q) = V c (Pipeline.arrRef spec3 5) (ix2 (rowAt3 t p) q) :=
    congrArg (V c (Pipeline.arrRef spec3 5)) (blk3_5_emb t p q)
  exact congr (congr (congr (congr (congr (congrArg bnPoint e0) e1) e2) e3) e4) e5

set_option maxHeartbeats 400000 in
/-- Point `t` writes back block `t` of its positive part. -/
theorem flushed3_7_eq (c : Dev nD) (t : Fin cfg3.N) :
    (Gen.dat3 (F := Ideal) V c).flushed 7 t = ((cfg3.win 7).blk t).view.read (Elt Ideal)
      (Cert.Spec.relu (F := Ideal) (Cert.Spec.bnSkip (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)))) := by
  show (cfg3.win 7).cut (grid3.coords t) ((Gen.dat3 V c).after 7 t) = _
  rw [Gen.after3_7]
  unfold Gen.out3_7
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  show Gen.k3_pay2 (F := Ideal) (Gen.iblk3 V c 0 t) (Gen.iblk3 V c 1 t) (Gen.iblk3 V c 2 t) (Gen.iblk3 V c 3 t) (Gen.iblk3 V c 4 t) (Gen.iblk3 V c 5 t) (ix2 p q)
    = (Cert.Spec.relu (F := Ideal) (Cert.Spec.bnSkip (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)))) (((cfg3.win 7).blk t).view.emb (ix2 p q))
  refine (k3_pay2_apply (Gen.iblk3 V c 0 t) (Gen.iblk3 V c 1 t) (Gen.iblk3 V c 2 t) (Gen.iblk3 V c 3 t) (Gen.iblk3 V c 4 t) (Gen.iblk3 V c 5 t) p q).trans ?_
  refine Eq.trans ?_ (congrArg (Cert.Spec.relu (F := Ideal) (Cert.Spec.bnSkip (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)))) (blk3_7_emb t p q)).symm
  refine Eq.trans ?_ (relu_apply (Cert.Spec.bnSkip (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) (rowAt3 t p) q).symm
  refine congrArg reluPoint ?_
  refine Eq.trans ?_ (bnSkip_apply (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (rowAt3 t p) q).symm
  have e0 : Gen.iblk3 V c 0 t (ix2 p q) = V c (Pipeline.arrRef spec3 0) (ix2 (rowAt3 t p) q) :=
    congrArg (V c (Pipeline.arrRef spec3 0)) (blk3_0_emb t p q)
  have e1 : Gen.iblk3 V c 1 t (ix2 (0 : Fin 1) q) = V c (Pipeline.arrRef spec3 1) (ix2 (0 : Fin 1) q) :=
    congrArg (V c (Pipeline.arrRef spec3 1)) (blk3_1_emb t q)
  have e2 : Gen.iblk3 V c 2 t (ix2 (0 : Fin 1) q) = V c (Pipeline.arrRef spec3 2) (ix2 (0 : Fin 1) q) :=
    congrArg (V c (Pipeline.arrRef spec3 2)) (blk3_2_emb t q)
  have e3 : Gen.iblk3 V c 3 t (ix2 (0 : Fin 1) q) = V c (Pipeline.arrRef spec3 3) (ix2 (0 : Fin 1) q) :=
    congrArg (V c (Pipeline.arrRef spec3 3)) (blk3_3_emb t q)
  have e4 : Gen.iblk3 V c 4 t (ix2 (0 : Fin 1) q) = V c (Pipeline.arrRef spec3 4) (ix2 (0 : Fin 1) q) :=
    congrArg (V c (Pipeline.arrRef spec3 4)) (blk3_4_emb t q)
  have e5 : Gen.iblk3 V c 5 t (ix2 p q) = V c (Pipeline.arrRef spec3 5) (ix2 (rowAt3 t p) q) :=
    congrArg (V c (Pipeline.arrRef spec3 5)) (blk3_5_emb t p q)
  exact congr (congr (congr (congr (congr (congrArg bnPoint e0) e1) e2) e3) e4) e5

/-! ## The result arrays after the run -/

section
variable [Cert.KernelIdeal.Facts]

/-- The first result array of the region after its run: the normalisation with the layer's input added back, of the
    six arrays as the region finds them. -/
theorem bn3_h (c : Dev nD) :
    (Gen.dat3 (F := Ideal) V c).arrAt 6 cfg3.N = Cert.Spec.bnSkip (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (Gen.dat3 (F := Ideal) V c).arrAt_eq_of_cover 6 _ (fun t _ => flushed3_6_eq V c t) covered3_6

/-- The second result array: its positive part. -/
theorem bn3_a (c : Dev nD) :
    (Gen.dat3 (F := Ideal) V c).arrAt 7 cfg3.N
      = Cert.Spec.relu (F := Ideal) (Cert.Spec.bnSkip (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) :=
  (Gen.dat3 (F := Ideal) V c).arrAt_eq_of_cover 7 _ (fun t _ => flushed3_7_eq V c t) covered3_7

end

end Cert.KernelIdeal.RegionValue

end
-- ==== Proof.Matmul4.lean ====
/-
  Region 4 of the kernel program (a dense product) as ONE array.

  The region's grid has 20 points.  Point `t` reads rows `5000 t … 5000 t + 4999` of the 100000 × 128 input and
  the whole 128 × 64 weight matrix, and writes rows `5000 t … 5000 t + 4999` of the 100000 × 64 output: entry
  `(p, q)` of its block is `∑ l, x (5000 t + p, l) · w (l, q)` — the matrix unit's sum into a zero accumulator;
  re-reading the input block at its own shape and changing the float format before the product are both the
  identity on the extended reals.  The host's product of the two whole arrays has the same sum at
  `(5000 t + p, q)`, so every block written back is the block of that product; the 20 blocks tile the 100000
  rows (row `r` lies in block `r / 5000`), so the output array ends holding the product.
-/
import proofs.«156291_j67765993996292_1_alg».proof.Proof.Gen.KernelIdeal.Frame
import proofs.«156291_j67765993996292_1_alg».proof.ReferenceIdeal
import proofs.«156291_j67765993996292_1_alg».proof.Proof.Spec
import proofs.«156291_j67765993996292_1_alg».proof.Proof.LibMatRows
import proofs.«156291_j67765993996292_1_alg».proof.Proof.LibDotRows
import Idealize.ShloMosaic.PureOps.Ideal.Laws
import Idealize.ShloMosaic.Lib.ValueIdx
import Idealize.ShloMosaic.Lib.Pipeline.Value

noncomputable section

namespace Cert.KernelIdeal.RegionValue

open Idealize.ShloMosaic Idealize.ShloMosaic.TcCoe Idealize.SL.Sem Idealize.ShloMosaic.ValueIdx
open Idealize.ShloMosaic.Pipeline (Dat)

variable [Cert.ReferenceIdeal.Facts₀]

/-! ## One entry of a block, one entry of the whole product -/

/-- The body's result at `(p, q)`: the sum over `l` of `x (p, l) · w (l, q)`. -/
theorem body4_apply (x : Vec Ideal S5000x128 .f32) (w : Vec Ideal S128x64 .f32) (p : Fin 5000) (q : Fin 64) :
    Gen.k4_pay1 x w (ix2 p q) = ∑ l : Fin 128, x (ix2 p l) * w (ix2 l q) := by
  unfold Gen.k4_pay1
  refine (Cert.MatRows.matmul_zero_apply dot_S5000x128_S128x64_S5000x64_1_0_0_1_n_n rfl rfl
    (fun _ _ => rfl) (fun j k => DotDims.lhsIdx_val_of_single _ rfl j k)
    (fun j k => DotDims.rhsIdx_val_of_single _ rfl j k) (fun _ _ => rfl) _ _ p q).trans ?_
  -- the block is first re-read at its own shape, which changes nothing
  refine Finset.sum_congr rfl fun l _ => ?_
  show shapeCast S5000x128 x _ (ix2 p l) * w (ix2 l q) = x (ix2 p l) * w (ix2 l q)
  rw [shapeCast_self]

/-- The host's product of the whole arrays at `(r, q)`: the same sum along row `r` and column `q`. -/
theorem dot64_apply (A : Vec Ideal Cert.ReferenceIdeal.S100000x128 .f32) (B : Vec Ideal Cert.ReferenceIdeal.S128x64 .f32)
    (r : Fin 100000) (q : Fin 64) :
    Cert.Spec.dot64 (F := Ideal) A B (ix2 r q) = ∑ l : Fin 128, A (ix2 r l) * B (ix2 l q) := by
  unfold Cert.Spec.dot64
  exact Cert.DotRows.dotGeneral_apply (φ₁ := .f32) (φ₂ := .f32) Cert.ReferenceIdeal.dot_S100000x128_S128x64_S100000x64_1_0_0_1_n_n rfl rfl
    (fun _ _ => rfl) (fun j k => DotDims.lhsIdx_val_of_single _ rfl j k)
    (fun j k => DotDims.rhsIdx_val_of_single _ rfl j k) (fun _ _ => rfl) A B r q

/-- A block entry against the whole product: when row `p` of the block `x` is row `r` of `A`, and column `q` of
    `w` is column `q` of `B`, the body's result at `(p, q)` is the product of `A` and `B` at `(r, q)`. -/
theorem entry4 (x : Vec Ideal S5000x128 .f32) (w : Vec Ideal S128x64 .f32)
    (A : Vec Ideal Cert.ReferenceIdeal.S100000x128 .f32) (B : Vec Ideal Cert.ReferenceIdeal.S128x64 .f32)
    (p : Fin 5000) (q : Fin 64) (r : Fin 100000)
    (hx : ∀ l : Fin 128, x (ix2 p l) = A (ix2 r l)) (hw : ∀ l : Fin 128, w (ix2 l q) = B (ix2 l q)) :
    Gen.k4_pay1 x w (ix2 p q) = Cert.Spec.dot64 (F := Ideal) A B (ix2 r q) := by
  rw [body4_apply, dot64_apply]
  exact Finset.sum_congr rfl fun l _ => by rw [hx l, hw l]

/-! ## The blocks -/

theorem zeroOffsets4 : (![0, 0] : Fin 2 → Nat) = fun _ => 0 := funext fun a => by fin_cases a <;> rfl

/-- The three index maps over the grid: at point `t` the input and the output are at block row `t`, block column
    0; the weight matrix is always its one block. -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b))

set_option maxHeartbeats 400000 in
/-- What point `t` writes back is block `t` of the product of the two arrays as the region finds them. -/
theorem flushed4_eq (c : Dev nD) (t : Fin cfg4.N) :
    (Gen.dat4 (F := Ideal) V c).flushed 2 t
      = ((cfg4.win 2).blk t).view.read (Elt Ideal)
          (Cert.Spec.dot64 (F := Ideal) (V c (Pipeline.arrRef spec4 0)) (V c (Pipeline.arrRef spec4 1))) := by
  show (cfg4.win 2).cut (grid4.coords t) ((Gen.dat4 V c).after 2 t) = _
  rw [Gen.after4_2]
  unfold Gen.out4_2
  rw [View.canon_unit_zero zeroOffsets4]
  simp only [View.ld_unit_zero (S := S5000x128) zeroOffsets4, View.ld_unit_zero (S := S128x64) zeroOffsets4]
  obtain ⟨e0, e1, e2, e3, e4, e5⟩ := blockIndex4 t
  have ht : t.val < 20 := lt_of_lt_of_eq t.isLt Gen.N_4
  funext j
  obtain ⟨p, q, rfl⟩ : ∃ (p : Fin 5000) (q : Fin 64), j = ix2 p q := ⟨j 0, j 1, eq_ix2 j⟩
  have hr : t.val * 5000 + p.val < 100000 := by have := p.isLt; omega
  -- where the output block's entry sits in the array
  have hout : ((cfg4.win 2).blk t).view.emb (ix2 p q) = (ix2 (⟨t.val * 5000 + p.val, hr⟩ : Fin 100000) q : Cert.ReferenceIdeal.S100000x64.Idx) := by
    funext a; apply Fin.ext
    match a with
    | ⟨0, _⟩ => show win4_2.index t (0 : Fin 2) * 5000 + 1 * p.val = t.val * 5000 + p.val; omega
    | ⟨1, _⟩ => show win4_2.index t (1 : Fin 2) * 64 + 1 * q.val = q.val; omega
  show Gen.k4_pay1 (Gen.iblk4 V c 0 t) (Gen.iblk4 V c 1 t) (ix2 p q)
    = Cert.Spec.dot64 (F := Ideal) (V c (Pipeline.arrRef spec4 0)) (V c (Pipeline.arrRef spec4 1)) (((cfg4.win 2).blk t).view.emb (ix2 p q))
  refine Eq.trans ?_ (congrArg (Cert.Spec.dot64 (F := Ideal) (V c (Pipeline.arrRef spec4 0)) (V c (Pipeline.arrRef spec4 1))) hout.symm)
  refine entry4 _ _ _ _ p q ⟨t.val * 5000 + p.val, hr⟩ (fun l => ?_) (fun l => ?_)
  · -- the input block's row p is row 5000 t + p of the input array
    show V c (Pipeline.arrRef spec4 0) (((cfg4.win 0).blk t).view.emb (ix2 p l))
      = V c (Pipeline.arrRef spec4 0) (ix2 (⟨t.val * 5000 + p.val, hr⟩ : Fin 100000) l : Cert.ReferenceIdeal.S100000x128.Idx)
    refine congrArg _ ?_
    funext a; apply Fin.ext
    match a with
    | ⟨0, _⟩ => show win4_0.index t (0 : Fin 2) * 5000 + 1 * p.val = t.val * 5000 + p.val; omega
    | ⟨1, _⟩ => show win4_0.index t (1 : Fin 2) * 128 + 1 * l.val = l.val; omega
  · -- the weight block is the weight matrix
    show V c (Pipeline.arrRef spec4 1) (((cfg4.win 1).blk t).view.emb (ix2 l q))
      = V c (Pipeline.arrRef spec4 1) (ix2 l q : Cert.ReferenceIdeal.S128x64.Idx)
    refine congrArg _ ?_
    funext a; apply Fin.ext
    match a with
    | ⟨0, _⟩ => show win4_1.index t (0 : Fin 2) * 128 + 1 * l.val = l.val; omega
    | ⟨1, _⟩ => show win4_1.index t (1 : Fin 2) * 64 + 1 * q.val = q.val; omega

/-! ## The blocks tile the array -/

/-- An index of the output array is in point `t`'s block iff each coordinate is in the block's range on its axis. -/
theorem mem_block4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v79).slice (win4_2.rect t)).set ↔ _
  rw [View.set_slice_whole, Rect.mem_set_unit]
  exact Iff.rfl

/-- Row `r` of the output lies in the block of point `r / 5000`, which is written back. -/
theorem tiled4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : (i 0).val / 5000 < cfg4.N := lt_of_lt_of_eq (by omega) Gen.N_4.symm
  obtain ⟨e0, e1, e2, e3, e4, e5⟩ := blockIndex4 ⟨(i 0).val / 5000, hN⟩
  refine ⟨⟨(i 0).val / 5000, hN⟩, Gen.flush4_2 _, ?_⟩
  rw [mem_block4]
  intro a
  match a with
  | ⟨0, _⟩ =>
    show win4_2.index ⟨(i 0).val / 5000, hN⟩ (0 : Fin 2) * 5000 ≤ (i 0).val ∧ (i 0).val < win4_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hN⟩ (1 : Fin 2) * 64 ≤ (i 1).val ∧ (i 1).val < win4_2.index ⟨(i 0).val / 5000, hN⟩ (1 : Fin 2) * 64 + 64
    rw [e5]; omega

/-! ## The array after the region -/

/-- The output array after the region's 20 points is the host's product of the two input arrays as the region
    found them. -/
theorem product4 (c : Dev nD) :
    (Gen.dat4 (F := Ideal) V c).arrAt 2 cfg4.N
      = Cert.Spec.dot64 (F := Ideal) (V c (Pipeline.arrRef spec4 0)) (V c (Pipeline.arrRef spec4 1)) :=
  (Gen.dat4 (F := Ideal) V c).arrAt_eq_of_cover 2 _ (fun t _ => flushed4_eq V c t) tiled4

end

/-- The same, stated over any witnesses of the two programs' side conditions (side conditions are propositions:
    any two witnesses are the same). -/
theorem matmul4 [Cert.KernelIdeal.Facts]
    (V : (c : Dev nD) → (b : Ref sig .tc) → Buf (Elt Ideal) ((c : Thread nD τ).loc b)) (c : Dev nD) :
    (Gen.dat4 (F := Ideal) V c).arrAt 2 cfg4.N
      = Cert.Spec.dot64 (V c (Pipeline.arrRef spec4 0)) (V c (Pipeline.arrRef spec4 1)) :=
  product4 V c

end Cert.KernelIdeal.RegionValue

end
-- ==== Proof.KernValue3.lean ====
/-
  The kernel program read from its fourth region to its result. Region 3 normalizes the second layer's output
  over rows of statistics and adds the first hidden layer back (the second hidden layer h₂, and its rectification);
  region 4 multiplies the rectified h₂ by W₃; the last host stretch aggregates that product over the edges and adds
  the bias: the result array is the network's output, as a function of the launch arguments.
-/
import proofs.«156291_j67765993996292_1_alg».proof.Proof.Gen.KernelIdeal.Frame
import proofs.«156291_j67765993996292_1_alg».proof.Proof.Spec
import proofs.«156291_j67765993996292_1_alg».proof.Proof.SpecKernel
import proofs.«156291_j67765993996292_1_alg».proof.Proof.KernValue0
import proofs.«156291_j67765993996292_1_alg».proof.Proof.KernValue1
import proofs.«156291_j67765993996292_1_alg».proof.Proof.KernValue2
import proofs.«156291_j67765993996292_1_alg».proof.Proof.Bn3
import proofs.«156291_j67765993996292_1_alg».proof.Proof.Matmul4
import Idealize.ShloMosaic.Lib.StableHlo.Run

set_option maxRecDepth 16384

noncomputable section

namespace Cert.KernelIdeal.Value

open Idealize.ShloMosaic Idealize.ShloMosaic.TcCoe
open Idealize.SL.Sem
open Cert.KernelIdeal Cert.KernelIdeal.Gen

variable [Cert.KernelIdeal.Facts] [Cert.ReferenceIdeal.Facts₀]
variable (m : (ℓ : Loc nD τ sig) → Buf (Elt Ideal) ℓ) (ρ : Dev nD → PrngReg)

/-! ## Region 3: the second hidden layer and its rectification -/

set_option maxHeartbeats 1000000 in
theorem at11_h2 (c : Dev nD) : W11 m ρ c (Proc.devRef .tc main_v78_0) = (Cert.Spec.kernHidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W11_arr m ρ c 6).trans ((Cert.KernelIdeal.RegionValue.bn3_h (V10 m ρ) c).trans
    ((bnSkip_congr (at10_v70 m ρ c) (at10_v74 m ρ c) (at10_v75 m ρ c) (at10_v76 m ρ c) (at10_v77 m ρ c) (at10_h1 m ρ c)).trans rfl))

set_option maxHeartbeats 1000000 in
theorem at11_a2 (c : Dev nD) : W11 m ρ c (Proc.devRef .tc main_v78_1) = Cert.Spec.relu (Cert.Spec.kernHidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W11_arr m ρ c 7).trans ((Cert.KernelIdeal.RegionValue.bn3_a (V10 m ρ) c).trans (congrArg Cert.Spec.relu
    ((bnSkip_congr (at10_v70 m ρ c) (at10_v74 m ρ c) (at10_v75 m ρ c) (at10_v76 m ρ c) (at10_v77 m ρ c) (at10_h1 m ρ c)).trans rfl)))

theorem keep_arg10_0_11 (c : Dev nD) : W11 m ρ c (Proc.devRef .tc main_arg10) = W0 m ρ c (Proc.devRef .tc main_arg10) :=
  calc W11 m ρ c (Proc.devRef .tc main_arg10)
    _ = W10 m ρ c (Proc.devRef .tc main_arg10) := W11_of_ne m ρ c main_arg10 (by decide)
    _ = W9 m ρ c (Proc.devRef .tc main_arg10) := by keep_through hostOps3_2
    _ = W8 m ρ c (Proc.devRef .tc main_arg10) := by keep_through hostOps3_1
    _ = W7 m ρ c (Proc.devRef .tc main_arg10) := by keep_through hostOps3
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by keep_through hostOps1_2
    _ = W3 m ρ c (Proc.devRef .tc main_arg10) := by keep_through hostOps1_1
    _ = W2 m ρ c (Proc.devRef .tc main_arg10) := by keep_through hostOps1
    _ = W1 m ρ c (Proc.devRef .tc main_arg10) := W2_of_ne m ρ c main_arg10 (by decide)
    _ = W0 m ρ c (Proc.devRef .tc main_arg10) := by keep_through hostOps0
theorem at11_arg10 (c : Dev nD) : W11 m ρ c (Proc.devRef .tc main_arg10) = m ((c : Thread nD τ).loc main_arg10) := (keep_arg10_0_11 m ρ c).trans rfl

/-! ## Region 4: the product with W₃ -/

theorem at12_v79 (c : Dev nD) : W12 m ρ c (Proc.devRef .tc main_v79) = Cert.Spec.dot64 (Cert.Spec.relu (Cert.Spec.kernHidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) (m ((c : Thread nD τ).loc main_arg10)) :=
  (W12_arr m ρ c 2).trans ((Cert.KernelIdeal.RegionValue.matmul4 (V11 m ρ) c).trans (by
    rw [show V11 m ρ c (Pipeline.arrRef spec4 0) = _ from at11_a2 m ρ c, show V11 m ρ c (Pipeline.arrRef spec4 1) = _ from at11_arg10 m ρ c]))

/-! ## What is kept up to region 4's exit -/

theorem keep_v5_7_12 (c : Dev nD) : W12 m ρ c (Proc.devRef .tc main_v5) = W7 m ρ c (Proc.devRef .tc main_v5) :=
  calc W12 m ρ c (Proc.devRef .tc main_v5)
    _ = W11 m ρ c (Proc.devRef .tc main_v5) := W12_of_ne m ρ c main_v5 (by decide)
    _ = W10 m ρ c (Proc.devRef .tc main_v5) := W11_of_ne m ρ c main_v5 (by decide)
    _ = W9 m ρ c (Proc.devRef .tc main_v5) := by keep_through hostOps3_2
    _ = W8 m ρ c (Proc.devRef .tc main_v5) := by keep_through hostOps3_1
    _ = W7 m ρ c (Proc.devRef .tc main_v5) := by keep_through hostOps3
theorem at12_v5 (c : Dev nD) : W12 m ρ c (Proc.devRef .tc main_v5) = srcs m c := (keep_v5_7_12 m ρ c).trans (at7_v5 m ρ c)

theorem keep_v6_7_12 (c : Dev nD) : W12 m ρ c (Proc.devRef .tc main_v6) = W7 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := by keep_through hostOps3_2
    _ = W8 m ρ c (Proc.devRef .tc main_v6) := by keep_through hostOps3_1
    _ = W7 m ρ c (Proc.devRef .tc main_v6) := by keep_through hostOps3
theorem at12_v6 (c : Dev nD) : W12 m ρ c (Proc.devRef .tc main_v6) = dsts m c := (keep_v6_7_12 m ρ c).trans (at7_v6 m ρ c)

theorem keep_v28_7_12 (c : Dev nD) : W12 m ρ c (Proc.devRef .tc main_v28) = W7 m ρ c (Proc.devRef .tc main_v28) :=
  calc W12 m ρ c (Proc.devRef .tc main_v28)
    _ = W11 m ρ c (Proc.devRef .tc main_v28) := W12_of_ne m ρ c main_v28 (by decide)
    _ = W10 m ρ c (Proc.devRef .tc main_v28) := W11_of_ne m ρ c main_v28 (by decide)
    _ = W9 m ρ c (Proc.devRef .tc main_v28) := by keep_through hostOps3_2
    _ = W8 m ρ c (Proc.devRef .tc main_v28) := by keep_through hostOps3_1
    _ = W7 m ρ c (Proc.devRef .tc main_v28) := by keep_through hostOps3
theorem at12_v28 (c : Dev nD) : W12 m ρ c (Proc.devRef .tc main_v28) = Cert.Spec.edgeNorm (srcs m c) (dsts m c) := (keep_v28_7_12 m ρ c).trans (at7_v28 m ρ c)

theorem keep_arg11_0_12 (c : Dev nD) : W12 m ρ c (Proc.devRef .tc main_arg11) = W0 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := by keep_through hostOps3_2
    _ = W8 m ρ c (Proc.devRef .tc main_arg11) := by keep_through hostOps3_1
    _ = W7 m ρ c (Proc.devRef .tc main_arg11) := by keep_through hostOps3
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by keep_through hostOps1_2
    _ = W3 m ρ c (Proc.devRef .tc main_arg11) := by keep_through hostOps1_1
    _ = W2 m ρ c (Proc.devRef .tc main_arg11) := by keep_through hostOps1
    _ = W1 m ρ c (Proc.devRef .tc main_arg11) := W2_of_ne m ρ c main_arg11 (by decide)
    _ = W0 m ρ c (Proc.devRef .tc main_arg11) := by keep_through hostOps0
theorem at12_arg11 (c : Dev nD) : W12 m ρ c (Proc.devRef .tc main_arg11) = m ((c : Thread nD τ).loc main_arg11) := (keep_arg11_0_12 m ρ c).trans rfl

/-! ## The last stretch: the output layer -/

/-- The result array after the run is the network's output of the launch arguments. -/
theorem out_value (c : Dev nD) : W13 m ρ c (Proc.devRef .tc main_v95) = (Cert.Spec.kernOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  dsimp only [W13, hostOps5]
  after_results_simp
  rw [at12_v79 m ρ c, at12_v5 m ρ c, at12_v6 m ρ c, at12_v28 m ρ c, at12_arg11 m ρ c]
  try simp only [ofBuf_toBuf]
  rfl

end Cert.KernelIdeal.Value

end
-- ==== Proof.RefOps.lean ====
/-
  The reference program's @main as lists of its host operations, in order: nine consecutive pieces, cut where the
  network's stages end (an aggregation, a normalization) and where the printed windows of @main end. The two
  functions the program calls (the variance, which itself calls the selection, and the rectifier) appear in place,
  as their own operations over the buffers of the call. For each piece: the references it writes, that it writes
  no other, and that every buffer it names is one of the device's.
-/
import proofs.«156291_j67765993996292_1_alg».proof.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-- One operation's written reference is in the list: the builder writes exactly its result. -/
macro "writes_in_list" : tactic =>
  `(tactic| (simp only [nullary_writes, unary_writes, binary_writes, ternary_writes, reshape_writes,
      Finset.singleton_subset_iff, List.mem_toFinset]; exact List.mem_map_of_mem (by decide)))

/-- The two rows of the edge list, each flattened to a vector. -/
abbrev opsEdges : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The references `opsEdges` writes. -/
abbrev opsEdges_W : List (Ref sig .tc) :=
  [main_v0, main_v1, main_v2, main_v3]

set_option maxRecDepth 8192 in
theorem opsEdges_sub : (opsEdges : List (HloOp τ sig (Elt F))).Forall fun op => op.bufs ⊆ tcRefs τ sig :=
  ⟨unary_bufs_sub .., reshape_bufs_sub .., unary_bufs_sub .., reshape_bufs_sub ..⟩

set_option maxRecDepth 8192 in
theorem opsEdges_writes : (opsEdges : List (HloOp τ sig (Elt F))).Forall fun op =>
    op.writes ⊆ (opsEdges_W.map (Proc.devRef (τ := τ) .tc)).toFinset := by
  simp only [List.Forall]
  exact ⟨by writes_in_list, by writes_in_list, by writes_in_list, by writes_in_list⟩

/-- The first layer's product `x W₁`, the endpoints with one loop per node, the degrees under the reciprocal square root, the edge weights, the aggregation and the bias. -/
abbrev opsConv1 : List (HloOp τ sig (Elt F)) :=
  [ StableHlo.binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v5 (iotaInDim S100000 32 0),
    StableHlo.binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x3F800000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (maximumf : (⟨S100000, .f32⟩ : BufTy).Contents (Elt F) → (⟨S100000, .f32⟩ : BufTy).Contents (Elt F) → (⟨S100000, .f32⟩ : BufTy).Contents (Elt F)),
    StableHlo.unary main_v13 main_v14 (Host.rsqrt : (⟨S100000, .f32⟩ : BufTy).Contents (Elt F) → (⟨S100000, .f32⟩ : BufTy).Contents (Elt F)),
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v6 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_2 (constantI S_ 32 100000#32),
    StableHlo.unary main_c_2 main_v17 (broadcastInDim S1700000 ![] bcast_S_S1700000 : (⟨S_, .i32⟩ : BufTy).Contents (Elt F) → (⟨S1700000, .i32⟩ : BufTy).Contents (Elt F)),
    StableHlo.binary main_v6 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v6 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_3 (constantI S_ 32 0#32),
    StableHlo.unary main_c_3 main_v22 (broadcastInDim S1700000 ![] bcast_S_S1700000 : (⟨S_, .i32⟩ : BufTy).Contents (Elt F) → (⟨S1700000, .i32⟩ : BufTy).Contents (Elt F)),
    StableHlo.binary main_v7 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v24 (broadcastInDim S1700000 ![] bcast_S_S1700000 : (⟨S_, .i32⟩ : BufTy).Contents (Elt F) → (⟨S1700000, .i32⟩ : BufTy).Contents (Elt F)),
    StableHlo.binary main_v7 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v7 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)),
    StableHlo.nullary main_c_5 (constantI S_ 32 0#32),
    StableHlo.unary main_c_5 main_v30 (broadcastInDim S1700000 ![] bcast_S_S1700000 : (⟨S_, .i32⟩ : BufTy).Contents (Elt F) → (⟨S1700000, .i32⟩ : BufTy).Contents (Elt F)),
    StableHlo.binary main_v6 main_v30 main_v31 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v32 (broadcastInDim S1700000 ![] bcast_S_S1700000 : (⟨S_, .i32⟩ : BufTy).Contents (Elt F) → (⟨S1700000, .i32⟩ : BufTy).Contents (Elt F)),
    StableHlo.binary main_v6 main_v32 main_v33 (addi : (⟨S1700000, .i32⟩ : BufTy).Contents (Elt F) → (⟨S1700000, .i32⟩ : BufTy).Contents (Elt F) → (⟨S1700000, .i32⟩ : BufTy).Contents (Elt F)),
    StableHlo.ternary main_v31 main_v33 main_v6 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v34 main_v35 (broadcastInDim S1700000x1 ![0] bcast_S1700000_S1700000x1_0 : (⟨S1700000, .i32⟩ : BufTy).Contents (Elt F) → (⟨S1700000x1, .i32⟩ : BufTy).Contents (Elt F)),
    StableHlo.binary main_v4 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v37 (broadcastInDim S1700000x1 ![0] bcast_S1700000_S1700000x1_0 : (⟨S1700000, .f32⟩ : BufTy).Contents (Elt F) → (⟨S1700000x1, .f32⟩ : BufTy).Contents (Elt F)),
    StableHlo.unary main_v37 main_v38 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v36 main_v38 main_v39 (mulf : (⟨S1700000x128, .f32⟩ : BufTy).Contents (Elt F) → (⟨S1700000x128, .f32⟩ : BufTy).Contents (Elt F) → (⟨S1700000x128, .f32⟩ : BufTy).Contents (Elt F)),
    StableHlo.nullary main_cst_7 (constant S_ .f32 0x00000000#32),
    StableHlo.unary main_cst_7 main_v40 (broadcastInDim S100000x128 ![] bcast_S_S100000x128 : (⟨S_, .f32⟩ : BufTy).Contents (Elt F) → (⟨S100000x128, .f32⟩ : BufTy).Contents (Elt F)),
    StableHlo.unary main_v7 main_v41 (broadcastInDim S1700000x1 ![0] bcast_S1700000_S1700000x1_0 : (⟨S1700000, .i32⟩ : BufTy).Contents (Elt F) → (⟨S1700000x1, .i32⟩ : BufTy).Contents (Elt F)),
    StableHlo.ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)) ]

/-- The references `opsConv1` writes. -/
abbrev opsConv1_W : List (Ref sig .tc) :=
  [main_v4, main_v5, main_v6, main_v7, main_cst, main_v8, main_cst_0, main_v9,
   main_v10, main_v11, main_cst_1, main_v12, main_v13, main_v14, main_c, main_v15,
   main_v16, main_c_2, main_v17, main_v18, main_v19, main_v20, main_v21, main_c_3,
   main_v22, main_v23, main_c_4, main_v24, main_v25, main_v26, main_v27, main_v28,
   main_v29, main_c_5, main_v30, main_v31, main_c_6, main_v32, main_v33, main_v34,
   main_v35, main_v36, main_v37, main_v38, main_v39, main_cst_7, main_v40, main_v41,
   main_v42, main_v43, main_v44, main_v45]

set_option maxRecDepth 8192 in
theorem opsConv1_sub : (opsConv1 : List (HloOp τ sig (Elt F))).Forall fun op => op.bufs ⊆ tcRefs τ sig :=
  ⟨binary_bufs_sub .., nullary_bufs_sub .., binary_bufs_sub .., binary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., unary_bufs_sub .., binary_bufs_sub ..⟩

set_option maxRecDepth 8192 in
theorem opsConv1_writes : (opsConv1 : List (HloOp τ sig (Elt F))).Forall fun op =>
    op.writes ⊆ (opsConv1_W.map (Proc.devRef (τ := τ) .tc)).toFinset := by
  simp only [List.Forall]
  exact ⟨by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list⟩

/-- The column sums of the first layer's output and the node count they are divided by. -/
abbrev opsSum1 : List (HloOp τ sig (Elt F)) :=
  [ StableHlo.nullary main_cst_8 (constant S_ .f32 0x00000000#32),
    StableHlo.binary main_v45 main_cst_8 main_v46 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v47 (broadcastInDim S128 ![] bcast_S_S128 : (⟨S_, .f32⟩ : BufTy).Contents (Elt F) → (⟨S128, .f32⟩ : BufTy).Contents (Elt F)) ]

/-- The references `opsSum1` writes. -/
abbrev opsSum1_W : List (Ref sig .tc) :=
  [main_cst_8, main_v46, main_cst_9, main_v47]

set_option maxRecDepth 8192 in
theorem opsSum1_sub : (opsSum1 : List (HloOp τ sig (Elt F))).Forall fun op => op.bufs ⊆ tcRefs τ sig :=
  ⟨nullary_bufs_sub .., binary_bufs_sub .., nullary_bufs_sub .., unary_bufs_sub ..⟩

set_option maxRecDepth 8192 in
theorem opsSum1_writes : (opsSum1 : List (HloOp τ sig (Elt F))).Forall fun op =>
    op.writes ⊆ (opsSum1_W.map (Proc.devRef (τ := τ) .tc)).toFinset := by
  simp only [List.Forall]
  exact ⟨by writes_in_list, by writes_in_list, by writes_in_list, by writes_in_list⟩

/-- The first normalization: mean, variance (the two outlined functions' operations, in place), scale, shift, and the input added back. -/
abbrev opsNorm1 : List (HloOp τ sig (Elt F)) :=
  [ StableHlo.binary main_v46 main_v47 main_v48 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call0.cst (constant S_ .f32 0x00000000#32),
    StableHlo.TRef.binary (StableHlo.TRef.of main_v45 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (StableHlo.TRef.of main_v45 : StableHlo.TRef sig ⟨S100000x128, .f32⟩) main_call0.v4 main_call0.v5 subf,
    StableHlo.TRef.binary main_call0.v5 main_call0.v5 main_call0.v6 mulf,
    StableHlo.TRef.unary (StableHlo.TRef.of main_c_10 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v48 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v51 main_v52 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v53 (broadcastInDim S128 ![] bcast_S_S128 : (⟨S_, .f32⟩ : BufTy).Contents (Elt F) → (⟨S128, .f32⟩ : BufTy).Contents (Elt F)),
    StableHlo.binary main_v49 main_v53 main_v54 (addf : (⟨S128, .f32⟩ : BufTy).Contents (Elt F) → (⟨S128, .f32⟩ : BufTy).Contents (Elt F) → (⟨S128, .f32⟩ : BufTy).Contents (Elt F)),
    StableHlo.unary main_v54 main_v55 (Host.rsqrt : (⟨S128, .f32⟩ : BufTy).Contents (Elt F) → (⟨S128, .f32⟩ : BufTy).Contents (Elt F)),
    StableHlo.unary main_v55 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v57 main_v58 (mulf : (⟨S100000x128, .f32⟩ : BufTy).Contents (Elt F) → (⟨S100000x128, .f32⟩ : BufTy).Contents (Elt F) → (⟨S100000x128, .f32⟩ : BufTy).Contents (Elt F)),
    StableHlo.unary main_arg4 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v60 main_v61 (mulf : (⟨S100000x128, .f32⟩ : BufTy).Contents (Elt F) → (⟨S100000x128, .f32⟩ : BufTy).Contents (Elt F) → (⟨S100000x128, .f32⟩ : BufTy).Contents (Elt F)),
    StableHlo.unary main_arg5 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (addf : (⟨S100000x128, .f32⟩ : BufTy).Contents (Elt F) → (⟨S100000x128, .f32⟩ : BufTy).Contents (Elt F) → (⟨S100000x128, .f32⟩ : BufTy).Contents (Elt F)),
    StableHlo.binary main_v64 main_arg0 main_v65 (addf : (⟨S100000x128, .f32⟩ : BufTy).Contents (Elt F) → (⟨S100000x128, .f32⟩ : BufTy).Contents (Elt F) → (⟨S100000x128, .f32⟩ : BufTy).Contents (Elt F)) ]

/-- The references `opsNorm1` writes. -/
abbrev opsNorm1_W : List (Ref sig .tc) :=
  [main_v48, main_c_10, main_call0_cst, main_call0_v0, main_call0_v1, main_call0_cst_0, main_call0_v2, main_call0_v3,
   main_call0_v4, main_call0_v5, main_call0_v6, main_call0_v7, main_call0_cst_1, main_call0_v8, main_call0_cst_2, main_call0_v9,
   main_call0_v10, main_call0_v11, main_call0_cst_3, main_call0_v12, main_call0_cst_4, main_call0_call0_v0, main_call0_call0_v1, main_v49,
   main_v50, main_v51, main_v52, main_cst_11, main_v53, main_v54, main_v55, main_v56,
   main_v57, main_v58, main_v59, main_v60, main_v61, main_v62, main_v63, main_v64,
   main_v65]

set_option maxRecDepth 8192 in
theorem opsNorm1_sub : (opsNorm1 : List (HloOp τ sig (Elt F))).Forall fun op => op.bufs ⊆ tcRefs τ sig :=
  ⟨binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., binary_bufs_sub ..⟩

set_option maxRecDepth 8192 in
theorem opsNorm1_writes : (opsNorm1 : List (HloOp τ sig (Elt F))).Forall fun op =>
    op.writes ⊆ (opsNorm1_W.map (Proc.devRef (τ := τ) .tc)).toFinset := by
  simp only [List.Forall]
  exact ⟨by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list⟩

/-- The rectifier, the second layer's product, and its edge weights up to the source index of the feature gather. -/
abbrev opsConv2a : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v65 : StableHlo.TRef sig ⟨S100000x128, .f32⟩) main_call1.v0 main_call1.v1 maximumf,
    StableHlo.binary main_v66 main_arg6 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v68 (iotaInDim S100000 32 0),
    StableHlo.binary main_v1 main_v68 main_v69 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v68 main_v70 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_12 (constant S_ .f32 0x3F800000#32),
    StableHlo.unary main_cst_12 main_v71 (broadcastInDim S1700000 ![] bcast_S_S1700000 : (⟨S_, .f32⟩ : BufTy).Contents (Elt F) → (⟨S1700000, .f32⟩ : BufTy).Contents (Elt F)),
    StableHlo.nullary main_cst_13 (constant S_ .f32 0x00000000#32),
    StableHlo.unary main_cst_13 main_v72 (broadcastInDim S100000 ![] bcast_S_S100000 : (⟨S_, .f32⟩ : BufTy).Contents (Elt F) → (⟨S100000, .f32⟩ : BufTy).Contents (Elt F)),
    StableHlo.unary main_v70 main_v73 (broadcastInDim S1700000x1 ![0] bcast_S1700000_S1700000x1_0 : (⟨S1700000, .i32⟩ : BufTy).Contents (Elt F) → (⟨S1700000x1, .i32⟩ : BufTy).Contents (Elt F)),
    StableHlo.ternary main_v72 main_v73 main_v71 main_v74 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_14 (constant S_ .f32 0x3F800000#32),
    StableHlo.unary main_cst_14 main_v75 (broadcastInDim S100000 ![] bcast_S_S100000 : (⟨S_, .f32⟩ : BufTy).Contents (Elt F) → (⟨S100000, .f32⟩ : BufTy).Contents (Elt F)),
    StableHlo.binary main_v74 main_v75 main_v76 (maximumf : (⟨S100000, .f32⟩ : BufTy).Contents (Elt F) → (⟨S100000, .f32⟩ : BufTy).Contents (Elt F) → (⟨S100000, .f32⟩ : BufTy).Contents (Elt F)),
    StableHlo.unary main_v76 main_v77 (Host.rsqrt : (⟨S100000, .f32⟩ : BufTy).Contents (Elt F) → (⟨S100000, .f32⟩ : BufTy).Contents (Elt F)),
    StableHlo.nullary main_c_15 (constantI S_ 32 0#32),
    StableHlo.unary main_c_15 main_v78 (broadcastInDim S1700000 ![] bcast_S_S1700000 : (⟨S_, .i32⟩ : BufTy).Contents (Elt F) → (⟨S1700000, .i32⟩ : BufTy).Contents (Elt F)),
    StableHlo.binary main_v69 main_v78 main_v79 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v80 (broadcastInDim S1700000 ![] bcast_S_S1700000 : (⟨S_, .i32⟩ : BufTy).Contents (Elt F) → (⟨S1700000, .i32⟩ : BufTy).Contents (Elt F)),
    StableHlo.binary main_v69 main_v80 main_v81 (addi : (⟨S1700000, .i32⟩ : BufTy).Contents (Elt F) → (⟨S1700000, .i32⟩ : BufTy).Contents (Elt F) → (⟨S1700000, .i32⟩ : BufTy).Contents (Elt F)),
    StableHlo.ternary main_v79 main_v81 main_v69 main_v82 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v82 main_v83 (broadcastInDim S1700000x1 ![0] bcast_S1700000_S1700000x1_0 : (⟨S1700000, .i32⟩ : BufTy).Contents (Elt F) → (⟨S1700000x1, .i32⟩ : BufTy).Contents (Elt F)),
    StableHlo.binary main_v77 main_v83 main_v84 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_17 (constantI S_ 32 0#32),
    StableHlo.unary main_c_17 main_v85 (broadcastInDim S1700000 ![] bcast_S_S1700000 : (⟨S_, .i32⟩ : BufTy).Contents (Elt F) → (⟨S1700000, .i32⟩ : BufTy).Contents (Elt F)),
    StableHlo.binary main_v70 main_v85 main_v86 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v87 (broadcastInDim S1700000 ![] bcast_S_S1700000 : (⟨S_, .i32⟩ : BufTy).Contents (Elt F) → (⟨S1700000, .i32⟩ : BufTy).Contents (Elt F)),
    StableHlo.binary main_v70 main_v87 main_v88 (addi : (⟨S1700000, .i32⟩ : BufTy).Contents (Elt F) → (⟨S1700000, .i32⟩ : BufTy).Contents (Elt F) → (⟨S1700000, .i32⟩ : BufTy).Contents (Elt F)),
    StableHlo.ternary main_v86 main_v88 main_v70 main_v89 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v89 main_v90 (broadcastInDim S1700000x1 ![0] bcast_S1700000_S1700000x1_0 : (⟨S1700000, .i32⟩ : BufTy).Contents (Elt F) → (⟨S1700000x1, .i32⟩ : BufTy).Contents (Elt F)),
    StableHlo.binary main_v77 main_v90 main_v91 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v84 main_v91 main_v92 (mulf : (⟨S1700000, .f32⟩ : BufTy).Contents (Elt F) → (⟨S1700000, .f32⟩ : BufTy).Contents (Elt F) → (⟨S1700000, .f32⟩ : BufTy).Contents (Elt F)),
    StableHlo.nullary main_c_19 (constantI S_ 32 0#32),
    StableHlo.unary main_c_19 main_v93 (broadcastInDim S1700000 ![] bcast_S_S1700000 : (⟨S_, .i32⟩ : BufTy).Contents (Elt F) → (⟨S1700000, .i32⟩ : BufTy).Contents (Elt F)),
    StableHlo.binary main_v69 main_v93 main_v94 (cmpi .slt : (⟨S1700000, .i32⟩ : BufTy).Contents (Elt F) → (⟨S1700000, .i32⟩ : BufTy).Contents (Elt F) → (⟨S1700000, .i1⟩ : BufTy).Contents (Elt F)),
    StableHlo.nullary main_c_20 (constantI S_ 32 100000#32),
    StableHlo.unary main_c_20 main_v95 (broadcastInDim S1700000 ![] bcast_S_S1700000 : (⟨S_, .i32⟩ : BufTy).Contents (Elt F) → (⟨S1700000, .i32⟩ : BufTy).Contents (Elt F)),
    StableHlo.binary main_v69 main_v95 main_v96 (addi : (⟨S1700000, .i32⟩ : BufTy).Contents (Elt F) → (⟨S1700000, .i32⟩ : BufTy).Contents (Elt F) → (⟨S1700000, .i32⟩ : BufTy).Contents (Elt F)) ]

/-- The references `opsConv2a` writes. -/
abbrev opsConv2a_W : List (Ref sig .tc) :=
  [main_call1_cst, main_call1_v0, main_v66, main_v67, main_v68, main_v69, main_v70, main_cst_12,
   main_v71, main_cst_13, main_v72, main_v73, main_v74, main_cst_14, main_v75, main_v76,
   main_v77, main_c_15, main_v78, main_v79, main_c_16, main_v80, main_v81, main_v82,
   main_v83, main_v84, main_c_17, main_v85, main_v86, main_c_18, main_v87, main_v88,
   main_v89, main_v90, main_v91, main_v92, main_c_19, main_v93, main_v94, main_c_20,
   main_v95, main_v96]

set_option maxRecDepth 8192 in
theorem opsConv2a_sub : (opsConv2a : List (HloOp τ sig (Elt F))).Forall fun op => op.bufs ⊆ tcRefs τ sig :=
  ⟨nullary_bufs_sub .., unary_bufs_sub .., binary_bufs_sub .., binary_bufs_sub .., nullary_bufs_sub .., binary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..⟩

set_option maxRecDepth 8192 in
theorem opsConv2a_writes : (opsConv2a : List (HloOp τ sig (Elt F))).Forall fun op =>
    op.writes ⊆ (opsConv2a_W.map (Proc.devRef (τ := τ) .tc)).toFinset := by
  simp only [List.Forall]
  exact ⟨by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list⟩

/-- The rest of the second aggregation and its bias. -/
abbrev opsConv2b : List (HloOp τ sig (Elt F)) :=
  [ StableHlo.ternary main_v94 main_v96 main_v69 main_v97 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v97 main_v98 (broadcastInDim S1700000x1 ![0] bcast_S1700000_S1700000x1_0 : (⟨S1700000, .i32⟩ : BufTy).Contents (Elt F) → (⟨S1700000x1, .i32⟩ : BufTy).Contents (Elt F)),
    StableHlo.binary main_v67 main_v98 main_v99 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v92 main_v100 (broadcastInDim S1700000x1 ![0] bcast_S1700000_S1700000x1_0 : (⟨S1700000, .f32⟩ : BufTy).Contents (Elt F) → (⟨S1700000x1, .f32⟩ : BufTy).Contents (Elt F)),
    StableHlo.unary main_v100 main_v101 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v99 main_v101 main_v102 (mulf : (⟨S1700000x128, .f32⟩ : BufTy).Contents (Elt F) → (⟨S1700000x128, .f32⟩ : BufTy).Contents (Elt F) → (⟨S1700000x128, .f32⟩ : BufTy).Contents (Elt F)),
    StableHlo.nullary main_cst_21 (constant S_ .f32 0x00000000#32),
    StableHlo.unary main_cst_21 main_v103 (broadcastInDim S100000x128 ![] bcast_S_S100000x128 : (⟨S_, .f32⟩ : BufTy).Contents (Elt F) → (⟨S100000x128, .f32⟩ : BufTy).Contents (Elt F)),
    StableHlo.unary main_v70 main_v104 (broadcastInDim S1700000x1 ![0] bcast_S1700000_S1700000x1_0 : (⟨S1700000, .i32⟩ : BufTy).Contents (Elt F) → (⟨S1700000x1, .i32⟩ : BufTy).Contents (Elt F)),
    StableHlo.ternary main_v103 main_v104 main_v102 main_v105 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg7 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v107 main_v108 (addf : (⟨S100000x128, .f32⟩ : BufTy).Contents (Elt F) → (⟨S100000x128, .f32⟩ : BufTy).Contents (Elt F) → (⟨S100000x128, .f32⟩ : BufTy).Contents (Elt F)) ]

/-- The references `opsConv2b` writes. -/
abbrev opsConv2b_W : List (Ref sig .tc) :=
  [main_v97, main_v98, main_v99, main_v100, main_v101, main_v102, main_cst_21, main_v103,
   main_v104, main_v105, main_v106, main_v107, main_v108]

set_option maxRecDepth 8192 in
theorem opsConv2b_sub : (opsConv2b : List (HloOp τ sig (Elt F))).Forall fun op => op.bufs ⊆ tcRefs τ sig :=
  ⟨ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub ..⟩

set_option maxRecDepth 8192 in
theorem opsConv2b_writes : (opsConv2b : List (HloOp τ sig (Elt F))).Forall fun op =>
    op.writes ⊆ (opsConv2b_W.map (Proc.devRef (τ := τ) .tc)).toFinset := by
  simp only [List.Forall]
  exact ⟨by writes_in_list, by writes_in_list, by writes_in_list, by writes_in_list, by writes_in_list, by writes_in_list,
    by writes_in_list, by writes_in_list, by writes_in_list, by writes_in_list, by writes_in_list, by writes_in_list,
    by writes_in_list⟩

/-- The second normalization and the first hidden state added back. -/
abbrev opsNorm2 : List (HloOp τ sig (Elt F)) :=
  [ StableHlo.nullary main_cst_22 (constant S_ .f32 0x00000000#32),
    StableHlo.binary main_v108 main_cst_22 main_v109 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v110 (broadcastInDim S128 ![] bcast_S_S128 : (⟨S_, .f32⟩ : BufTy).Contents (Elt F) → (⟨S128, .f32⟩ : BufTy).Contents (Elt F)),
    StableHlo.binary main_v109 main_v110 main_v111 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call2.cst (constant S_ .f32 0x00000000#32),
    StableHlo.TRef.binary (StableHlo.TRef.of main_v108 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v108 : StableHlo.TRef sig ⟨S100000x128, .f32⟩) main_call2.v4 main_call2.v5 subf,
    StableHlo.TRef.binary main_call2.v5 main_call2.v5 main_call2.v6 mulf,
    StableHlo.TRef.unary (StableHlo.TRef.of main_c_24 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v111 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v108 main_v114 main_v115 (subf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v116 (broadcastInDim S128 ![] bcast_S_S128 : (⟨S_, .f32⟩ : BufTy).Contents (Elt F) → (⟨S128, .f32⟩ : BufTy).Contents (Elt F)),
    StableHlo.binary main_v112 main_v116 main_v117 (addf : (⟨S128, .f32⟩ : BufTy).Contents (Elt F) → (⟨S128, .f32⟩ : BufTy).Contents (Elt F) → (⟨S128, .f32⟩ : BufTy).Contents (Elt F)),
    StableHlo.unary main_v117 main_v118 (Host.rsqrt : (⟨S128, .f32⟩ : BufTy).Contents (Elt F) → (⟨S128, .f32⟩ : BufTy).Contents (Elt F)),
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v120 main_v121 (mulf : (⟨S100000x128, .f32⟩ : BufTy).Contents (Elt F) → (⟨S100000x128, .f32⟩ : BufTy).Contents (Elt F) → (⟨S100000x128, .f32⟩ : BufTy).Contents (Elt F)),
    StableHlo.unary main_arg8 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v123 main_v124 (mulf : (⟨S100000x128, .f32⟩ : BufTy).Contents (Elt F) → (⟨S100000x128, .f32⟩ : BufTy).Contents (Elt F) → (⟨S100000x128, .f32⟩ : BufTy).Contents (Elt F)),
    StableHlo.unary main_arg9 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v126 main_v127 (addf : (⟨S100000x128, .f32⟩ : BufTy).Contents (Elt F) → (⟨S100000x128, .f32⟩ : BufTy).Contents (Elt F) → (⟨S100000x128, .f32⟩ : BufTy).Contents (Elt F)),
    StableHlo.binary main_v127 main_v65 main_v128 (addf : (⟨S100000x128, .f32⟩ : BufTy).Contents (Elt F) → (⟨S100000x128, .f32⟩ : BufTy).Contents (Elt F) → (⟨S100000x128, .f32⟩ : BufTy).Contents (Elt F)) ]

/-- The references `opsNorm2` writes. -/
abbrev opsNorm2_W : List (Ref sig .tc) :=
  [main_cst_22, main_v109, main_cst_23, main_v110, main_v111, main_c_24, main_call2_cst, main_call2_v0,
   main_call2_v1, main_call2_cst_0, main_call2_v2, main_call2_v3, main_call2_v4, main_call2_v5, main_call2_v6, main_call2_v7,
   main_call2_cst_1, main_call2_v8, main_call2_cst_2, main_call2_v9, main_call2_v10, main_call2_v11, main_call2_cst_3, main_call2_v12,
   main_call2_cst_4, main_call2_call0_v0, main_call2_call0_v1, main_v112, main_v113, main_v114, main_v115, main_cst_25,
   main_v116, main_v117, main_v118, main_v119, main_v120, main_v121, main_v122, main_v123,
   main_v124, main_v125, main_v126, main_v127, main_v128]

set_option maxRecDepth 8192 in
theorem opsNorm2_sub : (opsNorm2 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub ..⟩

set_option maxRecDepth 8192 in
theorem opsNorm2_writes : (opsNorm2 : List (HloOp τ sig (Elt F))).Forall fun op =>
    op.writes ⊆ (opsNorm2_W.map (Proc.devRef (τ := τ) .tc)).toFinset := by
  simp only [List.Forall]
  exact ⟨by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list⟩

/-- The rectifier, the third layer's product, and the start of its edge weights. -/
abbrev opsConv3a : List (HloOp τ sig (Elt F)) :=
  [ StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v128 : StableHlo.TRef sig ⟨S100000x128, .f32⟩) main_call3.v0 main_call3.v1 maximumf,
    StableHlo.binary main_v129 main_arg10 main_v130 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_v131 (iotaInDim S100000 32 0),
    StableHlo.binary main_v1 main_v131 main_v132 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v131 main_v133 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_26 (constant S_ .f32 0x3F800000#32),
    StableHlo.unary main_cst_26 main_v134 (broadcastInDim S1700000 ![] bcast_S_S1700000 : (⟨S_, .f32⟩ : BufTy).Contents (Elt F) → (⟨S1700000, .f32⟩ : BufTy).Contents (Elt F)),
    StableHlo.nullary main_cst_27 (constant S_ .f32 0x00000000#32),
    StableHlo.unary main_cst_27 main_v135 (broadcastInDim S100000 ![] bcast_S_S100000 : (⟨S_, .f32⟩ : BufTy).Contents (Elt F) → (⟨S100000, .f32⟩ : BufTy).Contents (Elt F)),
    StableHlo.unary main_v133 main_v136 (broadcastInDim S1700000x1 ![0] bcast_S1700000_S1700000x1_0 : (⟨S1700000, .i32⟩ : BufTy).Contents (Elt F) → (⟨S1700000x1, .i32⟩ : BufTy).Contents (Elt F)),
    StableHlo.ternary main_v135 main_v136 main_v134 main_v137 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_28 (constant S_ .f32 0x3F800000#32),
    StableHlo.unary main_cst_28 main_v138 (broadcastInDim S100000 ![] bcast_S_S100000 : (⟨S_, .f32⟩ : BufTy).Contents (Elt F) → (⟨S100000, .f32⟩ : BufTy).Contents (Elt F)),
    StableHlo.binary main_v137 main_v138 main_v139 (maximumf : (⟨S100000, .f32⟩ : BufTy).Contents (Elt F) → (⟨S100000, .f32⟩ : BufTy).Contents (Elt F) → (⟨S100000, .f32⟩ : BufTy).Contents (Elt F)),
    StableHlo.unary main_v139 main_v140 (Host.rsqrt : (⟨S100000, .f32⟩ : BufTy).Contents (Elt F) → (⟨S100000, .f32⟩ : BufTy).Contents (Elt F)),
    StableHlo.nullary main_c_29 (constantI S_ 32 0#32),
    StableHlo.unary main_c_29 main_v141 (broadcastInDim S1700000 ![] bcast_S_S1700000 : (⟨S_, .i32⟩ : BufTy).Contents (Elt F) → (⟨S1700000, .i32⟩ : BufTy).Contents (Elt F)),
    StableHlo.binary main_v132 main_v141 main_v142 (cmpi .slt : (⟨S1700000, .i32⟩ : BufTy).Contents (Elt F) → (⟨S1700000, .i32⟩ : BufTy).Contents (Elt F) → (⟨S1700000, .i1⟩ : BufTy).Contents (Elt F)),
    StableHlo.nullary main_c_30 (constantI S_ 32 100000#32),
    StableHlo.unary main_c_30 main_v143 (broadcastInDim S1700000 ![] bcast_S_S1700000 : (⟨S_, .i32⟩ : BufTy).Contents (Elt F) → (⟨S1700000, .i32⟩ : BufTy).Contents (Elt F)),
    StableHlo.binary main_v132 main_v143 main_v144 (addi : (⟨S1700000, .i32⟩ : BufTy).Contents (Elt F) → (⟨S1700000, .i32⟩ : BufTy).Contents (Elt F) → (⟨S1700000, .i32⟩ : BufTy).Contents (Elt F)),
    StableHlo.ternary main_v142 main_v144 main_v132 main_v145 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v145 main_v146 (broadcastInDim S1700000x1 ![0] bcast_S1700000_S1700000x1_0 : (⟨S1700000, .i32⟩ : BufTy).Contents (Elt F) → (⟨S1700000x1, .i32⟩ : BufTy).Contents (Elt F)) ]

/-- The references `opsConv3a` writes. -/
abbrev opsConv3a_W : List (Ref sig .tc) :=
  [main_call3_cst, main_call3_v0, main_v129, main_v130, main_v131, main_v132, main_v133, main_cst_26,
   main_v134, main_cst_27, main_v135, main_v136, main_v137, main_cst_28, main_v138, main_v139,
   main_v140, main_c_29, main_v141, main_v142, main_c_30, main_v143, main_v144, main_v145,
   main_v146]

set_option maxRecDepth 8192 in
theorem opsConv3a_sub : (opsConv3a : List (HloOp τ sig (Elt F))).Forall fun op => op.bufs ⊆ tcRefs τ sig :=
  ⟨nullary_bufs_sub .., unary_bufs_sub .., binary_bufs_sub .., binary_bufs_sub .., nullary_bufs_sub .., binary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub ..⟩

set_option maxRecDepth 8192 in
theorem opsConv3a_writes : (opsConv3a : List (HloOp τ sig (Elt F))).Forall fun op =>
    op.writes ⊆ (opsConv3a_W.map (Proc.devRef (τ := τ) .tc)).toFinset := by
  simp only [List.Forall]
  exact ⟨by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list⟩

/-- The rest of the third layer's edge weights, its aggregation and its bias. -/
abbrev opsConv3b : List (HloOp τ sig (Elt F)) :=
  [ StableHlo.binary main_v140 main_v146 main_v147 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_31 (constantI S_ 32 0#32),
    StableHlo.unary main_c_31 main_v148 (broadcastInDim S1700000 ![] bcast_S_S1700000 : (⟨S_, .i32⟩ : BufTy).Contents (Elt F) → (⟨S1700000, .i32⟩ : BufTy).Contents (Elt F)),
    StableHlo.binary main_v133 main_v148 main_v149 (cmpi .slt : (⟨S1700000, .i32⟩ : BufTy).Contents (Elt F) → (⟨S1700000, .i32⟩ : BufTy).Contents (Elt F) → (⟨S1700000, .i1⟩ : BufTy).Contents (Elt F)),
    StableHlo.nullary main_c_32 (constantI S_ 32 100000#32),
    StableHlo.unary main_c_32 main_v150 (broadcastInDim S1700000 ![] bcast_S_S1700000 : (⟨S_, .i32⟩ : BufTy).Contents (Elt F) → (⟨S1700000, .i32⟩ : BufTy).Contents (Elt F)),
    StableHlo.binary main_v133 main_v150 main_v151 (addi : (⟨S1700000, .i32⟩ : BufTy).Contents (Elt F) → (⟨S1700000, .i32⟩ : BufTy).Contents (Elt F) → (⟨S1700000, .i32⟩ : BufTy).Contents (Elt F)),
    StableHlo.ternary main_v149 main_v151 main_v133 main_v152 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v152 main_v153 (broadcastInDim S1700000x1 ![0] bcast_S1700000_S1700000x1_0 : (⟨S1700000, .i32⟩ : BufTy).Contents (Elt F) → (⟨S1700000x1, .i32⟩ : BufTy).Contents (Elt F)),
    StableHlo.binary main_v140 main_v153 main_v154 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v147 main_v154 main_v155 (mulf : (⟨S1700000, .f32⟩ : BufTy).Contents (Elt F) → (⟨S1700000, .f32⟩ : BufTy).Contents (Elt F) → (⟨S1700000, .f32⟩ : BufTy).Contents (Elt F)),
    StableHlo.nullary main_c_33 (constantI S_ 32 0#32),
    StableHlo.unary main_c_33 main_v156 (broadcastInDim S1700000 ![] bcast_S_S1700000 : (⟨S_, .i32⟩ : BufTy).Contents (Elt F) → (⟨S1700000, .i32⟩ : BufTy).Contents (Elt F)),
    StableHlo.binary main_v132 main_v156 main_v157 (cmpi .slt : (⟨S1700000, .i32⟩ : BufTy).Contents (Elt F) → (⟨S1700000, .i32⟩ : BufTy).Contents (Elt F) → (⟨S1700000, .i1⟩ : BufTy).Contents (Elt F)),
    StableHlo.nullary main_c_34 (constantI S_ 32 100000#32),
    StableHlo.unary main_c_34 main_v158 (broadcastInDim S1700000 ![] bcast_S_S1700000 : (⟨S_, .i32⟩ : BufTy).Contents (Elt F) → (⟨S1700000, .i32⟩ : BufTy).Contents (Elt F)),
    StableHlo.binary main_v132 main_v158 main_v159 (addi : (⟨S1700000, .i32⟩ : BufTy).Contents (Elt F) → (⟨S1700000, .i32⟩ : BufTy).Contents (Elt F) → (⟨S1700000, .i32⟩ : BufTy).Contents (Elt F)),
    StableHlo.ternary main_v157 main_v159 main_v132 main_v160 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v160 main_v161 (broadcastInDim S1700000x1 ![0] bcast_S1700000_S1700000x1_0 : (⟨S1700000, .i32⟩ : BufTy).Contents (Elt F) → (⟨S1700000x1, .i32⟩ : BufTy).Contents (Elt F)),
    StableHlo.binary main_v130 main_v161 main_v162 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v155 main_v163 (broadcastInDim S1700000x1 ![0] bcast_S1700000_S1700000x1_0 : (⟨S1700000, .f32⟩ : BufTy).Contents (Elt F) → (⟨S1700000x1, .f32⟩ : BufTy).Contents (Elt F)),
    StableHlo.unary main_v163 main_v164 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v162 main_v164 main_v165 (mulf : (⟨S1700000x64, .f32⟩ : BufTy).Contents (Elt F) → (⟨S1700000x64, .f32⟩ : BufTy).Contents (Elt F) → (⟨S1700000x64, .f32⟩ : BufTy).Contents (Elt F)),
    StableHlo.nullary main_cst_35 (constant S_ .f32 0x00000000#32),
    StableHlo.unary main_cst_35 main_v166 (broadcastInDim S100000x64 ![] bcast_S_S100000x64 : (⟨S_, .f32⟩ : BufTy).Contents (Elt F) → (⟨S100000x64, .f32⟩ : BufTy).Contents (Elt F)),
    StableHlo.unary main_v133 main_v167 (broadcastInDim S1700000x1 ![0] bcast_S1700000_S1700000x1_0 : (⟨S1700000, .i32⟩ : BufTy).Contents (Elt F) → (⟨S1700000x1, .i32⟩ : BufTy).Contents (Elt F)),
    StableHlo.ternary main_v166 main_v167 main_v165 main_v168 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg11 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S100000x64 ![0, 1] bcast_S1x64_S100000x64_0_1 : (⟨S1x64, .f32⟩ : BufTy).Contents (Elt F) → (⟨S100000x64, .f32⟩ : BufTy).Contents (Elt F)),
    StableHlo.binary main_v168 main_v170 main_v171 (addf : (⟨S100000x64, .f32⟩ : BufTy).Contents (Elt F) → (⟨S100000x64, .f32⟩ : BufTy).Contents (Elt F) → (⟨S100000x64, .f32⟩ : BufTy).Contents (Elt F)) ]

/-- The references `opsConv3b` writes. -/
abbrev opsConv3b_W : List (Ref sig .tc) :=
  [main_v147, main_c_31, main_v148, main_v149, main_c_32, main_v150, main_v151, main_v152,
   main_v153, main_v154, main_v155, main_c_33, main_v156, main_v157, main_c_34, main_v158,
   main_v159, main_v160, main_v161, main_v162, main_v163, main_v164, main_v165, main_cst_35,
   main_v166, main_v167, main_v168, main_v169, main_v170, main_v171]

set_option maxRecDepth 8192 in
theorem opsConv3b_sub : (opsConv3b : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..⟩

set_option maxRecDepth 8192 in
theorem opsConv3b_writes : (opsConv3b : List (HloOp τ sig (Elt F))).Forall fun op =>
    op.writes ⊆ (opsConv3b_W.map (Proc.devRef (τ := τ) .tc)).toFinset := by
  simp only [List.Forall]
  exact ⟨by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list,
    by writes_in_list, by writes_in_list, by writes_in_list, by writes_in_list, by writes_in_list, by writes_in_list⟩

end Cert.ReferenceIdeal.RefRun

end
-- ==== Proof.RefMainEq.lean ====
/-
  The reference program's @main is the straight line of its operations: each printed window of @main is the
  line of its pieces (the called functions' bodies unfolded where they are called, the sequencing re-associated),
  and @main runs the four windows in order.
-/
import proofs.«156291_j67765993996292_1_alg».proof.Proof.RefOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-- The operations of @main's first window. -/
abbrev ops_part0 : List (HloOp τ sig (Elt F)) := opsEdges ++ (opsConv1 ++ opsSum1)
/-- The operations of @main's second window. -/
abbrev ops_part1 : List (HloOp τ sig (Elt F)) := opsNorm1 ++ opsConv2a
/-- The operations of @main's third window. -/
abbrev ops_part2 : List (HloOp τ sig (Elt F)) := opsConv2b ++ (opsNorm2 ++ opsConv3a)
/-- The operations of @main's fourth window. -/
abbrev ops_part3 : List (HloOp τ sig (Elt F)) := opsConv3b

/-- @main's 256 operations, in order. -/
abbrev ops : List (HloOp τ sig (Elt F)) := ops_part0 ++ (ops_part1 ++ (ops_part2 ++ ops_part3))

set_option maxRecDepth 16384 in
set_option maxHeartbeats 4000000 in
theorem main_part0_eq (c : Dev nD) : main_part0 (F := F) c = seq ops_part0 := rfl

set_option maxRecDepth 16384 in
set_option maxHeartbeats 4000000 in
/-- The second window calls the variance and the rectifier: their bodies unfolded, both sides are one chain of
    steps once the sequencing is re-associated. -/
theorem main_part1_eq (c : Dev nD) : main_part1 (F := F) c = seq ops_part1 := by
  simp only [main_part1, fn_var.body, fn_where.body, fn_relu.body, ops_part1, opsNorm1, opsConv2a, List.cons_append,
    List.nil_append, seq, bind_assoc, pure_bind]
  rfl

set_option maxRecDepth 16384 in
set_option maxHeartbeats 4000000 in
theorem main_part2_eq (c : Dev nD) : main_part2 (F := F) c = seq ops_part2 := by
  simp only [main_part2, fn_var.body, fn_where.body, fn_relu.body, ops_part2, opsConv2b, opsNorm2, opsConv3a,
    List.cons_append, List.nil_append, seq, bind_assoc, pure_bind]
  rfl

set_option maxRecDepth 16384 in
set_option maxHeartbeats 4000000 in
theorem main_part3_eq (c : Dev nD) : main_part3 (F := F) c = seq ops_part3 := rfl

set_option maxRecDepth 16384 in
theorem main_eq (c : Dev nD) : main (F := F) c = seq ops := by
  simp only [ops, seq_append, ← main_part0_eq c, ← main_part1_eq c, ← main_part2_eq c, ← main_part3_eq c]
  rfl

theorem ops_sub : (ops : List (HloOp τ sig (Elt F))).Forall fun op => op.bufs ⊆ tcRefs τ sig :=
  List.forall_iff_forall_mem.mpr fun op h => by
    simp only [ops, ops_part0, ops_part1, ops_part2, ops_part3, List.mem_append] at h
    rcases h with (h | h | h) | (h | h) | (h | h | h) | h
    exacts [List.forall_iff_forall_mem.mp opsEdges_sub op h, List.forall_iff_forall_mem.mp opsConv1_sub op h,
      List.forall_iff_forall_mem.mp opsSum1_sub op h, List.forall_iff_forall_mem.mp opsNorm1_sub op h,
      List.forall_iff_forall_mem.mp opsConv2a_sub op h, List.forall_iff_forall_mem.mp opsConv2b_sub op h,
      List.forall_iff_forall_mem.mp opsNorm2_sub op h, List.forall_iff_forall_mem.mp opsConv3a_sub op h,
      List.forall_iff_forall_mem.mp opsConv3b_sub op h]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefConv1.lean ====
/-
  What the first two pieces of the reference's @main leave, from any contents `V` of the device's buffers: the two
  rows of the edge list, and the first layer's output — the aggregation of `x W₁` over the edges and loops, plus
  the bias — each as the specification's stage applied to what `V` holds.
-/
import proofs.«156291_j67765993996292_1_alg».proof.Proof.RefOps
import proofs.«156291_j67765993996292_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-- The sources: row 0 of the edge list, flattened. -/
theorem edges_v1 (V : Valuation τ sig (Elt F)) :
    after opsEdges V (no_index (Proc.devRef .tc main_v1)) = Cert.Spec.srcRow (V (Proc.devRef .tc main_arg1)) := by
  simp only [opsEdges]
  after_results_simp
  rfl

/-- The destinations: row 1 of the edge list, flattened. -/
theorem edges_v3 (V : Valuation τ sig (Elt F)) :
    after opsEdges V (no_index (Proc.devRef .tc main_v3)) = Cert.Spec.dstRow (V (Proc.devRef .tc main_arg1)) := by
  simp only [opsEdges]
  after_results_simp
  rfl

attribute [local irreducible] Host.gather Host.scatterAdd Host.reduceAdd Host.rsqrt Host.divf in
set_option maxRecDepth 16384 in
set_option maxHeartbeats 2000000 in
/-- The first layer: `x W₁` aggregated over the edges and loops read from the two rows, plus the bias. -/
theorem conv1_v45 (V : Valuation τ sig (Elt F)) :
    after opsConv1 V (no_index (Proc.devRef .tc main_v45))
      = addf (Cert.Spec.aggregate128 (Cert.Spec.dot128 (V (Proc.devRef .tc main_arg0)) (V (Proc.devRef .tc main_arg2)))
            (Cert.Spec.withLoops (V (Proc.devRef .tc main_v1))) (Cert.Spec.withLoops (V (Proc.devRef .tc main_v3))))
          (Cert.Spec.down128 (Cert.Spec.row128 (V (Proc.devRef .tc main_arg3)))) := by
  simp only [opsConv1]
  after_results_simp
  rfl

end Cert.ReferenceIdeal.RefRun

end
-- ==== Proof.RefNorm1.lean ====
/-
  What the first normalization's operations leave, from any contents `V` of the device's buffers: the first
  hidden state — the layer's output with each column's mean taken off, scaled by the reciprocal square root of
  the column's variance plus ε, by γ, shifted by β — plus the layer's input. The variance and the selection inside
  it are the called functions' operations, read in place.
-/
import proofs.«156291_j67765993996292_1_alg».proof.Proof.RefOps
import proofs.«156291_j67765993996292_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Facts]

attribute [local irreducible] Host.gather Host.scatterAdd Host.reduceAdd Host.rsqrt Host.divf in
set_option maxRecDepth 16384 in
set_option maxHeartbeats 2000000 in
/-- The normalized first layer plus its input. -/
theorem norm1_v65 (V : Valuation τ sig (Elt F)) :
    after opsNorm1 (after opsSum1 V) (no_index (Proc.devRef .tc main_v65))
      = addf (Cert.Spec.bn128 (V (Proc.devRef .tc main_v45)) (V (Proc.devRef .tc main_arg4)) (V (Proc.devRef .tc main_arg5))) (V (Proc.devRef .tc main_arg0)) := by
  simp only [opsNorm1, opsSum1]
  after_results_simp
  rfl

end Cert.ReferenceIdeal.RefRun

end
-- ==== Proof.RefConv2.lean ====
/-
  What the second layer's operations leave, from any contents `V` of the device's buffers: the rectified first
  hidden state times `W₂`, aggregated over the edges and loops read from the two rows, plus the bias.
-/
import proofs.«156291_j67765993996292_1_alg».proof.Proof.RefOps
import proofs.«156291_j67765993996292_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Facts]

attribute [local irreducible] Host.gather Host.scatterAdd Host.reduceAdd Host.rsqrt Host.divf in
set_option maxRecDepth 16384 in
set_option maxHeartbeats 2000000 in
/-- The second layer's output. -/
theorem conv2_v108 (V : Valuation τ sig (Elt F)) :
    after opsConv2b (after opsConv2a V) (no_index (Proc.devRef .tc main_v108))
      = addf (Cert.Spec.aggregate128 (Cert.Spec.dot128 (Cert.Spec.relu (V (Proc.devRef .tc main_v65))) (V (Proc.devRef .tc main_arg6)))
            (Cert.Spec.withLoops (V (Proc.devRef .tc main_v1))) (Cert.Spec.withLoops (V (Proc.devRef .tc main_v3))))
          (Cert.Spec.down128 (Cert.Spec.row128 (V (Proc.devRef .tc main_arg7)))) := by
  simp only [opsConv2b, opsConv2a]
  after_results_simp
  rfl

end Cert.ReferenceIdeal.RefRun

end
-- ==== Proof.RefNorm2.lean ====
/-
  What the second normalization's operations leave, from any contents `V` of the device's buffers: the second
  layer's output normalized per column, plus the first hidden state.
-/
import proofs.«156291_j67765993996292_1_alg».proof.Proof.RefOps
import proofs.«156291_j67765993996292_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Facts]

attribute [local irreducible] Host.gather Host.scatterAdd Host.reduceAdd Host.rsqrt Host.divf in
set_option maxRecDepth 16384 in
set_option maxHeartbeats 2000000 in
/-- The normalized second layer plus the first hidden state. -/
theorem norm2_v128 (V : Valuation τ sig (Elt F)) :
    after opsNorm2 V (no_index (Proc.devRef .tc main_v128))
      = addf (Cert.Spec.bn128 (V (Proc.devRef .tc main_v108)) (V (Proc.devRef .tc main_arg8)) (V (Proc.devRef .tc main_arg9))) (V (Proc.devRef .tc main_v65)) := by
  simp only [opsNorm2]
  after_results_simp
  rfl

end Cert.ReferenceIdeal.RefRun

end
-- ==== Proof.RefConv3.lean ====
/-
  What the third layer's operations leave, from any contents `V` of the device's buffers: the rectified second
  hidden state times `W₃`, aggregated over the edges and loops read from the two rows, plus the bias.
-/
import proofs.«156291_j67765993996292_1_alg».proof.Proof.RefOps
import proofs.«156291_j67765993996292_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Facts]

attribute [local irreducible] Host.gather Host.scatterAdd Host.reduceAdd Host.rsqrt Host.divf in
set_option maxRecDepth 16384 in
set_option maxHeartbeats 2000000 in
/-- The third layer's output: the network's result. -/
theorem conv3_v171 (V : Valuation τ sig (Elt F)) :
    after opsConv3b (after opsConv3a V) (no_index (Proc.devRef .tc main_v171))
      = addf (Cert.Spec.aggregate64 (Cert.Spec.dot64 (Cert.Spec.relu (V (Proc.devRef .tc main_v128))) (V (Proc.devRef .tc main_arg10)))
            (Cert.Spec.withLoops (V (Proc.devRef .tc main_v1))) (Cert.Spec.withLoops (V (Proc.devRef .tc main_v3))))
          (broadcastInDim S100000x64 ![0, 1] bcast_S1x64_S100000x64_0_1
            (broadcastInDim S1x64 ![1] bcast_S64_S1x64_1 (V (Proc.devRef .tc main_arg11)))) := by
  simp only [opsConv3b, opsConv3a]
  after_results_simp
  rfl

end Cert.ReferenceIdeal.RefRun

end
-- ==== Proof.RefRun.lean ====
/-
  The reference program's run, read back: every weakly fair execution of its @main terminates with the result
  buffer holding the network of the specification applied to the twelve argument arrays as the launch found
  them, and the argument arrays unchanged.

  @main is a straight line of host operations, so its run is the fold of the operations' results over the launch
  contents. The fold is read stage by stage — the edge list's rows; a layer's aggregation; a normalization with its
  skip; and so on — each stage by its own lemma over arbitrary contents, joined here: a buffer a stage does not
  write keeps what the stages before left in it.
-/
import proofs.«156291_j67765993996292_1_alg».proof.Proof.RefMainEq
import proofs.«156291_j67765993996292_1_alg».proof.Proof.RefConv1
import proofs.«156291_j67765993996292_1_alg».proof.Proof.RefNorm1
import proofs.«156291_j67765993996292_1_alg».proof.Proof.RefConv2
import proofs.«156291_j67765993996292_1_alg».proof.Proof.RefNorm2
import proofs.«156291_j67765993996292_1_alg».proof.Proof.RefConv3
import proofs.«156291_j67765993996292_1_alg».proof.Proof.Gen.ReferenceIdeal
import proofs.«156291_j67765993996292_1_alg».proof.Proof.Spec
import Idealize.ShloMosaic.Lib.Pipeline.Frame

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-- The twelve argument buffers. -/
abbrev argRefs : List (Ref sig .tc) :=
  [main_arg0, main_arg1, main_arg2, main_arg3, main_arg4, main_arg5, main_arg6, main_arg7, main_arg8, main_arg9, main_arg10, main_arg11]

/-! No piece of @main writes an argument buffer. -/
theorem argRefs_not_opsEdges : ∀ r ∈ argRefs, r ∉ opsEdges_W := by decide
theorem argRefs_not_opsConv1 : ∀ r ∈ argRefs, r ∉ opsConv1_W := by decide
theorem argRefs_not_opsSum1 : ∀ r ∈ argRefs, r ∉ opsSum1_W := by decide
theorem argRefs_not_opsNorm1 : ∀ r ∈ argRefs, r ∉ opsNorm1_W := by decide
theorem argRefs_not_opsConv2a : ∀ r ∈ argRefs, r ∉ opsConv2a_W := by decide
theorem argRefs_not_opsConv2b : ∀ r ∈ argRefs, r ∉ opsConv2b_W := by decide
theorem argRefs_not_opsNorm2 : ∀ r ∈ argRefs, r ∉ opsNorm2_W := by decide
theorem argRefs_not_opsConv3a : ∀ r ∈ argRefs, r ∉ opsConv3a_W := by decide
theorem argRefs_not_opsConv3b : ∀ r ∈ argRefs, r ∉ opsConv3b_W := by decide

/-- The device's buffer contents once the edge list's two rows are read. -/
def afterEdges (V0 : Valuation τ sig (Elt F)) : Valuation τ sig (Elt F) :=
  after opsEdges V0

theorem afterEdges_keep (V0 : Valuation τ sig (Elt F)) (r : Ref sig .tc) (h0 : r ∉ opsEdges_W) :
    afterEdges V0 (Proc.devRef .tc r) = V0 (Proc.devRef .tc r) :=
  after_of_writes_sub opsEdges _ opsEdges_writes h0

theorem afterEdges_arg (V0 : Valuation τ sig (Elt F)) (r : Ref sig .tc) (hr : r ∈ argRefs) :
    afterEdges V0 (no_index (Proc.devRef .tc r)) = V0 (Proc.devRef .tc r) :=
  (afterEdges_keep V0 r (argRefs_not_opsEdges r hr))

theorem afterEdges_v1 (V0 : Valuation τ sig (Elt F)) :
    afterEdges V0 (no_index (Proc.devRef .tc main_v1)) = Cert.Spec.srcRow (V0 (Proc.devRef .tc main_arg1)) :=
  edges_v1 V0

theorem afterEdges_v3 (V0 : Valuation τ sig (Elt F)) :
    afterEdges V0 (no_index (Proc.devRef .tc main_v3)) = Cert.Spec.dstRow (V0 (Proc.devRef .tc main_arg1)) :=
  edges_v3 V0

/-- … once the first layer's output is formed. -/
def afterConv1 (V0 : Valuation τ sig (Elt F)) : Valuation τ sig (Elt F) :=
  after opsConv1 (afterEdges V0)

theorem afterConv1_keep (V0 : Valuation τ sig (Elt F)) (r : Ref sig .tc) (h0 : r ∉ opsConv1_W) :
    afterConv1 V0 (Proc.devRef .tc r) = (afterEdges V0) (Proc.devRef .tc r) :=
  after_of_writes_sub opsConv1 _ opsConv1_writes h0

theorem afterConv1_arg (V0 : Valuation τ sig (Elt F)) (r : Ref sig .tc) (hr : r ∈ argRefs) :
    afterConv1 V0 (no_index (Proc.devRef .tc r)) = V0 (Proc.devRef .tc r) :=
  (afterConv1_keep V0 r (argRefs_not_opsConv1 r hr)).trans (afterEdges_arg V0 r hr)

theorem afterConv1_v1 (V0 : Valuation τ sig (Elt F)) :
    afterConv1 V0 (no_index (Proc.devRef .tc main_v1)) = Cert.Spec.srcRow (V0 (Proc.devRef .tc main_arg1)) :=
  (afterConv1_keep V0 main_v1 (by decide)).trans (afterEdges_v1 V0)

theorem afterConv1_v3 (V0 : Valuation τ sig (Elt F)) :
    afterConv1 V0 (no_index (Proc.devRef .tc main_v3)) = Cert.Spec.dstRow (V0 (Proc.devRef .tc main_arg1)) :=
  (afterConv1_keep V0 main_v3 (by decide)).trans (afterEdges_v3 V0)

/-- The first layer's output, of the arguments. -/
theorem afterConv1_v45 (V0 : Valuation τ sig (Elt F)) :
    afterConv1 V0 (no_index (Proc.devRef .tc main_v45)) = Cert.Spec.conv128 (Cert.Spec.dot128 (V0 (Proc.devRef .tc main_arg0)) (V0 (Proc.devRef .tc main_arg2))) (V0 (Proc.devRef .tc main_arg1)) (V0 (Proc.devRef .tc main_arg3)) := by
  refine (conv1_v45 (afterEdges V0)).trans ?_
  simp (disch := decide) only [afterEdges_v1, afterEdges_v3, afterEdges_arg]
  rfl

/-- … once the first hidden state is formed. -/
def afterNorm1 (V0 : Valuation τ sig (Elt F)) : Valuation τ sig (Elt F) :=
  after opsNorm1 (after opsSum1 (afterConv1 V0))

theorem afterNorm1_keep (V0 : Valuation τ sig (Elt F)) (r : Ref sig .tc) (h0 : r ∉ opsNorm1_W) (h1 : r ∉ opsSum1_W) :
    afterNorm1 V0 (Proc.devRef .tc r) = (afterConv1 V0) (Proc.devRef .tc r) :=
  (after_of_writes_sub opsNorm1 _ opsNorm1_writes h0).trans (after_of_writes_sub opsSum1 _ opsSum1_writes h1)

theorem afterNorm1_arg (V0 : Valuation τ sig (Elt F)) (r : Ref sig .tc) (hr : r ∈ argRefs) :
    afterNorm1 V0 (no_index (Proc.devRef .tc r)) = V0 (Proc.devRef .tc r) :=
  (afterNorm1_keep V0 r (argRefs_not_opsNorm1 r hr) (argRefs_not_opsSum1 r hr)).trans (afterConv1_arg V0 r hr)

theorem afterNorm1_v1 (V0 : Valuation τ sig (Elt F)) :
    afterNorm1 V0 (no_index (Proc.devRef .tc main_v1)) = Cert.Spec.srcRow (V0 (Proc.devRef .tc main_arg1)) :=
  (afterNorm1_keep V0 main_v1 (by decide) (by decide)).trans (afterConv1_v1 V0)

theorem afterNorm1_v3 (V0 : Valuation τ sig (Elt F)) :
    afterNorm1 V0 (no_index (Proc.devRef .tc main_v3)) = Cert.Spec.dstRow (V0 (Proc.devRef .tc main_arg1)) :=
  (afterNorm1_keep V0 main_v3 (by decide) (by decide)).trans (afterConv1_v3 V0)

/-- The first hidden state, of the arguments. -/
theorem afterNorm1_v65 (V0 : Valuation τ sig (Elt F)) :
    afterNorm1 V0 (no_index (Proc.devRef .tc main_v65)) = Cert.Spec.hidden1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  refine (norm1_v65 (afterConv1 V0)).trans ?_
  simp (disch := decide) only [afterConv1_v45, afterConv1_arg]
  rfl

/-- … once the second layer's output is formed. -/
def afterConv2 (V0 : Valuation τ sig (Elt F)) : Valuation τ sig (Elt F) :=
  after opsConv2b (after opsConv2a (afterNorm1 V0))

theorem afterConv2_keep (V0 : Valuation τ sig (Elt F)) (r : Ref sig .tc) (h0 : r ∉ opsConv2b_W) (h1 : r ∉ opsConv2a_W) :
    afterConv2 V0 (Proc.devRef .tc r) = (afterNorm1 V0) (Proc.devRef .tc r) :=
  (after_of_writes_sub opsConv2b _ opsConv2b_writes h0).trans (after_of_writes_sub opsConv2a _ opsConv2a_writes h1)

theorem afterConv2_arg (V0 : Valuation τ sig (Elt F)) (r : Ref sig .tc) (hr : r ∈ argRefs) :
    afterConv2 V0 (no_index (Proc.devRef .tc r)) = V0 (Proc.devRef .tc r) :=
  (afterConv2_keep V0 r (argRefs_not_opsConv2b r hr) (argRefs_not_opsConv2a r hr)).trans (afterNorm1_arg V0 r hr)

theorem afterConv2_v1 (V0 : Valuation τ sig (Elt F)) :
    afterConv2 V0 (no_index (Proc.devRef .tc main_v1)) = Cert.Spec.srcRow (V0 (Proc.devRef .tc main_arg1)) :=
  (afterConv2_keep V0 main_v1 (by decide) (by decide)).trans (afterNorm1_v1 V0)

theorem afterConv2_v3 (V0 : Valuation τ sig (Elt F)) :
    afterConv2 V0 (no_index (Proc.devRef .tc main_v3)) = Cert.Spec.dstRow (V0 (Proc.devRef .tc main_arg1)) :=
  (afterConv2_keep V0 main_v3 (by decide) (by decide)).trans (afterNorm1_v3 V0)

theorem afterConv2_v65 (V0 : Valuation τ sig (Elt F)) :
    afterConv2 V0 (no_index (Proc.devRef .tc main_v65)) = Cert.Spec.hidden1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (afterConv2_keep V0 main_v65 (by decide) (by decide)).trans (afterNorm1_v65 V0)

/-- The second layer's output, of the arguments. -/
theorem afterConv2_v108 (V0 : Valuation τ sig (Elt F)) :
    afterConv2 V0 (no_index (Proc.devRef .tc main_v108)) = Cert.Spec.conv128 (Cert.Spec.dot128 (Cert.Spec.relu (Cert.Spec.hidden1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)))) (V0 (Proc.devRef .tc main_arg6))) (V0 (Proc.devRef .tc main_arg1)) (V0 (Proc.devRef .tc main_arg7)) := by
  refine (conv2_v108 (afterNorm1 V0)).trans ?_
  simp (disch := decide) only [afterNorm1_v65, afterNorm1_v1, afterNorm1_v3, afterNorm1_arg]
  rfl

/-- … once the second hidden state is formed. -/
def afterNorm2 (V0 : Valuation τ sig (Elt F)) : Valuation τ sig (Elt F) :=
  after opsNorm2 (afterConv2 V0)

theorem afterNorm2_keep (V0 : Valuation τ sig (Elt F)) (r : Ref sig .tc) (h0 : r ∉ opsNorm2_W) :
    afterNorm2 V0 (Proc.devRef .tc r) = (afterConv2 V0) (Proc.devRef .tc r) :=
  after_of_writes_sub opsNorm2 _ opsNorm2_writes h0

theorem afterNorm2_arg (V0 : Valuation τ sig (Elt F)) (r : Ref sig .tc) (hr : r ∈ argRefs) :
    afterNorm2 V0 (no_index (Proc.devRef .tc r)) = V0 (Proc.devRef .tc r) :=
  (afterNorm2_keep V0 r (argRefs_not_opsNorm2 r hr)).trans (afterConv2_arg V0 r hr)

theorem afterNorm2_v1 (V0 : Valuation τ sig (Elt F)) :
    afterNorm2 V0 (no_index (Proc.devRef .tc main_v1)) = Cert.Spec.srcRow (V0 (Proc.devRef .tc main_arg1)) :=
  (afterNorm2_keep V0 main_v1 (by decide)).trans (afterConv2_v1 V0)

theorem afterNorm2_v3 (V0 : Valuation τ sig (Elt F)) :
    afterNorm2 V0 (no_index (Proc.devRef .tc main_v3)) = Cert.Spec.dstRow (V0 (Proc.devRef .tc main_arg1)) :=
  (afterNorm2_keep V0 main_v3 (by decide)).trans (afterConv2_v3 V0)

/-- The second hidden state, of the arguments. -/
theorem afterNorm2_v128 (V0 : Valuation τ sig (Elt F)) :
    afterNorm2 V0 (no_index (Proc.devRef .tc main_v128)) = Cert.Spec.hidden2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  refine (norm2_v128 (afterConv2 V0)).trans ?_
  simp (disch := decide) only [afterConv2_v108, afterConv2_v65, afterConv2_arg]
  rfl

/-- … once the third layer's output, the network's result, is formed: after all of @main. -/
def afterConv3 (V0 : Valuation τ sig (Elt F)) : Valuation τ sig (Elt F) :=
  after opsConv3b (after opsConv3a (afterNorm2 V0))

theorem afterConv3_keep (V0 : Valuation τ sig (Elt F)) (r : Ref sig .tc) (h0 : r ∉ opsConv3b_W) (h1 : r ∉ opsConv3a_W) :
    afterConv3 V0 (Proc.devRef .tc r) = (afterNorm2 V0) (Proc.devRef .tc r) :=
  (after_of_writes_sub opsConv3b _ opsConv3b_writes h0).trans (after_of_writes_sub opsConv3a _ opsConv3a_writes h1)

theorem afterConv3_arg (V0 : Valuation τ sig (Elt F)) (r : Ref sig .tc) (hr : r ∈ argRefs) :
    afterConv3 V0 (no_index (Proc.devRef .tc r)) = V0 (Proc.devRef .tc r) :=
  (afterConv3_keep V0 r (argRefs_not_opsConv3b r hr) (argRefs_not_opsConv3a r hr)).trans (afterNorm2_arg V0 r hr)

/-- The network's result, of the arguments. -/
theorem afterConv3_v171 (V0 : Valuation τ sig (Elt F)) :
    afterConv3 V0 (no_index (Proc.devRef .tc main_v171)) = Cert.Spec.refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  refine (conv3_v171 (afterNorm2 V0)).trans ?_
  simp (disch := decide) only [afterNorm2_v128, afterNorm2_v1, afterNorm2_v3, afterNorm2_arg]
  rfl

/-- The fold over all of @main's operations is the last stage. -/
theorem after_ops (V0 : Valuation τ sig (Elt F)) : after ops V0 = afterConv3 V0 := by
  simp only [ops, ops_part0, ops_part1, ops_part2, ops_part3, after_append]
  rfl

/-- On every device, for any float values, from any memory with zero counters: every weakly fair execution of
    @main terminates with the result buffer at the specification's network of the arguments and the arguments
    unchanged. -/
theorem runF (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v171) = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v171).trans ((congrFun (after_ops (launchContents m c)) _).trans (afterConv3_v171 (launchContents m c))),
      (h c main_arg0).trans ((congrFun (after_ops (launchContents m c)) _).trans (afterConv3_arg (launchContents m c) main_arg0 (by decide))),
      (h c main_arg1).trans ((congrFun (after_ops (launchContents m c)) _).trans (afterConv3_arg (launchContents m c) main_arg1 (by decide))),
      (h c main_arg2).trans ((congrFun (after_ops (launchContents m c)) _).trans (afterConv3_arg (launchContents m c) main_arg2 (by decide))),
      (h c main_arg3).trans ((congrFun (after_ops (launchContents m c)) _).trans (afterConv3_arg (launchContents m c) main_arg3 (by decide))),
      (h c main_arg4).trans ((congrFun (after_ops (launchContents m c)) _).trans (afterConv3_arg (launchContents m c) main_arg4 (by decide))),
      (h c main_arg5).trans ((congrFun (after_ops (launchContents m c)) _).trans (afterConv3_arg (launchContents m c) main_arg5 (by decide))),
      (h c main_arg6).trans ((congrFun (after_ops (launchContents m c)) _).trans (afterConv3_arg (launchContents m c) main_arg6 (by decide))),
      (h c main_arg7).trans ((congrFun (after_ops (launchContents m c)) _).trans (afterConv3_arg (launchContents m c) main_arg7 (by decide))),
      (h c main_arg8).trans ((congrFun (after_ops (launchContents m c)) _).trans (afterConv3_arg (launchContents m c) main_arg8 (by decide))),
      (h c main_arg9).trans ((congrFun (after_ops (launchContents m c)) _).trans (afterConv3_arg (launchContents m c) main_arg9 (by decide))),
      (h c main_arg10).trans ((congrFun (after_ops (launchContents m c)) _).trans (afterConv3_arg (launchContents m c) main_arg10 (by decide))),
      (h c main_arg11).trans ((congrFun (after_ops (launchContents m c)) _).trans (afterConv3_arg (launchContents m c) main_arg11 (by decide)))⟩)
    (run_seq scopedRefs_eq scopedSems_eq defs main (fun _ => ops) main_eq (fun _ => ops_sub) m ρ)

/-- The same at the ideal reading of the floats. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v171) = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  runF m ρ

end Cert.ReferenceIdeal.RefRun

end
-- ==== Proof.lean ====
/-
  The proof of `Cert.Claim`: a three-layer graph-convolution network — each layer a dense product followed by an
  aggregation over the edges (one loop added per node) weighted by `deg^{-1/2}` at both endpoints, the first two
  layers followed by a per-column normalization over the nodes, the layer's input added back and a rectifier —
  computed by a program whose dense parts are five TensorCore regions (product, normalization with skip, product,
  normalization with skip, product) among host operations, and by a reference in host operations alone.

  The five claims and how each is closed:

  * the two frames of the kernel program (as printed, and idealized): each of its five regions is a pipeline over
    blocks of rows whose body loads, computes and stores through fixed rectangles, and no host operation or region
    writes an argument array; this is the generated frame certificate `Gen.frame`, at any float values.
  * the frame of the reference: its @main is a straight line of 256 host operations (the variance, the selection
    inside it and the rectifier, which it calls, read in place), so every execution is the fold of the operations'
    results; the arguments are written by none (`RefRun.run`, its second part).
  * the idealization preserves the kernel program: the ideal pass rewrote nothing, the claim is `True`.
  * at the ideal reading of the floats (extended reals, exact operations) both programs end with the same result:
    the reference's fold is the specification's network `Cert.Spec.refOut` of the argument arrays, stage by stage
    (`RefRun.run`); the kernel program's result array, read through its thirteen segments (each region's blocks
    cover its arrays, each block is the stage's function of the rows it reads), is `Cert.Spec.kernOut` of the
    same arrays — the same network with each normalization's statistics kept as rows `[1, 128]` rather than
    vectors `[128]` —; and the two forms of the normalization agree entry by entry (`Cert.Spec.kernOut_eq`).
    No arithmetic law beyond that re-layout is used: the two programs apply the same operations in the same order.
-/
import proofs.«156291_j67765993996292_1_alg».proof.Defs
import proofs.«156291_j67765993996292_1_alg».proof.Proof.Gen.Kernel
import proofs.«156291_j67765993996292_1_alg».proof.Proof.Gen.Kernel.Skeleton
import proofs.«156291_j67765993996292_1_alg».proof.Proof.Gen.Kernel.Launch
import proofs.«156291_j67765993996292_1_alg».proof.Proof.Gen.Kernel.Points
import proofs.«156291_j67765993996292_1_alg».proof.Proof.Gen.Kernel.Frame
import proofs.«156291_j67765993996292_1_alg».proof.Proof.Gen.KernelIdeal
import proofs.«156291_j67765993996292_1_alg».proof.Proof.Gen.KernelIdeal.Skeleton
import proofs.«156291_j67765993996292_1_alg».proof.Proof.Gen.KernelIdeal.Launch
import proofs.«156291_j67765993996292_1_alg».proof.Proof.Gen.KernelIdeal.Points
import proofs.«156291_j67765993996292_1_alg».proof.Proof.Gen.KernelIdeal.Frame
import proofs.«156291_j67765993996292_1_alg».proof.Proof.Gen.ReferenceIdeal
import proofs.«156291_j67765993996292_1_alg».proof.Proof.Gen.Pre_finite_inputs
import proofs.«156291_j67765993996292_1_alg».proof.Proof.KernRun
import proofs.«156291_j67765993996292_1_alg».proof.Proof.KernValue3
import proofs.«156291_j67765993996292_1_alg».proof.Proof.RefRun
import proofs.«156291_j67765993996292_1_alg».proof.Proof.SpecKernel
import Idealize.ShloMosaic.Adequacy
import Idealize.ShloMosaic.Init

noncomputable section

namespace Cert.Proof

open Idealize.ShloMosaic Idealize.ShloMosaic.TcCoe Idealize.SL.Sem

/-- The kernel program as printed runs and leaves its arguments: the generated frame certificate. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and leaves its arguments: its run read back, the result dropped. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote no operation of the kernel program. -/
theorem preserves : Cert.preserves_Kernel_KernelIdeal := trivial

/-- Both programs end with the network's output of the argument arrays: the kernel program's result array after its
    last host stretch is the row-statistics form of the network (`out_value`), the reference's result is the
    vector-statistics form of the arrays it was launched with, which agree with the kernel program's, and the two
    forms are one function. -/
theorem algebraic : Cert.algebraic_KernelIdeal_ReferenceIdeal := by
  intro m ρ m' ρ' _ hagree
  refine ⟨fun c => Cert.Spec.kernOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun _ h c => ⟨(h c).1.trans (Cert.KernelIdeal.Value.out_value m ρ c), (h c).2⟩)
      (Cert.KernelIdeal.Gen.run_value m ρ)
  · refine (θ_run Cert.ReferenceIdeal.defs _ _).mono (fun _ h c => ⟨(h c).1.trans ?_, (h c).2⟩) (Cert.ReferenceIdeal.RefRun.run m' ρ')
    obtain ⟨h0, h1, h2, h3, h4, h5, h6, h7, h8, h9, h10, h11⟩ := hagree c
    rw [h0, h1, h2, h3, h4, h5, h6, h7, h8, h9, h10, h11]
    exact (Cert.Spec.kernOut_eq _ _ _ _ _ _ _ _ _ _ _ _).symm

/-- Everything claimed, under the generated witnesses of the programs' stated side conditions. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
